-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x600000 : Shape := ⟨2, ![2, 600000]⟩
abbrev S9x64 : Shape := ⟨2, ![9, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x3 : Shape := ⟨2, ![64, 3]⟩
abbrev S3 : Shape := ⟨1, ![3]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S64x3 .f32) (main_arg16 : FVec F S3 .f32) (main_v63 : IVec S_ 1) (main_v67 : IVec S_ 1) : IVec S_ 1 :=
  let main_v68 : IVec S_ 1 := andi main_v63 main_v67
  let main_v69 : FVec F S64x3 .f32 := Host.absf main_arg15
  let main_cst_26 : FVec F S_ .f32 := constant S_ .f32 0x7F800000#32
  let main_v70 : FVec F S64x3 .f32 := broadcastInDim S64x3 ![] bcast_S_S64x3 main_cst_26
  let main_v71 : IVec S64x3 1 := cmpf .olt main_v69 main_v70
  let main_c_27 : IVec S_ 1 := constantI S_ 1 1#1
  let main_v72 : IVec S_ 1 := (fun x v => Host.reduce IntOp.andi x v reducesTo_S64x3_S_d0_1 h_S_) main_v71 main_c_27
  let main_v73 : IVec S_ 1 := andi main_v68 main_v72
  let main_v74 : FVec F S3 .f32 := Host.absf main_arg16
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg12 : FVec F S128 .f32) (main_arg13 : FVec F S128x64 .f32) (main_arg14 : FVec F S64 .f32) (main_arg15 : FVec F S64x3 .f32) (main_arg16 : FVec F S3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x3 .f32) (main_arg16 : FVec F S3 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S64x128 .f32) (main_arg6 : FVec F S128 .f32) (main_arg7 : FVec F S64x128 .f32) (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x3 .f32) (main_arg16 : FVec F S3 .f32) (main_v13 : IVec S_ 1) (main_v16 : IVec S9x64 1) : IVec S_ 1 :=
  let main_c_5 : IVec S_ 1 := constantI S_ 1 1#1
  let main_v17 : IVec S_ 1 := (fun x v => Host.reduce IntOp.andi x v reducesTo_S9x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x9 .f32) (main_arg1 : IVec S2x600000 32) (main_arg2 : FVec F S9x64 .f32) (main_arg3 : FVec F S64 .f32) (main_arg4 : FVec F S9x64 .f32) (main_arg5 : FVec F S64x128 .f32) (main_arg6 : FVec F S128 .f32) (main_arg7 : FVec F S64x128 .f32) (main_arg8 : FVec F S128x128 .f32) (main_arg9 : FVec F S128 .f32) (main_arg10 : FVec F S128x128 .f32) (main_arg11 : FVec F S128x128 .f32) (main_arg12 : FVec F S128 .f32) (main_arg13 : FVec F S128x64 .f32) (main_arg14 : FVec F S64 .f32) (main_arg15 : FVec F S64x3 .f32) (main_arg16 : FVec F S3 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x64 .f32 := Host.absf main_arg2
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S9x64 .f32 := Host.absf main_arg4
  let main_cst_4 : FVec F S_ .f32 := constant S_ .f32 0x7F800000#32
  let main_v15 : FVec F S9x64 .f32 := broadcastInDim S9x64 ![] bcast_S_S9x64 main_cst_4
  let main_v16 : IVec S9x64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x9 : Shape := ⟨2, ![100000, 9]⟩
abbrev S2x600000 : Shape := ⟨2, ![2, 600000]⟩
abbrev S9x64 : Shape := ⟨2, ![9, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x3 : Shape := ⟨2, ![64, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x9 : Shape := ⟨2, ![600000, 9]⟩
abbrev S1x64 : Shape := ⟨2, ![1, 64]⟩
abbrev S100000x64 : Shape := ⟨2, ![100000, 64]⟩
abbrev S5000x9 : Shape := ⟨2, ![5000, 9]⟩
abbrev S5000x64 : Shape := ⟨2, ![5000, 64]⟩
abbrev S5000 : Shape := ⟨1, ![5000]⟩
abbrev S5000x1 : Shape := ⟨2, ![5000, 1]⟩
abbrev S600000x64 : Shape := ⟨2, ![600000, 64]⟩
abbrev S1x128 : Shape := ⟨2, ![1, 128]⟩
abbrev S100000x128 : Shape := ⟨2, ![100000, 128]⟩
abbrev S5000x128 : Shape := ⟨2, ![5000, 128]⟩
abbrev S600000x128 : Shape := ⟨2, ![600000, 128]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 85
  | .vmem => 33
  | .smem => 0
  | _ => 0

abbrev bufTy : (tb : Table) → Fin (tcTables nBuf tb) → BufTy
  | .hbm, ⟨0, _⟩ => ⟨S100000x9, .f32⟩
  | .hbm, ⟨1, _⟩ => ⟨S2x600000, .i32⟩
  | .hbm, ⟨2, _⟩ => ⟨S9x64, .f32⟩
  | .hbm, ⟨3, _⟩ => ⟨S64, .f32⟩
  | .hbm, ⟨4, _⟩ => ⟨S9x64, .f32⟩
  | .hbm, ⟨5, _⟩ => ⟨S64x128, .f32⟩
  | .hbm, ⟨6, _⟩ => ⟨S128, .f32⟩
  | .hbm, ⟨7, _⟩ => ⟨S64x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x3, .f32⟩
  | .hbm, ⟨16, _⟩ => ⟨S3, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S100000, .f32⟩
  | .hbm, ⟨25, _⟩ => ⟨S600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x9, .f32⟩
  | .hbm, ⟨40, _⟩ => ⟨S_, .f32⟩
  | .hbm, ⟨41, _⟩ => ⟨S100000x9, .f32⟩
  | .hbm, ⟨42, _⟩ => ⟨S600000x1, .i32⟩
  | .hbm, ⟨43, _⟩ => ⟨S100000x9, .f32⟩
  | .hbm, ⟨44, _⟩ => ⟨S100000x9, .f32⟩
  | .hbm, ⟨45, _⟩ => ⟨S100000x9, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x64, .f32⟩
  | .hbm, ⟨57, _⟩ => ⟨S_, .f32⟩
  | .hbm, ⟨58, _⟩ => ⟨S100000x64, .f32⟩
  | .hbm, ⟨59, _⟩ => ⟨S600000x1, .i32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S_, .f32⟩
  | .hbm, ⟨75, _⟩ => ⟨S100000x128, .f32⟩
  | .hbm, ⟨76, _⟩ => ⟨S600000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S1x128, .f32⟩
  | .hbm, ⟨82, _⟩ => ⟨S1x64, .f32⟩
  | .hbm, ⟨83, _⟩ => ⟨S1x3, .f32⟩
  | .hbm, ⟨84, _⟩ => ⟨S100000x3, .f32⟩
  | .local _ .vmem, ⟨0, _⟩ => ⟨S5000x9, .f32⟩
  | .local _ .vmem, ⟨1, _⟩ => ⟨S5000x9, .f32⟩
  | .local _ .vmem, ⟨2, _⟩ => ⟨S5000x9, .f32⟩
  | .local _ .vmem, ⟨3, _⟩ => ⟨S5000x9, .f32⟩
  | .local _ .vmem, ⟨4, _⟩ => ⟨S9x64, .f32⟩
  | .local _ .vmem, ⟨5, _⟩ => ⟨S1x64, .f32⟩
  | .local _ .vmem, ⟨6, _⟩ => ⟨S9x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x128, .f32⟩
  | .local _ .vmem, ⟨14, _⟩ => ⟨S1x128, .f32⟩
  | .local _ .vmem, ⟨15, _⟩ => ⟨S64x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S128x64, .f32⟩
  | .local _ .vmem, ⟨28, _⟩ => ⟨S1x64, .f32⟩
  | .local _ .vmem, ⟨29, _⟩ => ⟨S64x3, .f32⟩
  | .local _ .vmem, ⟨30, _⟩ => ⟨S1x3, .f32⟩
  | .local _ .vmem, ⟨31, _⟩ => ⟨S5000x3, .f32⟩
  | .local _ .vmem, ⟨32, _⟩ => ⟨S5000x3, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_7 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg11_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem11_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x3 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x3 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x3 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x9 : S_.BroadcastsInDim S100000x9 (![] : Fin 0 → Fin S100000x9.rank)
  bcast_S100000x1_S100000x9_0_1 : S100000x1.BroadcastsInDim S100000x9 (![0, 1] : Fin 2 → Fin S100000x9.rank)
  shapeCasts_S64_S1x64 : S64.ShapeCasts S1x64
  inb_S5000x9_S5000x9_0_0 : ∀ a, (![0, 0] : Fin 2 → Nat) a + S5000x9.size a ≤ S5000x9.size a
  h_S5000x9 : 0 < S5000x9.numel
  shapeCasts_S5000x9_S5000x9 : S5000x9.ShapeCasts S5000x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S3_S1x3 : S3.ShapeCasts S1x3
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  reduces_S5000x3_S5000 : S5000x3.Reduces [1] S5000
  broadcasts_S5000x1_S5000x3 : S5000x1.Broadcasts S5000x3
  inb_S5000x3_S5000x3_0_0 : ∀ a, (![0, 0] : Fin 2 → Nat) a + S5000x3.size a ≤ S5000x3.size a
  h_S5000x3 : 0 < S5000x3.numel
  scatter_S100000_S600000x1_S600000_n_0_0_1_wf : ScatterDims.WF S100000 S600000x1 S600000 [] [0] [0] 1
  gather_S100000x9_S600000x1_S600000x9_1_0_n_n_0_1_19_wf : GatherDims.WF S100000x9 S600000x1 S600000x9 [1] [0] [] [0] [] 1 ![1, 9]
  scatter_S100000x9_S600000x1_S600000x9_1_0_0_1_wf : ScatterDims.WF S100000x9 S600000x1 S600000x9 [1] [0] [0] 1
  dot_S5000x9_S9x64_S5000x64_1_0_0_1_n_n_wf : DotDims.WF S5000x9 S9x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S5000x64_S64x128_S5000x128_1_0_0_1_n_n_wf : DotDims.WF S5000x64 S64x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x3_S5000x3_1_0_0_1_n_n_wf : DotDims.WF S5000x64 S64x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S100000x9.size a
  hwx0_0 : ∀ i : grid0.Coords, EltTy.bits .f32 = 32 ∨ (Rect.block (s := S100000x9) S5000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x9.size a ≤ S100000x9.size a
  hwx0_1 : ∀ i : grid0.Coords, EltTy.bits .f32 = 32 ∨ (Rect.block (s := S100000x9) S5000x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64.size a ≤ S9x64.size a
  hwx0_2 : ∀ i : grid0.Coords, EltTy.bits .f32 = 32 ∨ (Rect.block (s := S9x64) S9x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x64.size a ≤ S9x64.size a
  hwx0_4 : ∀ i : grid0.Coords, EltTy.bits .f32 = 32 ∨ (Rect.block (s := S9x64) S9x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x64.size a ≤ S128x64.size a
  hwx2_7 : ∀ i : grid2.Coords, EltTy.bits .f32 = 32 ∨ (Rect.block (s := S128x64) S128x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x3.size a ≤ S64x3.size a
  hwx2_9 : ∀ i : grid2.Coords, EltTy.bits .f32 = 32 ∨ (Rect.block (s := S64x3) S64x3.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x3.size a ≤ S1x3.size a
  hwx2_10 : ∀ i : grid2.Coords, EltTy.bits .f32 = 32 ∨ (Rect.block (s := S1x3) S1x3.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x3.size a ≤ S100000x3.size a
  hwx2_11 : ∀ i : grid2.Coords, EltTy.bits .f32 = 32 ∨ (Rect.block (s := S100000x3) S5000x3.size (cc2_transform_11 i) (hinb2_11 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x9_S600000x1_S600000x9_1_0_n_n_0_1_19 : GatherDims S100000x9 S600000x1 S600000x9 where
  offsetDims := [1]
  collapsedSliceDims := [0]
  operandBatchingDims := []
  startIndicesBatchingDims := []
  startIndexMap := [0]
  indexVectorDim := 1
  sliceSizes := ![1, 9]
  wf := gather_S100000x9_S600000x1_S600000x9_1_0_n_n_0_1_19_wf
def scatter_S100000x9_S600000x1_S600000x9_1_0_0_1 : ScatterDims S100000x9 S600000x1 S600000x9 where
  updateWindowDims := [1]
  insertedWindowDims := [0]
  scatterDimsToOperandDims := [0]
  indexVectorDim := 1
  wf := scatter_S100000x9_S600000x1_S600000x9_1_0_0_1_wf
def dot_S5000x9_S9x64_S5000x64_1_0_0_1_n_n : DotDims S5000x9 S9x64 S5000x64 where
  lhsContracting := [1]
  rhsContracting := [0]
  lhsNonContracting := [0]
  rhsNonContracting := [1]
  lhsBatch := []
  rhsBatch := []
  wf := dot_S5000x9_S9x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf

abbrev win0_0 : Pipeline.Window sig grid0 :=
  Pipeline.Window.ofSpec (Memref.whole main_arg0) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S9x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S9x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S128x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v53) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg15) S64x3.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v54) S1x3.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v55) S5000x3.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x9 : Shape := ⟨2, ![100000, 9]⟩
abbrev S2x600000 : Shape := ⟨2, ![2, 600000]⟩
abbrev S9x64 : Shape := ⟨2, ![9, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x3 : Shape := ⟨2, ![64, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x9 : Shape := ⟨2, ![600000, 9]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S600000x64 : Shape := ⟨2, ![600000, 64]⟩
abbrev S100000x128 : Shape := ⟨2, ![100000, 128]⟩
abbrev S1x128 : Shape := ⟨2, ![1, 128]⟩
abbrev S600000x128 : Shape := ⟨2, ![600000, 128]⟩
abbrev S100000x3 : Shape := ⟨2, ![100000, 3]⟩
abbrev S1x3 : Shape := ⟨2, ![1, 3]⟩

abbrev nBuf : Space → Nat
  | .hbm => 163
  | .vmem => 0
  | .smem => 0
  | _ => 0

abbrev hbmTy0_0 (i : Nat) : BufTy := match i % 128 with
  | 0 => ⟨S100000x9, .f32⟩
  | 1 => ⟨S2x600000, .i32⟩
  | 2 => ⟨S9x64, .f32⟩
  | 3 => ⟨S64, .f32⟩
  | 4 => ⟨S9x64, .f32⟩
  | 5 => ⟨S64x128, .f32⟩
  | 6 => ⟨S128, .f32⟩
  | 7 => ⟨S64x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x64, .f32⟩
  | 14 => ⟨S64, .f32⟩
  | 15 => ⟨S64x3, .f32⟩
  | 16 => ⟨S3, .f32⟩
  | 17 => ⟨S1x600000, .i32⟩
  | 18 => ⟨S600000, .i32⟩
  | 19 => ⟨S1x600000, .i32⟩
  | 20 => ⟨S600000, .i32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x9, .f32⟩
  | 30 => ⟨S_, .f32⟩
  | 31 => ⟨S100000x9, .f32⟩
  | 32 => ⟨S600000x1, .i32⟩
  | 33 => ⟨S100000x9, .f32⟩
  | 34 => ⟨S_, .f32⟩
  | 35 => ⟨S600000, .f32⟩
  | 36 => ⟨S_, .f32⟩
  | 37 => ⟨S100000, .f32⟩
  | 38 => ⟨S600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x9, .f32⟩
  | 45 => ⟨S100000x9, .f32⟩
  | 46 => ⟨S100000x64, .f32⟩
  | 47 => ⟨S1x64, .f32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S_, .f32⟩
  | 54 => ⟨S100000, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000x64, .f32⟩
  | 74 => ⟨S_, .f32⟩
  | 75 => ⟨S100000x64, .f32⟩
  | 76 => ⟨S600000x1, .i32⟩
  | 77 => ⟨S100000x64, .f32⟩
  | 78 => ⟨S_, .f32⟩
  | 79 => ⟨S600000, .f32⟩
  | 80 => ⟨S_, .f32⟩
  | 81 => ⟨S100000, .f32⟩
  | 82 => ⟨S600000x1, .i32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x64, .f32⟩
  | 89 => ⟨S100000x64, .f32⟩
  | 90 => ⟨S100000x128, .f32⟩
  | 91 => ⟨S1x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x128, .f32⟩
  | 108 => ⟨S_, .f32⟩
  | 109 => ⟨S100000x128, .f32⟩
  | 110 => ⟨S600000x1, .i32⟩
  | 111 => ⟨S100000x128, .f32⟩
  | 112 => ⟨S_, .f32⟩
  | 113 => ⟨S600000, .f32⟩
  | 114 => ⟨S_, .f32⟩
  | 115 => ⟨S100000, .f32⟩
  | 116 => ⟨S600000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x9, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x3, .f32⟩
  | 17 => ⟨S1x3, .f32⟩
  | 18 => ⟨S100000x3, .f32⟩
  | 19 => ⟨S100000x3, .f32⟩
  | 20 => ⟨S_, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x3, .f32⟩
  | 27 => ⟨S100000x3, .f32⟩
  | 28 => ⟨S100000x3, .f32⟩
  | 29 => ⟨S_, .f32⟩
  | 30 => ⟨S100000, .f32⟩
  | 31 => ⟨S100000x1, .f32⟩
  | 32 => ⟨S100000x1, .f32⟩
  | 33 => ⟨S100000x3, .f32⟩
  | 34 => ⟨S100000x3, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_v0 : Ref sig .tc := ⟨.hbm, 52, rfl⟩
abbrev main_call0_cst : Ref sig .tc := ⟨.hbm, 53, rfl⟩
abbrev main_call0_v1 : Ref sig .tc := ⟨.hbm, 54, rfl⟩
abbrev main_call0_v2 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call1_cst : Ref sig .tc := ⟨.hbm, 62, rfl⟩
abbrev main_call1_v0 : Ref sig .tc := ⟨.hbm, 63, rfl⟩
abbrev main_v34 : Ref sig .tc := ⟨.hbm, 64, rfl⟩
abbrev main_c_5 : Ref sig .tc := ⟨.hbm, 65, rfl⟩
abbrev main_v35 : Ref sig .tc := ⟨.hbm, 66, rfl⟩
abbrev main_v36 : Ref sig .tc := ⟨.hbm, 67, rfl⟩
abbrev main_c_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_cst_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_10 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call2_cst : Ref sig .tc := ⟨.hbm, 96, rfl⟩
abbrev main_call2_v0 : Ref sig .tc := ⟨.hbm, 97, rfl⟩
abbrev main_v60 : Ref sig .tc := ⟨.hbm, 98, rfl⟩
abbrev main_c_11 : Ref sig .tc := ⟨.hbm, 99, rfl⟩
abbrev main_v61 : Ref sig .tc := ⟨.hbm, 100, rfl⟩
abbrev main_v62 : Ref sig .tc := ⟨.hbm, 101, rfl⟩
abbrev main_c_12 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_14 : Ref sig .tc := ⟨.hbm, 112, rfl⟩
abbrev main_v71 : Ref sig .tc := ⟨.hbm, 113, rfl⟩
abbrev main_cst_15 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_16 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_call3_cst : Ref sig .tc := ⟨.hbm, 134, rfl⟩
abbrev main_call3_v0 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_call4_cst : Ref sig .tc := ⟨.hbm, 141, rfl⟩
abbrev main_call4_v0 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_call5_cst : Ref sig .tc := ⟨.hbm, 148, rfl⟩
abbrev main_call5_v0 : Ref sig .tc := ⟨.hbm, 149, rfl⟩
abbrev main_call5_cst_0 : Ref sig .tc := ⟨.hbm, 150, rfl⟩
abbrev main_call5_v1 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_v6 : Ref sig .tc := ⟨.hbm, 156, rfl⟩
abbrev main_call5_cst_1 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_v100 : Ref sig .tc := ⟨.hbm, 162, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x9 : S_.BroadcastsInDim S100000x9 (![] : Fin 0 → Fin S100000x9.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x9_0_1 : S100000x1.BroadcastsInDim S100000x9 (![0, 1] : Fin 2 → Fin S100000x9.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  bcast_S100000x1_S100000x3_0_1 : S100000x1.BroadcastsInDim S100000x3 (![0, 1] : Fin 2 → Fin S100000x3.rank)
  gather_S100000x9_S600000x1_S600000x9_1_0_n_n_0_1_19_wf : GatherDims.WF S100000x9 S600000x1 S600000x9 [1] [0] [] [0] [] 1 ![1, 9]
  scatter_S100000x9_S600000x1_S600000x9_1_0_0_1_wf : ScatterDims.WF S100000x9 S600000x1 S600000x9 [1] [0] [0] 1
  scatter_S100000_S600000x1_S600000_n_0_0_1_wf : ScatterDims.WF S100000 S600000x1 S600000 [] [0] [0] 1
  dot_S100000x9_S9x64_S100000x64_1_0_0_1_n_n_wf : DotDims.WF S100000x9 S9x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S100000x64_S64x128_S100000x128_1_0_0_1_n_n_wf : DotDims.WF S100000x64 S64x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x3_S100000x3_1_0_0_1_n_n_wf : DotDims.WF S100000x64 S64x3 S100000x3 [1] [0] [0] [1] [] []

variable [Facts₀]

def gather_S100000x9_S600000x1_S600000x9_1_0_n_n_0_1_19 : GatherDims S100000x9 S600000x1 S600000x9 where
  offsetDims := [1]
  collapsedSliceDims := [0]
  operandBatchingDims := []
  startIndicesBatchingDims := []
  startIndexMap := [0]
  indexVectorDim := 1
  sliceSizes := ![1, 9]
  wf := gather_S100000x9_S600000x1_S600000x9_1_0_n_n_0_1_19_wf
def scatter_S100000x9_S600000x1_S600000x9_1_0_0_1 : ScatterDims S100000x9 S600000x1 S600000x9 where
  updateWindowDims := [1]
  insertedWindowDims := [0]
  scatterDimsToOperandDims := [0]
  indexVectorDim := 1
  wf := scatter_S100000x9_S600000x1_S600000x9_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.RefRunStretchA.lean ====
/-
  The reference's line of host operations, first half: from the arguments to the second layer's output.

  The line is cut at the layer outputs (the reason is in the module that composes the stretches). Over ANY contents
  `V` of the buffers, the first stretch (48 operations) takes the argument arrays to the first layer's output stage,
  and the second (34 operations) takes that stage, the edge indices and the second layer's weights to the second
  layer's output stage: within a stretch the fold of the operations and the stage are the same small tree. What a
  stretch does not write passes through it.
-/
import proofs.«138146_j65412351918223_1_alg».proof.Proof.RefOps
import proofs.«138146_j65412351918223_1_alg».proof.Proof.RefReadP

noncomputable section

namespace Cert.ReferenceIdeal.RunRead

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxRecDepth 16384

/-- A stretch, given as so many operations taken or dropped from the literal line, as the literal list it is. -/
local macro "open_stretch" : tactic => `(tactic|
  simp only [List.take_succ_cons, List.take_zero, List.drop_succ_cons, List.drop_zero])

/-! ## Values carried between a called function's operations

An operation of a called function (the row norm, the rectifier, the log-softmax) moves each operand from its buffer's
type to the value's type and its result back. Both moves are along an equation of types that holds by computation, so
a result moved back and forth is the result, and at a literal buffer either move is the identity. -/

private theorem ofBuf_toBuf {T : BufTy} (x : TRef sig T) (v : T.Contents (Elt F)) : x.ofBuf (x.toBuf v) = v := by
  obtain ⟨r, rfl, hd, hu⟩ := x
  rfl

theorem ofBuf_v28 (u : (⟨S100000x64, .f32⟩ : BufTy).Contents (Elt F)) :
    (TRef.of (sig := sig) (T := ⟨S100000x64, .f32⟩) main_v28).ofBuf u = u := rfl
theorem toBuf_v29 (u : (⟨S100000x1, .f32⟩ : BufTy).Contents (Elt F)) :
    (TRef.of (sig := sig) (T := ⟨S100000x1, .f32⟩) main_v29).toBuf u = u := rfl
theorem ofBuf_v33 (u : (⟨S100000x64, .f32⟩ : BufTy).Contents (Elt F)) :
    (TRef.of (sig := sig) (T := ⟨S100000x64, .f32⟩) main_v33).ofBuf u = u := rfl
theorem toBuf_v34 (u : (⟨S100000x64, .f32⟩ : BufTy).Contents (Elt F)) :
    (TRef.of (sig := sig) (T := ⟨S100000x64, .f32⟩) main_v34).toBuf u = u := rfl
theorem ofBuf_v59 (u : (⟨S100000x128, .f32⟩ : BufTy).Contents (Elt F)) :
    (TRef.of (sig := sig) (T := ⟨S100000x128, .f32⟩) main_v59).ofBuf u = u := rfl
theorem toBuf_v60 (u : (⟨S100000x128, .f32⟩ : BufTy).Contents (Elt F)) :
    (TRef.of (sig := sig) (T := ⟨S100000x128, .f32⟩) main_v60).toBuf u = u := rfl

/-- The moves of these stretches' called functions, removed. -/
local macro "unwrap" : tactic => `(tactic| simp only [ofBuf_toBuf, ofBuf_v28, toBuf_v29, ofBuf_v33, toBuf_v34, ofBuf_v59, toBuf_v60])

/-! ## The buffers the two stretches write: what they leave alone passes through -/

/-- The buffers the first stretch writes, in order. -/
abbrev written1 : List (Ref sig .tc) :=
  [ main_v0, main_v1, main_v2, main_v3, main_c, main_v4, main_v5, main_c_0,
    main_v6, main_v7, main_v8, main_v9, main_v10, main_cst, main_v11, main_v12,
    main_v13, main_cst_1, main_v14, main_cst_2, main_v15, main_v16, main_v17, main_cst_3,
    main_v18, main_v19, main_v20, main_v21, main_v22, main_v23, main_v24, main_v25,
    main_v26, main_v27, main_v28, main_call0_v0, main_call0_cst, main_call0_v1, main_call0_v2, main_v29,
    main_cst_4, main_v30, main_v31, main_v32, main_v33, main_call1_cst, main_call1_v0, main_v34 ]

/-- The buffers the second stretch writes, in order. -/
abbrev written2 : List (Ref sig .tc) :=
  [ main_c_5, main_v35, main_v36, main_c_6, main_v37, main_v38, main_v39, main_v40,
    main_v41, main_cst_7, main_v42, main_v43, main_v44, main_cst_8, main_v45, main_cst_9,
    main_v46, main_v47, main_v48, main_cst_10, main_v49, main_v50, main_v51, main_v52,
    main_v53, main_v54, main_v55, main_v56, main_v57, main_v58, main_v59, main_call2_cst,
    main_call2_v0, main_v60 ]

theorem writes1 : ((ops (F := F)).take 48).Forall fun op => op.writes ⊆ (written1.map (Proc.devRef (τ := τ) .tc)).toFinset := by
  simp only [List.take_succ_cons, List.take_zero, List.Forall, nullary_writes, unary_writes, binary_writes,
    ternary_writes, reshape_writes, Finset.singleton_subset_iff, List.mem_toFinset]
  repeat' apply And.intro
  all_goals exact List.mem_map_of_mem (by decide)

theorem writes2 : (((ops (F := F)).drop 48).take 34).Forall fun op => op.writes ⊆ (written2.map (Proc.devRef (τ := τ) .tc)).toFinset := by
  simp only [List.take_succ_cons, List.take_zero, List.drop_succ_cons, List.drop_zero, List.Forall, nullary_writes,
    unary_writes, binary_writes, ternary_writes, reshape_writes, Finset.singleton_subset_iff, List.mem_toFinset]
  repeat' apply And.intro
  all_goals exact List.mem_map_of_mem (by decide)

theorem s1_keep (V : Valuation τ sig (Elt F)) (r : Ref sig .tc) (hr : r ∉ written1) :
    after ((ops (F := F)).take 48) V (Proc.devRef .tc r) = V (Proc.devRef .tc r) :=
  after_of_writes_sub _ V writes1 hr

theorem s2_keep (V : Valuation τ sig (Elt F)) (r : Ref sig .tc) (hr : r ∉ written2) :
    after (((ops (F := F)).drop 48).take 34) V (Proc.devRef .tc r) = V (Proc.devRef .tc r) :=
  after_of_writes_sub _ V writes2 hr

/-! ## The first stretch: from the arguments to the first layer's output -/

theorem s1_v1 (W : Valuation τ sig (Elt F)) :
    after ((ops (F := F)).take 48) W (Proc.devRef .tc main_v1) = val_main_v1 (F := F) (W (Proc.devRef .tc main_arg1)) := by
  open_stretch
  after_results_simp <;> rfl

theorem s1_v3 (W : Valuation τ sig (Elt F)) :
    after ((ops (F := F)).take 48) W (Proc.devRef .tc main_v3) = val_main_v3 (F := F) (W (Proc.devRef .tc main_arg1)) := by
  open_stretch
  after_results_simp <;> rfl

set_option maxHeartbeats 1000000 in
theorem s1_v34 (W : Valuation τ sig (Elt F)) :
    after ((ops (F := F)).take 48) W (Proc.devRef .tc main_v34) = val_main_v34 (F := F) (W (Proc.devRef .tc main_arg0)) (W (Proc.devRef .tc main_arg1)) (W (Proc.devRef .tc main_arg2)) (W (Proc.devRef .tc main_arg3)) (W (Proc.devRef .tc main_arg4)) := by
  open_stretch
  after_results_simp
  unwrap
  rfl

/-! ## The second stretch: from the first layer's output to the second's -/

set_option maxHeartbeats 1000000 in
theorem s2_v60 (V : Valuation τ sig (Elt F)) (x0 : (⟨S100000x9, .f32⟩ : BufTy).Contents (Elt F)) (x1 : (⟨S2x600000, .i32⟩ : BufTy).Contents (Elt F)) (x2 : (⟨S9x64, .f32⟩ : BufTy).Contents (Elt F)) (x3 : (⟨S64, .f32⟩ : BufTy).Contents (Elt F)) (x4 : (⟨S9x64, .f32⟩ : BufTy).Contents (Elt F)) (x5 : (⟨S64x128, .f32⟩ : BufTy).Contents (Elt F)) (x6 : (⟨S128, .f32⟩ : BufTy).Contents (Elt F)) (x7 : (⟨S64x128, .f32⟩ : BufTy).Contents (Elt F))
    (h34 : V (Proc.devRef .tc main_v34) = val_main_v34 (F := F) x0 x1 x2 x3 x4)
    (h1 : V (Proc.devRef .tc main_v1) = val_main_v1 (F := F) x1) (h3 : V (Proc.devRef .tc main_v3) = val_main_v3 (F := F) x1)
    (h5a : V (Proc.devRef .tc main_arg5) = x5) (h6a : V (Proc.devRef .tc main_arg6) = x6) (h7a : V (Proc.devRef .tc main_arg7) = x7) :
    after (((ops (F := F)).drop 48).take 34) V (Proc.devRef .tc main_v60) = val_main_v60 (F := F) x0 x1 x2 x3 x4 x5 x6 x7 := by
  subst h5a h6a h7a
  open_stretch
  after_results_simp
  unwrap
  rw [h34, h1, h3]
  rfl

end Cert.ReferenceIdeal.RunRead

end
-- ==== Proof.RefRunStretchB.lean ====
/-
  The reference's line of host operations, second half: from the second layer's output to the result.

  Over ANY contents `V` of the buffers, the third stretch (49 operations) takes the second layer's output stage, the
  edge indices and the remaining weights to the logits' stage, and the last (15 operations, the log-softmax) takes the
  logits' stage to the result's: within a stretch the fold of the operations and the stage are the same small tree.
-/
import proofs.«138146_j65412351918223_1_alg».proof.Proof.RefOps
import proofs.«138146_j65412351918223_1_alg».proof.Proof.RefReadP

noncomputable section

namespace Cert.ReferenceIdeal.RunRead

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxRecDepth 16384

/-- A stretch, given as so many operations taken or dropped from the literal line, as the literal list it is. -/
local macro "open_stretch" : tactic => `(tactic|
  simp only [List.take_succ_cons, List.take_zero, List.drop_succ_cons, List.drop_zero])

/-! ## Values carried between a called function's operations

An operation of a called function (the row norm, the rectifier, the log-softmax) moves each operand from its buffer's
type to the value's type and its result back. Both moves are along an equation of types that holds by computation, so
a result moved back and forth is the result, and at a literal buffer either move is the identity. -/

private theorem ofBuf_toBuf {T : BufTy} (x : TRef sig T) (v : T.Contents (Elt F)) : x.ofBuf (x.toBuf v) = v := by
  obtain ⟨r, rfl, hd, hu⟩ := x
  rfl

theorem ofBuf_v89 (u : (⟨S100000x128, .f32⟩ : BufTy).Contents (Elt F)) :
    (TRef.of (sig := sig) (T := ⟨S100000x128, .f32⟩) main_v89).ofBuf u = u := rfl
theorem toBuf_v90 (u : (⟨S100000x128, .f32⟩ : BufTy).Contents (Elt F)) :
    (TRef.of (sig := sig) (T := ⟨S100000x128, .f32⟩) main_v90).toBuf u = u := rfl
theorem ofBuf_v94 (u : (⟨S100000x64, .f32⟩ : BufTy).Contents (Elt F)) :
    (TRef.of (sig := sig) (T := ⟨S100000x64, .f32⟩) main_v94).ofBuf u = u := rfl
theorem toBuf_v95 (u : (⟨S100000x64, .f32⟩ : BufTy).Contents (Elt F)) :
    (TRef.of (sig := sig) (T := ⟨S100000x64, .f32⟩) main_v95).toBuf u = u := rfl
theorem ofBuf_v99 (u : (⟨S100000x3, .f32⟩ : BufTy).Contents (Elt F)) :
    (TRef.of (sig := sig) (T := ⟨S100000x3, .f32⟩) main_v99).ofBuf u = u := rfl
theorem toBuf_v100 (u : (⟨S100000x3, .f32⟩ : BufTy).Contents (Elt F)) :
    (TRef.of (sig := sig) (T := ⟨S100000x3, .f32⟩) main_v100).toBuf u = u := rfl

/-- The moves of these stretches' called functions, removed. -/
local macro "unwrap" : tactic => `(tactic| simp only [ofBuf_toBuf, ofBuf_v89, toBuf_v90, ofBuf_v94, toBuf_v95, ofBuf_v99, toBuf_v100])

/-! ## The third stretch: from the second layer's output to the logits -/

set_option maxHeartbeats 1000000 in
theorem s3_v99 (V : Valuation τ sig (Elt F)) (x0 : (⟨S100000x9, .f32⟩ : BufTy).Contents (Elt F)) (x1 : (⟨S2x600000, .i32⟩ : BufTy).Contents (Elt F)) (x2 : (⟨S9x64, .f32⟩ : BufTy).Contents (Elt F)) (x3 : (⟨S64, .f32⟩ : BufTy).Contents (Elt F)) (x4 : (⟨S9x64, .f32⟩ : BufTy).Contents (Elt F)) (x5 : (⟨S64x128, .f32⟩ : BufTy).Contents (Elt F)) (x6 : (⟨S128, .f32⟩ : BufTy).Contents (Elt F)) (x7 : (⟨S64x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) (x15 : (⟨S64x3, .f32⟩ : BufTy).Contents (Elt F)) (x16 : (⟨S3, .f32⟩ : BufTy).Contents (Elt F))
    (h60 : V (Proc.devRef .tc main_v60) = val_main_v60 (F := F) x0 x1 x2 x3 x4 x5 x6 x7)
    (h1 : V (Proc.devRef .tc main_v1) = val_main_v1 (F := F) x1) (h3 : V (Proc.devRef .tc main_v3) = val_main_v3 (F := F) x1)
    (h8a : V (Proc.devRef .tc main_arg8) = x8) (h9a : V (Proc.devRef .tc main_arg9) = x9) (h10a : V (Proc.devRef .tc main_arg10) = x10) (h11a : V (Proc.devRef .tc main_arg11) = x11) (h12a : V (Proc.devRef .tc main_arg12) = x12) (h13a : V (Proc.devRef .tc main_arg13) = x13) (h14a : V (Proc.devRef .tc main_arg14) = x14) (h15a : V (Proc.devRef .tc main_arg15) = x15) (h16a : V (Proc.devRef .tc main_arg16) = x16) :
    after ((((ops (F := F)).drop 48).drop 34).take 49) V (Proc.devRef .tc main_v99) = val_main_v99 (F := F) x0 x1 x2 x3 x4 x5 x6 x7 x8 x9 x10 x11 x12 x13 x14 x15 x16 := by
  subst h8a h9a h10a h11a h12a h13a h14a h15a h16a
  open_stretch
  after_results_simp
  unwrap
  rw [h60, h1, h3]
  rfl

/-! ## The last stretch: the log-softmax of the logits -/

set_option maxHeartbeats 1000000 in
theorem s4_v100 (V : Valuation τ sig (Elt F)) (x0 : (⟨S100000x9, .f32⟩ : BufTy).Contents (Elt F)) (x1 : (⟨S2x600000, .i32⟩ : BufTy).Contents (Elt F)) (x2 : (⟨S9x64, .f32⟩ : BufTy).Contents (Elt F)) (x3 : (⟨S64, .f32⟩ : BufTy).Contents (Elt F)) (x4 : (⟨S9x64, .f32⟩ : BufTy).Contents (Elt F)) (x5 : (⟨S64x128, .f32⟩ : BufTy).Contents (Elt F)) (x6 : (⟨S128, .f32⟩ : BufTy).Contents (Elt F)) (x7 : (⟨S64x128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128x128, .f32⟩ : BufTy).Contents (Elt F)) (x12 : (⟨S128, .f32⟩ : BufTy).Contents (Elt F)) (x13 : (⟨S128x64, .f32⟩ : BufTy).Contents (Elt F)) (x14 : (⟨S64, .f32⟩ : BufTy).Contents (Elt F)) (x15 : (⟨S64x3, .f32⟩ : BufTy).Contents (Elt F)) (x16 : (⟨S3, .f32⟩ : BufTy).Contents (Elt F))
    (h99 : V (Proc.devRef .tc main_v99) = val_main_v99 (F := F) x0 x1 x2 x3 x4 x5 x6 x7 x8 x9 x10 x11 x12 x13 x14 x15 x16) :
    after ((((ops (F := F)).drop 48).drop 34).drop 49) V (Proc.devRef .tc main_v100) = val_main_v100 (F := F) x0 x1 x2 x3 x4 x5 x6 x7 x8 x9 x10 x11 x12 x13 x14 x15 x16 := by
  open_stretch
  after_results_simp
  unwrap
  rw [h99]
  rfl

end Cert.ReferenceIdeal.RunRead

end
-- ==== Proof.RefRunRead.lean ====
/-
  The reference's run, read back.

  The reference is a straight line of 146 host operations, so every weakly fair execution ends with each buffer at
  the fold of the operations' results over the launch contents. Read at the result buffer, that fold is the
  operations' composed term of the argument arrays: the last of the stages `val_main_vN`, each of which is one
  operation applied to earlier stages.

  Written out as a tree over the argument arrays the term is large, because a value with several consumers is
  repeated under each: the first layer's pre-activation three times (the row norm squares it), each layer's output
  twice (the aggregation and the root term), the logits four times (the log-softmax). So the line is cut at the three
  layer outputs. Over ANY contents `V` of the buffers, each stretch takes the previous layer's output stage (and the
  edge indices, and the weights it reads) to the next layer's output stage: within a stretch the two sides are the
  same small tree. A fold over a concatenation is the fold of the folds, and the four stretches compose.
-/
import proofs.«138146_j65412351918223_1_alg».proof.Proof.RefRunStretchA
import proofs.«138146_j65412351918223_1_alg».proof.Proof.RefRunStretchB

noncomputable section

namespace Cert.ReferenceIdeal.RunRead

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The fold over a concatenation is the second stretch's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The line is its four stretches: 48 operations up to the first layer's output, 34 up to the second's, 49 up to the
    logits, and the 15 of the log-softmax. -/
theorem ops_split : ops (F := F) = ((ops (F := F)).take 48) ++ ((((ops (F := F)).drop 48).take 34) ++ (((((ops (F := F)).drop 48).drop 34).take 49) ++ ((((ops (F := F)).drop 48).drop 34).drop 49))) := by
  rw [List.take_append_drop, List.take_append_drop, List.take_append_drop]

/-- The fold of the operations over ANY contents `W` of the buffers, read at the result buffer, is the last stage of
    `W` at the seventeen argument buffers. -/
theorem fold_eq (W : Valuation τ sig (Elt F)) :
    after (ops (F := F)) W (Proc.devRef .tc main_v100)
      = val_main_v100 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  rw [ops_split, after_append, after_append, after_append]
  refine s4_v100 _ (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) ?_
  refine s3_v99 _ (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) ?_ ?_ ?_ ((s2_keep _ main_arg8 (by decide)).trans (s1_keep W main_arg8 (by decide))) ((s2_keep _ main_arg9 (by decide)).trans (s1_keep W main_arg9 (by decide))) ((s2_keep _ main_arg10 (by decide)).trans (s1_keep W main_arg10 (by decide))) ((s2_keep _ main_arg11 (by decide)).trans (s1_keep W main_arg11 (by decide))) ((s2_keep _ main_arg12 (by decide)).trans (s1_keep W main_arg12 (by decide))) ((s2_keep _ main_arg13 (by decide)).trans (s1_keep W main_arg13 (by decide))) ((s2_keep _ main_arg14 (by decide)).trans (s1_keep W main_arg14 (by decide))) ((s2_keep _ main_arg15 (by decide)).trans (s1_keep W main_arg15 (by decide))) ((s2_keep _ main_arg16 (by decide)).trans (s1_keep W main_arg16 (by decide)))
  · exact s2_v60 _ (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (s1_v34 W) (s1_v1 W) (s1_v3 W) (s1_keep W main_arg5 (by decide)) (s1_keep W main_arg6 (by decide)) (s1_keep W main_arg7 (by decide))
  · exact (s2_keep _ main_v1 (by decide)).trans (s1_v1 W)
  · exact (s2_keep _ main_v3 (by decide)).trans (s1_v3 W)

/-- The same at the launch contents: the result buffer's final contents are the last stage of the argument arrays. -/
theorem readback (m : (ℓ : Loc nD τ sig) → Buf (Elt F) ℓ) (c : Dev nD) :
    after (ops (F := F)) (launchContents m c) (Proc.devRef .tc main_v100)
      = val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  fold_eq (launchContents m c)

end Cert.ReferenceIdeal.RunRead

end
-- ==== Proof.NamedRun.lean ====
/-
  The idealized kernel's run, with its result named.

  @main is three pipelined regions among stretches of host operations. The contents of every unscoped buffer
  at each boundary are a fold from the launch memory: `W1` after the first stretch, `W2` after the first region
  (its arrays at what the write-backs leave), and so on to `W6` after the last region. Every weakly fair
  execution terminates without fault in a state that agrees with `W6` on every unscoped buffer; so the result
  buffer ends at `W6` read at it, and each argument, which nothing writes, ends as launched.
-/
import proofs.«138146_j65412351918223_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last
    boundary's contents and every argument array ends as launched. -/
theorem run : θ_run defs (onTc (τ := τ) (main (F := F))) ⟨m, fun _ => 0, ρ⟩ (fun r => ∀ c : Dev nD,
      r.2.mem ((c.tc : Thread nD τ).loc main_v55) = W6 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v55 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.Named

end
-- ==== Proof.LibColumn.lean ====
/-
  Column layouts read at an index given by coordinates.

  A row statistic kept as a column (`keepdims`) passes through two layout steps: a vector of length `a` is
  recast as an `[a, 1]` column, and the column is broadcast along the rows of an `[a, b]` array. Read at
  `(p, c)` both are the statistic of row `p`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelOps.lean ====
/-
  The kernel bodies' non-pointwise operations, read at an index of a 5000-row block, over the extended reals:
  each block product at `(p, q)` is the sum over the contraction index of row `p` of the left block against
  column `q` of the right; a bias row broadcast down the block is the bias of the column; a lane sum at row `p`
  is the sum of the row, a lane maximum the fold of `max` over the row; a per-row column recast and broadcast
  along the columns is the entry of the row.
-/
import proofs.«138146_j65412351918223_1_alg».proof.Proof.Gen.KernelIdeal
import proofs.«138146_j65412351918223_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ops

open Cert.KernelIdeal Cert.KernelIdeal.Facts₀ Cert.KernelIdeal.Facts Idealize.ShloMosaic Idealize.ShloMosaic.ValueIdx

/-- The block product `S5000x9 × S9x64` into a zero accumulator, at `(p, q)`: the row of the left block against the column of the right. -/
theorem mm_S5000x9_S9x64 (a : FVec Ideal S5000x9 .bf16) (w : FVec Ideal S9x64 .bf16) (p : Fin 5000) (q : Fin 64) :
    matmul dot_S5000x9_S9x64_S5000x64_1_0_0_1_n_n none a w (constant S5000x64 .f32 0x00000000#32) (ix2 p q) = ∑ k : Fin 9, a (ix2 p k) * w (ix2 k q) := by
  simp only [matmul]
  rw [Ideal.matmul_constant_zero_apply, ← Equiv.sum_comp (contrEquiv1 dot_S5000x9_S9x64_S5000x64_1_0_0_1_n_n 9 rfl rfl).symm]
  refine Finset.sum_congr rfl fun k _ => ?_
  have hk := contrEquiv1_symm_val dot_S5000x9_S9x64_S5000x64_1_0_0_1_n_n 9 rfl rfl k
  have el : dot_S5000x9_S9x64_S5000x64_1_0_0_1_n_n.lhsIdx (ix2 p q) ((contrEquiv1 dot_S5000x9_S9x64_S5000x64_1_0_0_1_n_n 9 rfl rfl).symm k) = ix2 p k := funext fun ax => Fin.ext (by
    match ax with
    | ⟨0, _⟩ =>
      show (dot_S5000x9_S9x64_S5000x64_1_0_0_1_n_n.lhsIdx (ix2 p q) ((contrEquiv1 dot_S5000x9_S9x64_S5000x64_1_0_0_1_n_n 9 rfl rfl).symm k) 0).val = p.val
      unfold DotDims.lhsIdx
      rw [dif_neg (show ¬(0 : Fin S5000x9.rank) ∈ dot_S5000x9_S9x64_S5000x64_1_0_0_1_n_n.lhsBatch by decide), dif_pos (show (0 : Fin S5000x9.rank) ∈ dot_S5000x9_S9x64_S5000x64_1_0_0_1_n_n.lhsNonContracting by decide)]
      rfl
    | ⟨1, _⟩ => exact (dot_S5000x9_S9x64_S5000x64_1_0_0_1_n_n.lhsIdx_val_of_single rfl _ _).trans hk)
  have er : dot_S5000x9_S9x64_S5000x64_1_0_0_1_n_n.rhsIdx (ix2 p q) ((contrEquiv1 dot_S5000x9_S9x64_S5000x64_1_0_0_1_n_n 9 rfl rfl).symm k) = ix2 k q := funext fun ax => Fin.ext (by
    match ax with
    | ⟨0, _⟩ => exact (dot_S5000x9_S9x64_S5000x64_1_0_0_1_n_n.rhsIdx_val_of_single rfl _ _).trans hk
    | ⟨1, _⟩ =>
      show (dot_S5000x9_S9x64_S5000x64_1_0_0_1_n_n.rhsIdx (ix2 p q) ((contrEquiv1 dot_S5000x9_S9x64_S5000x64_1_0_0_1_n_n 9 rfl rfl).symm k) 1).val = q.val
      unfold DotDims.rhsIdx
      rw [dif_neg (show ¬(1 : Fin S9x64.rank) ∈ dot_S5000x9_S9x64_S5000x64_1_0_0_1_n_n.rhsBatch by decide), dif_pos (show (1 : Fin S9x64.rank) ∈ dot_S5000x9_S9x64_S5000x64_1_0_0_1_n_n.rhsNonContracting by decide)]
      rfl)
  rw [el, er]

/-- The block product `S5000x64 × S64x128` into a zero accumulator, at `(p, q)`: the row of the left block against the column of the right. -/
theorem mm_S5000x64_S64x128 (a : FVec Ideal S5000x64 .bf16) (w : FVec Ideal S64x128 .bf16) (p : Fin 5000) (q : Fin 128) :
    matmul dot_S5000x64_S64x128_S5000x128_1_0_0_1_n_n none a w (constant S5000x128 .f32 0x00000000#32) (ix2 p q) = ∑ k : Fin 64, a (ix2 p k) * w (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun ax => Fin.ext (by
    match ax with
    | ⟨0, _⟩ =>
      show (dot_S5000x64_S64x128_S5000x128_1_0_0_1_n_n.lhsIdx (ix2 p q) ((contrEquiv1 dot_S5000x64_S64x128_S5000x128_1_0_0_1_n_n 64 rfl rfl).symm k) 0).val = p.val
      unfold DotDims.lhsIdx
      rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
      rfl
    | ⟨1, _⟩ => exact (dot_S5000x64_S64x128_S5000x128_1_0_0_1_n_n.lhsIdx_val_of_single rfl _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun ax => Fin.ext (by
    match ax with
    | ⟨0, _⟩ => exact (dot_S5000x64_S64x128_S5000x128_1_0_0_1_n_n.rhsIdx_val_of_single rfl _ _).trans hk
    | ⟨1, _⟩ =>
      show (dot_S5000x64_S64x128_S5000x128_1_0_0_1_n_n.rhsIdx (ix2 p q) ((contrEquiv1 dot_S5000x64_S64x128_S5000x128_1_0_0_1_n_n 64 rfl rfl).symm k) 1).val = q.val
      unfold DotDims.rhsIdx
      rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
      rfl)
  rw [el, er]

/-- The block product `S5000x128 × S128x128` into a zero accumulator, at `(p, q)`: the row of the left block against the column of the right. -/
theorem mm_S5000x128_S128x128 (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q) = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ =>
      show (dot_S5000x128_S128x128_S5000x128_1_0_0_1_n_n.lhsIdx (ix2 p q) ((contrEquiv1 dot_S5000x128_S128x128_S5000x128_1_0_0_1_n_n 128 rfl rfl).symm k) 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (dot_S5000x128_S128x128_S5000x128_1_0_0_1_n_n.rhsIdx_val_of_single rfl _ _).trans hk
    | ⟨1, _⟩ =>
      show (dot_S5000x128_S128x128_S5000x128_1_0_0_1_n_n.rhsIdx (ix2 p q) ((contrEquiv1 dot_S5000x128_S128x128_S5000x128_1_0_0_1_n_n 128 rfl rfl).symm k) 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- The block product `S5000x128 × S128x64` into a zero accumulator, at `(p, q)`: the row of the left block against the column of the right. -/
theorem mm_S5000x128_S128x64 (a : FVec Ideal S5000x128 .bf16) (w : FVec Ideal S128x64 .bf16) (p : Fin 5000) (q : Fin 64) :
    matmul dot_S5000x128_S128x64_S5000x64_1_0_0_1_n_n none a w (constant S5000x64 .f32 0x00000000#32) (ix2 p q) = ∑ k : Fin 128, a (ix2 p k) * w (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun ax => Fin.ext (by
    match ax with
    | ⟨0, _⟩ =>
      show (dot_S5000x128_S128x64_S5000x64_1_0_0_1_n_n.lhsIdx (ix2 p q) ((contrEquiv1 dot_S5000x128_S128x64_S5000x64_1_0_0_1_n_n 128 rfl rfl).symm k) 0).val = p.val
      unfold DotDims.lhsIdx
      rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
      rfl
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun ax => Fin.ext (by
    match ax with
    | ⟨0, _⟩ => exact (dot_S5000x128_S128x64_S5000x64_1_0_0_1_n_n.rhsIdx_val_of_single rfl _ _).trans hk
    | ⟨1, _⟩ =>
      show (dot_S5000x128_S128x64_S5000x64_1_0_0_1_n_n.rhsIdx (ix2 p q) ((contrEquiv1 dot_S5000x128_S128x64_S5000x64_1_0_0_1_n_n 128 rfl rfl).symm k) 1).val = q.val
      unfold DotDims.rhsIdx
      rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
      rfl)
  rw [el, er]

/-- The block product `S5000x64 × S64x3` into a zero accumulator, at `(p, q)`: the row of the left block against the column of the right. -/
theorem mm_S5000x64_S64x3 (a : FVec Ideal S5000x64 .bf16) (w : FVec Ideal S64x3 .bf16) (p : Fin 5000) (q : Fin 3) :
    matmul dot_S5000x64_S64x3_S5000x3_1_0_0_1_n_n none a w (constant S5000x3 .f32 0x00000000#32) (ix2 p q) = ∑ k : Fin 64, a (ix2 p k) * w (ix2 k q) := by
  simp only [matmul]
  rw [Ideal.matmul_constant_zero_apply, ← Equiv.sum_comp (contrEquiv1 dot_S5000x64_S64x3_S5000x3_1_0_0_1_n_n 64 rfl rfl).symm]
  refine Finset.sum_congr rfl fun k _ => ?_
  have hk := contrEquiv1_symm_val dot_S5000x64_S64x3_S5000x3_1_0_0_1_n_n 64 rfl rfl k
  have el : dot_S5000x64_S64x3_S5000x3_1_0_0_1_n_n.lhsIdx (ix2 p q) ((contrEquiv1 dot_S5000x64_S64x3_S5000x3_1_0_0_1_n_n 64 rfl rfl).symm k) = ix2 p k := funext fun ax => Fin.ext (by
    match ax with
    | ⟨0, _⟩ =>
      show (dot_S5000x64_S64x3_S5000x3_1_0_0_1_n_n.lhsIdx (ix2 p q) ((contrEquiv1 dot_S5000x64_S64x3_S5000x3_1_0_0_1_n_n 64 rfl rfl).symm k) 0).val = p.val
      unfold DotDims.lhsIdx
      rw [dif_neg (show ¬(0 : Fin S5000x64.rank) ∈ dot_S5000x64_S64x3_S5000x3_1_0_0_1_n_n.lhsBatch by decide), dif_pos (show (0 : Fin S5000x64.rank) ∈ dot_S5000x64_S64x3_S5000x3_1_0_0_1_n_n.lhsNonContracting by decide)]
      rfl
    | ⟨1, _⟩ => exact (dot_S5000x64_S64x3_S5000x3_1_0_0_1_n_n.lhsIdx_val_of_single rfl _ _).trans hk)
  have er : dot_S5000x64_S64x3_S5000x3_1_0_0_1_n_n.rhsIdx (ix2 p q) ((contrEquiv1 dot_S5000x64_S64x3_S5000x3_1_0_0_1_n_n 64 rfl rfl).symm k) = ix2 k q := funext fun ax => Fin.ext (by
    match ax with
    | ⟨0, _⟩ => exact (dot_S5000x64_S64x3_S5000x3_1_0_0_1_n_n.rhsIdx_val_of_single rfl _ _).trans hk
    | ⟨1, _⟩ =>
      show (dot_S5000x64_S64x3_S5000x3_1_0_0_1_n_n.rhsIdx (ix2 p q) ((contrEquiv1 dot_S5000x64_S64x3_S5000x3_1_0_0_1_n_n 64 rfl rfl).symm k) 1).val = q.val
      unfold DotDims.rhsIdx
      rw [dif_neg (show ¬(1 : Fin S64x3.rank) ∈ dot_S5000x64_S64x3_S5000x3_1_0_0_1_n_n.rhsBatch by decide), dif_pos (show (1 : Fin S64x3.rank) ∈ dot_S5000x64_S64x3_S5000x3_1_0_0_1_n_n.rhsNonContracting by decide)]
      rfl)
  rw [el, er]

/-- The bias row `[1, 64]` broadcast down the block's rows, at `(p, q)`: the bias of column `q`. -/
theorem bias_64 (b : FVec Ideal S1x64 .f32) (p : Fin 5000) (q : Fin 64) :
    broadcastTo S5000x64 (shapeCast S1x64 b shapeCasts_S1x64_S1x64) broadcasts_S1x64_S5000x64 (ix2 p q) = b (ix2 (0 : Fin 1) q) := by
  rw [shapeCast_self]
  exact broadcastTo_1b_ab_apply b broadcasts_S1x64_S5000x64 p q

/-- The bias row `[1, 128]` broadcast down the block's rows, at `(p, q)`: the bias of column `q`. -/
theorem bias_128 (b : FVec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [shapeCast_self]
  exact broadcastTo_1b_ab_apply b broadcasts_S1x128_S5000x128 p q

/-- The bias row `[1, 3]` broadcast down the block's rows, at `(p, q)`: the bias of column `q`. -/
theorem bias_3 (b : FVec Ideal S1x3 .f32) (p : Fin 5000) (q : Fin 3) :
    broadcastTo S5000x3 (shapeCast S1x3 b shapeCasts_S1x3_S1x3) broadcasts_S1x3_S5000x3 (ix2 p q) = b (ix2 (0 : Fin 1) q) := by
  rw [shapeCast_self]
  exact broadcastTo_1b_ab_apply b broadcasts_S1x3_S5000x3 p q

/-- A lane sum over the 64 columns, at row `p`: the sum of the row. -/
theorem rowsum_64 (v : FVec Ideal S5000x64 .f32) (p : Fin 5000) :
    multiReduction .add [1] S5000 v 0x00000000#32 reduces_S5000x64_S5000 (.inl rfl) rfl (ix1 p) = ∑ j : Fin 64, v (ix2 p j) := by
  refine (Ideal.multiReduction_add_single v _ reduces_S5000x64_S5000 (.inl rfl) rfl (ix1 p)).trans ?_
  refine Finset.sum_congr rfl fun k _ => congrArg v (funext fun ax => Fin.ext ?_)
  match ax with
  | ⟨0, _⟩ => rfl
  | ⟨1, _⟩ => rfl

/-- A lane sum over the 3 columns, at row `p`: the sum of the row. -/
theorem rowsum_3 (v : FVec Ideal S5000x3 .f32) (p : Fin 5000) :
    multiReduction .add [1] S5000 v 0x00000000#32 reduces_S5000x3_S5000 (.inl rfl) rfl (ix1 p) = ∑ j : Fin 3, v (ix2 p j) := by
  refine (Ideal.multiReduction_add_single v _ reduces_S5000x3_S5000 (.inl rfl) rfl (ix1 p)).trans ?_
  refine Finset.sum_congr rfl fun k _ => congrArg v (funext fun ax => Fin.ext ?_)
  match ax with
  | ⟨0, _⟩ => rfl
  | ⟨1, _⟩ => rfl

/-- A lane maximum over the 3 columns, at row `p`: the fold of `max`, from the accumulator's value, over the row. -/
theorem rowmax_3 (v : FVec Ideal S5000x3 .f32) (p : Fin 5000) :
    multiReduction .maximumf [1] S5000 v 0xFF800000#32 reduces_S5000x3_S5000 (.inl rfl) rfl (ix1 p)
      = (Finset.univ : Finset (Fin 3)).fold max (Ideal.ofBits .f32 0xFF800000#32) (fun j => v (ix2 p j)) := by
  refine (Ideal.multiReduction_maximumf_single v _ reduces_S5000x3_S5000 (.inl rfl) rfl (ix1 p)).trans ?_
  refine congrArg (fun f => (Finset.univ : Finset (Fin 3)).fold max (Ideal.ofBits .f32 0xFF800000#32) f) (funext fun k => congrArg v (funext fun ax => Fin.ext ?_))
  match ax with
  | ⟨0, _⟩ => rfl
  | ⟨1, _⟩ => rfl

/-- A vector of per-row values recast as a column, at `(p, 0)`: the value of row `p`. -/
theorem column (v : FVec Ideal S5000 .f32) (p : Fin 5000) (u : Fin 1) :
    shapeCast S5000x1 v shapeCasts_S5000_S5000x1 (ix2 p u) = v (ix1 p) :=
  Cert.LibColumn.shapeCast_a_a1_apply v shapeCasts_S5000_S5000x1 p u

/-- A per-row column `[5000, 1]` broadcast along the 64 columns, at `(p, q)`: the entry of row `p`. -/
theorem col_64 (v : FVec Ideal S5000x1 .f32) (p : Fin 5000) (q : Fin 64) :
    broadcastTo S5000x64 v broadcasts_S5000x1_S5000x64 (ix2 p q) = v (ix2 p (0 : Fin 1)) :=
  Cert.LibColumn.broadcastTo_a1_ab_apply v broadcasts_S5000x1_S5000x64 p q

/-- A per-row column `[5000, 1]` broadcast along the 3 columns, at `(p, q)`: the entry of row `p`. -/
theorem col_3 (v : FVec Ideal S5000x1 .f32) (p : Fin 5000) (q : Fin 3) :
    broadcastTo S5000x3 v broadcasts_S5000x1_S5000x3 (ix2 p q) = v (ix2 p (0 : Fin 1)) :=
  Cert.LibColumn.broadcastTo_a1_ab_apply v broadcasts_S5000x1_S5000x3 p q

end Cert.KernelIdeal.Ops

end
-- ==== Proof.Spec.lean ====
/-
  The network, one node (one row) at a time, over the extended reals.

  A node's new features depend only on that node's own row and on its aggregated-neighbour row:
    sage a x Wl Wr b q = (∑ₖ a k · Wl k q + b q) + ∑ₖ x k · Wr k q          (one SAGE convolution, column q)
    l2n h q            = relu (h q / max (sqrt (∑ⱼ h j · h j)) ε)             (row-wise L2 normalisation, then relu)
    lin x W b q        = ∑ₖ x k · W k q + b q                                 (a dense layer, column q)
  and the last step is a log-softmax of the three logits of the row, which the two programs group differently:
    lsmK l q = l q − (M + log ∑ⱼ exp (l j − M))      and      lsmR l q = (l q − M) − log ∑ⱼ exp (l j − M),
  with M the row's maximum. The two agree whenever M is a real number (lsm_eq): then −(M + c) = −M + −c.
  The float literals 0, ε = f32(1e-12) and −∞ are kept as the words the programs print.
-/
import Idealize.ShloMosaic.PureOps.Ideal
import Idealize.ShloMosaic.PureOps.Ideal.Laws

noncomputable section

namespace Cert.Spec

open Idealize.ShloMosaic

/-- The word of `0.0`. -/
abbrev zeroLit : EReal := Ideal.ofBits .f32 0x00000000#32
/-- The word of `f32(1e-12)`, the normalisation's floor. -/
abbrev epsLit : EReal := Ideal.ofBits .f32 0x2B8CBCCC#32
/-- The word of `−∞`, where a row maximum starts. -/
abbrev negInfLit : EReal := Ideal.ofBits .f32 0xFF800000#32

variable {K N : ℕ}

/-- Row times matrix, at column `q`. -/
def dotRow (a : Fin K → EReal) (W : Fin K → Fin N → EReal) (q : Fin N) : EReal := ∑ k : Fin K, a k * W k q

/-- One SAGE convolution at column `q`: the aggregated row through `Wl`, plus the bias, plus the node's own row through `Wr`. -/
def sage (a x : Fin K → EReal) (Wl Wr : Fin K → Fin N → EReal) (b : Fin N → EReal) (q : Fin N) : EReal :=
  (dotRow a Wl q + b q) + dotRow x Wr q

/-- A dense layer at column `q`. -/
def lin (x : Fin K → EReal) (W : Fin K → Fin N → EReal) (b : Fin N → EReal) (q : Fin N) : EReal :=
  dotRow x W q + b q

/-- `max v 0`. -/
def relu (v : EReal) : EReal := max v zeroLit

/-- A row divided by its Euclidean norm (floored at ε), then relu. -/
def l2n (h : Fin N → EReal) (q : Fin N) : EReal :=
  relu (Ideal.div (h q) (max (Ideal.sqrt (∑ j : Fin N, h j * h j)) epsLit))

/-- The maximum of a row of three, started at `−∞`. -/
def rowMax (l : Fin 3 → EReal) : EReal := (Finset.univ : Finset (Fin 3)).fold max negInfLit l

/-- The log of the row's sum of shifted exponentials. -/
def lse (l : Fin 3 → EReal) : EReal := Ideal.log (∑ j : Fin 3, Ideal.exp (l j - rowMax l))

/-- Log-softmax as the kernel groups it. -/
def lsmK (l : Fin 3 → EReal) (q : Fin 3) : EReal := l q - (rowMax l + lse l)

/-- Log-softmax as the reference groups it. -/
def lsmR (l : Fin 3 → EReal) (q : Fin 3) : EReal := (l q - rowMax l) - lse l

/-- Subtracting a sum whose first term is real is subtracting the terms one after the other. -/
theorem sub_add_of_real (a c : EReal) (M : ℝ) : a - ((M : EReal) + c) = (a - (M : EReal)) - c := by
  have h : -((M : EReal) + c) = -(M : EReal) + -c := by
    rw [EReal.neg_add (Or.inl (EReal.coe_ne_bot M)) (Or.inl (EReal.coe_ne_top M)), sub_eq_add_neg]
  rw [sub_eq_add_neg, h, ← add_assoc, ← sub_eq_add_neg, ← sub_eq_add_neg]

/-- The two groupings agree on a row whose maximum is a real number. -/
theorem lsm_eq (l : Fin 3 → EReal) (q : Fin 3) (h : ∃ M : ℝ, rowMax l = (M : EReal)) : lsmK l q = lsmR l q := by
  obtain ⟨M, hM⟩ := h
  unfold lsmK lsmR
  rw [hM]
  exact sub_add_of_real _ _ M

end Cert.Spec

end
-- ==== Proof.KernelRows.lean ====
/-
  What each kernel body stores, at row `p` and column `q` of its 5000-row block, over the extended reals: the
  row-wise functions of the specification applied to row `p` of each input block and to the whole weight blocks.
  The casts to bf16 on the way into a matrix product are the identity here, a product into a zero accumulator is
  the plain sum of products, and each row statistic (sum of squares, maximum, sum of exponentials) is taken over
  the row's own entries.
-/
import proofs.«138146_j65412351918223_1_alg».proof.Proof.Gen.KernelIdeal.Skeleton
import proofs.«138146_j65412351918223_1_alg».proof.Proof.KernelOps
import proofs.«138146_j65412351918223_1_alg».proof.Proof.Spec

noncomputable section

namespace Cert.KernelIdeal.Rows

open Cert.KernelIdeal Cert.KernelIdeal.Facts₀ Cert.KernelIdeal.Facts Cert.KernelIdeal.Ops Idealize.ShloMosaic Idealize.ShloMosaic.ValueIdx
open Cert.KernelIdeal.Gen (k0_pay1 k1_pay1 k2_pay1 k2_pay2)

/-- Row `p` of a block with `n` columns. -/
abbrev row {n : ℕ} (v : (⟨2, ![5000, n]⟩ : Shape).Idx → EReal) (p : Fin 5000) : Fin n → EReal := fun k => v (ix2 p k)
/-- A weight block as a matrix. -/
abbrev mat {k n : ℕ} (w : (⟨2, ![k, n]⟩ : Shape).Idx → EReal) : Fin k → Fin n → EReal := fun a b => w (ix2 a b)
/-- A bias row `[1, n]` as a vector. -/
abbrev vec {n : ℕ} (b : (⟨2, ![1, n]⟩ : Shape).Idx → EReal) : Fin n → EReal := fun j => b (ix2 (0 : Fin 1) j)

/-! ## The first kernel: one convolution, then the row normalised and clipped at zero -/

/-- The convolution's value before normalisation, as the body computes it from its loads. -/
def pre1 (v0 v2 : FVec Ideal S5000x9 .f32) (v4 : FVec Ideal S9x64 .f32) (v7 : FVec Ideal S1x64 .f32) (v12 : FVec Ideal S9x64 .f32) : FVec Ideal S5000x64 .f32 :=
  addf (addf (matmul dot_S5000x9_S9x64_S5000x64_1_0_0_1_n_n none (truncf .bf16 (shapeCast S5000x9 v0 shapeCasts_S5000x9_S5000x9) bitsLt_bf16_f32) (truncf .bf16 v4 bitsLt_bf16_f32) (constant S5000x64 .f32 0x00000000#32))
      (broadcastTo S5000x64 (shapeCast S1x64 v7 shapeCasts_S1x64_S1x64) broadcasts_S1x64_S5000x64))
    (matmul dot_S5000x9_S9x64_S5000x64_1_0_0_1_n_n none (truncf .bf16 v2 bitsLt_bf16_f32) (truncf .bf16 v12 bitsLt_bf16_f32) (constant S5000x64 .f32 0x00000000#32))

/-- A block divided row by row by its rows' norms (floored), then clipped at zero, as the body computes it. -/
def nrm (h : FVec Ideal S5000x64 .f32) : FVec Ideal S5000x64 .f32 :=
  maximumf (divf h (broadcastTo S5000x64 (maximumf (sqrt (shapeCast S5000x1 (multiReduction .add [1] S5000 (mulf h h) 0x00000000#32 reduces_S5000x64_S5000 (.inl rfl) rfl) shapeCasts_S5000_S5000x1))
      (broadcast S5000x1 (Scalar.ofBits .f32 0x2B8CBCCC#32))) broadcasts_S5000x1_S5000x64)) (broadcast S5000x64 (Scalar.ofBits .f32 0x00000000#32))

theorem pay1_split (v0 v2 : FVec Ideal S5000x9 .f32) (v4 : FVec Ideal S9x64 .f32) (v7 : FVec Ideal S1x64 .f32) (v12 : FVec Ideal S9x64 .f32) :
    k0_pay1 (F := Ideal) v0 v2 v4 v7 v12 = nrm (pre1 v0 v2 v4 v7 v12) := rfl

theorem pre1_row (v0 v2 : FVec Ideal S5000x9 .f32) (v4 : FVec Ideal S9x64 .f32) (v7 : FVec Ideal S1x64 .f32) (v12 : FVec Ideal S9x64 .f32) (p : Fin 5000) (q : Fin 64) :
    pre1 v0 v2 v4 v7 v12 (ix2 p q) = Cert.Spec.sage (row v0 p) (row v2 p) (mat v4) (mat v12) (vec v7) q := by
  unfold pre1
  rw [shapeCast_self v0]
  simp only [addf_apply, mm_S5000x9_S9x64, bias_64, truncf_apply]
  rfl

theorem nrm_row (h : FVec Ideal S5000x64 .f32) (p : Fin 5000) (q : Fin 64) : nrm h (ix2 p q) = Cert.Spec.l2n (row h p) q := by
  unfold nrm
  simp only [maximumf_apply, divf_apply, col_64, broadcast_apply]
  show max (Ideal.div (h (ix2 p q)) (max (Ideal.sqrt (shapeCast S5000x1 (multiReduction .add [1] S5000 (mulf h h) 0x00000000#32 reduces_S5000x64_S5000 (.inl rfl) rfl) shapeCasts_S5000_S5000x1 (ix2 p (0 : Fin 1))))
      (Ideal.ofBits .f32 0x2B8CBCCC#32))) (Ideal.ofBits .f32 0x00000000#32) = _
  rw [column, rowsum_64]
  rfl

/-- THE FIRST KERNEL'S STORE at `(p, q)`. -/
theorem pay1_row (v0 v2 : FVec Ideal S5000x9 .f32) (v4 : FVec Ideal S9x64 .f32) (v7 : FVec Ideal S1x64 .f32) (v12 : FVec Ideal S9x64 .f32) (p : Fin 5000) (q : Fin 64) :
    k0_pay1 (F := Ideal) v0 v2 v4 v7 v12 (ix2 p q) = Cert.Spec.l2n (Cert.Spec.sage (row v0 p) (row v2 p) (mat v4) (mat v12) (vec v7)) q := by
  rw [pay1_split, nrm_row]
  exact congrArg (fun f => Cert.Spec.l2n f q) (funext fun j => pre1_row v0 v2 v4 v7 v12 p j)

/-! ## The second kernel: one convolution clipped at zero -/

theorem pay2_row (v0 v2 : FVec Ideal S5000x64 .f32) (v5 : FVec Ideal S64x128 .f32) (v8 : FVec Ideal S1x128 .f32) (v13 : FVec Ideal S64x128 .f32) (p : Fin 5000) (q : Fin 128) :
    k1_pay1 (F := Ideal) v0 v2 v5 v8 v13 (ix2 p q) = Cert.Spec.relu (Cert.Spec.sage (row v0 p) (row v2 p) (mat v5) (mat v13) (vec v8) q) := by
  unfold k1_pay1
  rw [shapeCast_self v0, shapeCast_self v2]
  simp only [maximumf_apply, addf_apply, mm_S5000x64_S64x128, bias_128, truncf_apply, broadcast_apply]
  rfl

/-! ## The third kernel: a convolution, two dense layers clipped at zero, the logits, and the log-softmax of each row -/

/-- The third convolution and the first two dense layers, up to the second layer's value before its clip. -/
theorem pay3a_row (v0 v2 : FVec Ideal S5000x128 .f32) (v5 : FVec Ideal S128x128 .f32) (v8 : FVec Ideal S1x128 .f32) (v13 v18 : FVec Ideal S128x128 .f32)
    (v21 : FVec Ideal S1x128 .f32) (v28 : FVec Ideal S128x64 .f32) (v31 : FVec Ideal S1x64 .f32) (p : Fin 5000) (q : Fin 64) :
    k2_pay2 (F := Ideal) v0 v2 v5 v8 v13 v18 v21 v28 v31 (ix2 p q)
      = Cert.Spec.lin (fun k1 : Fin 128 => Cert.Spec.relu (Cert.Spec.lin
            (fun k0 : Fin 128 => Cert.Spec.sage (row v0 p) (row v2 p) (mat v5) (mat v13) (vec v8) k0) (mat v18) (vec v21) k1)) (mat v28) (vec v31) q := by
  unfold k2_pay2
  rw [shapeCast_self v0, shapeCast_self v2]
  simp only [maximumf_apply, addf_apply, mm_S5000x128_S128x128, mm_S5000x128_S128x64, bias_128, bias_64, truncf_apply, broadcast_apply]
  rfl

/-- The logits of row `p` from the second dense layer's value `v34` before its clip. -/
def logitsOf (v34 : FVec Ideal S5000x64 .f32) (v38 : FVec Ideal S64x3 .f32) (v41 : FVec Ideal S1x3 .f32) (p : Fin 5000) : Fin 3 → EReal :=
  fun j => Cert.Spec.lin (fun k2 : Fin 64 => Cert.Spec.relu (v34 (ix2 p k2))) (mat v38) (vec v41) j

/-- The block of logits, as the body computes it. -/
def logitsBlk (v34 : FVec Ideal S5000x64 .f32) (v38 : FVec Ideal S64x3 .f32) (v41 : FVec Ideal S1x3 .f32) : FVec Ideal S5000x3 .f32 :=
  addf (matmul dot_S5000x64_S64x3_S5000x3_1_0_0_1_n_n none (truncf .bf16 (maximumf v34 (broadcast S5000x64 (Scalar.ofBits .f32 0x00000000#32))) bitsLt_bf16_f32) (truncf .bf16 v38 bitsLt_bf16_f32) (constant S5000x3 .f32 0x00000000#32))
    (broadcastTo S5000x3 (shapeCast S1x3 v41 shapeCasts_S1x3_S1x3) broadcasts_S1x3_S5000x3)

theorem logitsBlk_row (v34 : FVec Ideal S5000x64 .f32) (v38 : FVec Ideal S64x3 .f32) (v41 : FVec Ideal S1x3 .f32) (p : Fin 5000) (j : Fin 3) :
    logitsBlk v34 v38 v41 (ix2 p j) = logitsOf v34 v38 v41 p j := by
  unfold logitsBlk logitsOf
  simp only [addf_apply, mm_S5000x64_S64x3, bias_3, truncf_apply, maximumf_apply, broadcast_apply]
  rfl

/-- A block's rows under the log-softmax, as the body groups it: the row, minus (its maximum plus the log of the sum of shifted exponentials). -/
def lsmBlk (l : FVec Ideal S5000x3 .f32) : FVec Ideal S5000x3 .f32 :=
  subf l (broadcastTo S5000x3 (addf (shapeCast S5000x1 (multiReduction .maximumf [1] S5000 l 0xFF800000#32 reduces_S5000x3_S5000 (.inl rfl) rfl) shapeCasts_S5000_S5000x1)
    (log (shapeCast S5000x1 (multiReduction .add [1] S5000 (exp (subf l (broadcastTo S5000x3 (shapeCast S5000x1 (multiReduction .maximumf [1] S5000 l 0xFF800000#32 reduces_S5000x3_S5000 (.inl rfl) rfl) shapeCasts_S5000_S5000x1) broadcasts_S5000x1_S5000x3)))
      0x00000000#32 reduces_S5000x3_S5000 (.inl rfl) rfl) shapeCasts_S5000_S5000x1))) broadcasts_S5000x1_S5000x3)

theorem pay3b_split (v34 : FVec Ideal S5000x64 .f32) (v38 : FVec Ideal S64x3 .f32) (v41 : FVec Ideal S1x3 .f32) :
    k2_pay1 (F := Ideal) v34 (Scalar.ofBits .f32 0x00000000#32) v38 v41 = lsmBlk (logitsBlk v34 v38 v41) := rfl

theorem lsmBlk_row (l : FVec Ideal S5000x3 .f32) (p : Fin 5000) (q : Fin 3) : lsmBlk l (ix2 p q) = Cert.Spec.lsmK (row l p) q := by
  unfold lsmBlk
  simp only [subf_apply, col_3, addf_apply]
  show l (ix2 p q) - (shapeCast S5000x1 (multiReduction .maximumf [1] S5000 l 0xFF800000#32 reduces_S5000x3_S5000 (.inl rfl) rfl) shapeCasts_S5000_S5000x1 (ix2 p (0 : Fin 1))
      + Ideal.log (shapeCast S5000x1 (multiReduction .add [1] S5000 (exp (subf l (broadcastTo S5000x3 (shapeCast S5000x1 (multiReduction .maximumf [1] S5000 l 0xFF800000#32 reduces_S5000x3_S5000 (.inl rfl) rfl) shapeCasts_S5000_S5000x1) broadcasts_S5000x1_S5000x3)))
          0x00000000#32 reduces_S5000x3_S5000 (.inl rfl) rfl) shapeCasts_S5000_S5000x1 (ix2 p (0 : Fin 1)))) = _
  rw [column, column, rowsum_3, rowmax_3]
  have hexp : ∀ j : Fin 3, exp (subf l (broadcastTo S5000x3 (shapeCast S5000x1 (multiReduction .maximumf [1] S5000 l 0xFF800000#32 reduces_S5000x3_S5000 (.inl rfl) rfl) shapeCasts_S5000_S5000x1) broadcasts_S5000x1_S5000x3)) (ix2 p j)
      = Ideal.exp (l (ix2 p j) - Cert.Spec.rowMax (row l p)) := by
    intro j
    show Ideal.exp (l (ix2 p j) - broadcastTo S5000x3 (shapeCast S5000x1 (multiReduction .maximumf [1] S5000 l 0xFF800000#32 reduces_S5000x3_S5000 (.inl rfl) rfl) shapeCasts_S5000_S5000x1) broadcasts_S5000x1_S5000x3 (ix2 p j)) = _
    rw [col_3, column, rowmax_3]
    rfl
  simp only [hexp]
  rfl

/-- THE THIRD KERNEL'S STORE at `(p, q)`, from the second dense layer's value before its clip. -/
theorem pay3b_row (v34 : FVec Ideal S5000x64 .f32) (v38 : FVec Ideal S64x3 .f32) (v41 : FVec Ideal S1x3 .f32) (p : Fin 5000) (q : Fin 3) :
    k2_pay1 (F := Ideal) v34 (Scalar.ofBits .f32 0x00000000#32) v38 v41 (ix2 p q) = Cert.Spec.lsmK (logitsOf v34 v38 v41 p) q := by
  rw [pay3b_split, lsmBlk_row]
  exact congrArg (fun f => Cert.Spec.lsmK f q) (funext fun j => logitsBlk_row v34 v38 v41 p j)

end Cert.KernelIdeal.Rows

end
-- ==== Proof.Region0.lean ====
/-
  The first region's output array after the region.

  The grid has 20 points; point `t` stages rows `5000·t … 5000·t + 4999` of the node features and of their
  aggregates (and the whole weights and bias), runs the body, and writes the block back to the same rows of the
  output. So the output array ends holding, at `(r, q)`, the first layer of the network applied to rows `r` of the
  two node arrays: one whole-array function `G0`, whose block at every point is what the point flushes, and the
  twenty blocks cover the array.
-/
import proofs.«138146_j65412351918223_1_alg».proof.Proof.Gen.KernelIdeal.Frame
import proofs.«138146_j65412351918223_1_alg».proof.Proof.KernelRows

set_option maxRecDepth 16384

noncomputable section

namespace Cert.KernelIdeal.Reg0

open Cert.KernelIdeal Cert.KernelIdeal.Gen Cert.KernelIdeal.Rows Idealize.ShloMosaic Idealize.ShloMosaic.TcCoe Idealize.ShloMosaic.ValueIdx Idealize.SL.Sem
open Idealize.ShloMosaic.Pipeline (Dat)

/-- The row of an index into an array of 100000 rows. -/
abbrev rowIx {n : ℕ} (i : (⟨2, ![100000, n]⟩ : Shape).Idx) : Fin 100000 := ⟨(i 0).val, (i 0).isLt⟩
/-- Its column. -/
abbrev colIx {n : ℕ} (i : (⟨2, ![100000, n]⟩ : Shape).Idx) : Fin n := ⟨(i 1).val, (i 1).isLt⟩

/-- The first layer on whole arrays: entry `(r, q)` from rows `r` of the features `X` and of their aggregates `A`. -/
def G0 (X A : S100000x9.Idx → EReal) (Wl : S9x64.Idx → EReal) (B : S1x64.Idx → EReal) (Wr : S9x64.Idx → EReal) : S100000x64.Idx → EReal :=
  fun i => Cert.Spec.l2n (Cert.Spec.sage (fun k : Fin 9 => A (ix2 (rowIx i) k)) (fun k : Fin 9 => X (ix2 (rowIx i) k)) (mat Wl) (mat Wr) (vec B)) (colIx i)

theorem hz : (![0, 0] : Fin 2 → Nat) = fun _ => 0 := funext fun a => by fin_cases a <;> rfl

/-- The body's store at an index `j` of the block is `G0` at an index `i` of the array, when the row blocks hold rows
    `r0 + p` of the arrays, the other blocks the whole arrays, and `i` is `j` moved down by `r0` rows. -/
theorem block_eq (x0 x1 : Vec Ideal S5000x9 .f32) (x2 : Vec Ideal S9x64 .f32) (x3 : Vec Ideal S1x64 .f32) (x4 : Vec Ideal S9x64 .f32)
    (X A : S100000x9.Idx → EReal) (Wl : S9x64.Idx → EReal) (B : S1x64.Idx → EReal) (Wr : S9x64.Idx → EReal)
    (j : S5000x64.Idx) (i : S100000x64.Idx)
    (hx : ∀ k : Fin 9, x0 (ix2 ⟨(j 0).val, (j 0).isLt⟩ k) = X (ix2 (rowIx i) k))
    (ha : ∀ k : Fin 9, x1 (ix2 ⟨(j 0).val, (j 0).isLt⟩ k) = A (ix2 (rowIx i) k))
    (h2 : x2 = Wl) (h3 : x3 = B) (h4 : x4 = Wr) (hc : (j 1).val = (i 1).val) :
    k0_pay1 x1 x0 x2 x3 x4 j = G0 X A Wl B Wr i := by
  obtain ⟨p, q, rfl⟩ : ∃ (p : Fin 5000) (q : Fin 64), j = ix2 p q := ⟨j 0, j 1, eq_ix2 j⟩
  subst h2 h3 h4
  rw [pay1_row]
  unfold G0
  have hq : colIx i = q := Fin.ext hc.symm
  rw [hq]
  refine congrArg (fun f => Cert.Spec.l2n f q) ?_
  have e1 : row x1 p = fun k : Fin 9 => A (ix2 (rowIx i) k) := funext fun k => ha k
  have e0 : row x0 p = fun k : Fin 9 => X (ix2 (rowIx i) k) := funext fun k => hx k
  rw [e1, e0]

variable (V : (c : Dev nD) → (b : Ref sig .tc) → Buf (Elt Ideal) ((c : Thread nD τ).loc b))

/-- The printed index maps over the grid: the row windows' block index is the point, the others' is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of `G0` of the arrays as the region finds them. -/
theorem flushed_eq (c : Dev nD) (t : Fin cfg0.N) :
    (dat0 V c).flushed 5 t = ((cfg0.win 5).blk t).view.read (Elt Ideal)
      (G0 (V c main_arg0) (V c main_v22) (V c main_arg2) (V c main_v23) (V c main_arg4)) := by
  show (cfg0.win 5).cut (grid0.coords t) ((dat0 V c).after 5 t) = _
  rw [after0_5]
  unfold out0_5
  rw [View.canon_unit_zero hz]
  simp only [View.ld_unit_zero (S := S5000x9) hz, View.ld_unit_zero (S := S9x64) hz, View.ld_unit_zero (S := S1x64) hz]
  obtain ⟨e00, e01, e10, e11, e20, e21, e30, e31, e40, e41, e50, e51⟩ := idx_facts t
  funext j
  have hj0 : (j 0).val < 5000 := (j 0).isLt
  have hj1 : (j 1).val < 64 := (j 1).isLt
  show k0_pay1 (iblk0 V c 1 t) (iblk0 V c 0 t) (iblk0 V c 2 t) (iblk0 V c 3 t) (iblk0 V c 4 t) j
      = G0 (V c main_arg0) (V c main_v22) (V c main_arg2) (V c main_v23) (V c main_arg4) (((cfg0.win 5).blk t).view.emb j)
  refine block_eq _ _ _ _ _ _ _ _ _ _ j _ (fun k => ?_) (fun k => ?_) ?_ ?_ ?_ ?_
  · show V c main_arg0 (((cfg0.win 0).blk t).view.emb (ix2 ⟨(j 0).val, (j 0).isLt⟩ k)) = V c main_arg0 (ix2 (rowIx (((cfg0.win 5).blk t).view.emb j)) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 9 + 1 * k.val = k.val; omega
  · show V c main_v22 (((cfg0.win 1).blk t).view.emb (ix2 ⟨(j 0).val, (j 0).isLt⟩ k)) = V c main_v22 (ix2 (rowIx (((cfg0.win 5).blk t).view.emb j)) k)
    refine congrArg (V c main_v22) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 9 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 9 + 1 * (y 0).val = (y 0).val; omega
    | ⟨1, _⟩ => show win0_2.index t (1 : Fin 2) * 64 + 1 * (y 1).val = (y 1).val; omega
  · funext y
    show V c main_v23 (((cfg0.win 3).blk t).view.emb y) = V c main_v23 y
    refine congrArg (V c main_v23) (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  · funext y
    show V c main_arg4 (((cfg0.win 4).blk t).view.emb y) = V c main_arg4 y
    refine congrArg (V c main_arg4) (funext fun a => Fin.ext ?_)
    match a with
    | ⟨0, _⟩ => show win0_4.index t (0 : Fin 2) * 9 + 1 * (y 0).val = (y 0).val; omega
    | ⟨1, _⟩ => show win0_4.index t (1 : Fin 2) * 64 + 1 * (y 1).val = (y 1).val; omega
  · show (j 1).val = win0_5.index t (1 : Fin 2) * 64 + 1 * (j 1).val; omega

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Every row is in the block of the point `row / 5000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk]
  obtain ⟨-, -, -, -, -, -, -, -, -, -, e50, e51⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e51]; omega

/-- THE OUTPUT ARRAY after the region. -/
theorem final (c : Dev nD) :
    (dat0 V c).arrAt 5 cfg0.N = G0 (V c main_arg0) (V c main_v22) (V c main_arg2) (V c main_v23) (V c main_arg4) :=
  (dat0 V c).arrAt_eq_of_cover 5 _ (fun t _ => flushed_eq V c t) (cover)

end Cert.KernelIdeal.Reg0

end
-- ==== Proof.Region1.lean ====
/-
  The second region's output array after the region.

  Point `t` of the 20-point grid stages rows `5000·t … 5000·t + 4999` of the first layer's features and of their
  aggregates, and the whole weights and bias, and writes its block back to the same rows. The output array ends
  holding, at `(r, q)`, the second convolution clipped at zero, of rows `r` of the two node arrays: one
  whole-array function `G1`, whose block at every point is what the point flushes; the twenty blocks cover it.
-/
import proofs.«138146_j65412351918223_1_alg».proof.Proof.Gen.KernelIdeal.Frame
import proofs.«138146_j65412351918223_1_alg».proof.Proof.KernelRows

set_option maxRecDepth 16384

noncomputable section

namespace Cert.KernelIdeal.Reg1

open Cert.KernelIdeal Cert.KernelIdeal.Gen Cert.KernelIdeal.Rows Idealize.ShloMosaic Idealize.ShloMosaic.TcCoe Idealize.ShloMosaic.ValueIdx Idealize.SL.Sem
open Idealize.ShloMosaic.Pipeline (Dat)

/-- The row of an index into an array of 100000 rows. -/
abbrev rowIx {n : ℕ} (i : (⟨2, ![100000, n]⟩ : Shape).Idx) : Fin 100000 := ⟨(i 0).val, (i 0).isLt⟩
/-- Its column. -/
abbrev colIx {n : ℕ} (i : (⟨2, ![100000, n]⟩ : Shape).Idx) : Fin n := ⟨(i 1).val, (i 1).isLt⟩

/-- The second layer on whole arrays: entry `(r, q)` from rows `r` of the features `H` and of their aggregates `A`. -/
def G1 (H A : S100000x64.Idx → EReal) (Wl : S64x128.Idx → EReal) (B : S1x128.Idx → EReal) (Wr : S64x128.Idx → EReal) : S100000x128.Idx → EReal :=
  fun i => Cert.Spec.relu (Cert.Spec.sage (fun k : Fin 64 => A (ix2 (rowIx i) k)) (fun k : Fin 64 => H (ix2 (rowIx i) k)) (mat Wl) (mat Wr) (vec B) (colIx i))

theorem hz : (![0, 0] : Fin 2 → Nat) = fun _ => 0 := funext fun a => by fin_cases a <;> rfl

/-- The body's store at an index `j` of the block is `G1` at an index `i` of the array, when the row blocks hold the
    rows of the arrays that `i`'s row names, the other blocks the whole arrays, and `i` has `j`'s column. -/
theorem block_eq (x0 x1 : Vec Ideal S5000x64 .f32) (x2 : Vec Ideal S64x128 .f32) (x3 : Vec Ideal S1x128 .f32) (x4 : Vec Ideal S64x128 .f32)
    (H A : S100000x64.Idx → EReal) (Wl : S64x128.Idx → EReal) (B : S1x128.Idx → EReal) (Wr : S64x128.Idx → EReal)
    (j : S5000x128.Idx) (i : S100000x128.Idx)
    (hx : ∀ k : Fin 64, x0 (ix2 ⟨(j 0).val, (j 0).isLt⟩ k) = H (ix2 (rowIx i) k))
    (ha : ∀ k : Fin 64, x1 (ix2 ⟨(j 0).val, (j 0).isLt⟩ k) = A (ix2 (rowIx i) k))
    (h2 : x2 = Wl) (h3 : x3 = B) (h4 : x4 = Wr) (hc : (j 1).val = (i 1).val) :
    k1_pay1 x1 x0 x2 x3 x4 j = G1 H A Wl B Wr i := by
  obtain ⟨p, q, rfl⟩ : ∃ (p : Fin 5000) (q : Fin 128), j = ix2 p q := ⟨j 0, j 1, eq_ix2 j⟩
  subst h2 h3 h4
  rw [pay2_row]
  unfold G1
  have hq : colIx i = q := Fin.ext hc.symm
  rw [hq]
  have e1 : row x1 p = fun k : Fin 64 => A (ix2 (rowIx i) k) := funext fun k => ha k
  have e0 : row x0 p = fun k : Fin 64 => H (ix2 (rowIx i) k) := funext fun k => hx k
  rw [e1, e0]

variable (V : (c : Dev nD) → (b : Ref sig .tc) → Buf (Elt Ideal) ((c : Thread nD τ).loc b))

/-- The printed index maps over the grid: the row windows' block index is the point, the others' is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the whole-array function of the arrays as the region finds them. -/
theorem flushed_eq (c : Dev nD) (t : Fin cfg1.N) :
    (dat1 V c).flushed 5 t = ((cfg1.win 5).blk t).view.read (Elt Ideal)
      (G1 (V c main_v24) (V c main_v36) (V c main_arg5) (V c main_v37) (V c main_arg7)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz]
  obtain ⟨e0_0, e0_1, e1_0, e1_1, e2_0, e2_1, e3_0, e3_1, e4_0, e4_1, e5_0, e5_1⟩ := idx_facts t
  funext j
  have hj0 : (j 0).val < 5000 := (j 0).isLt
  have hj1 : (j 1).val < 128 := (j 1).isLt
  show k1_pay1 (iblk1 V c 1 t) (iblk1 V c 0 t) (iblk1 V c 2 t) (iblk1 V c 3 t) (iblk1 V c 4 t) j
      = G1 (V c main_v24) (V c main_v36) (V c main_arg5) (V c main_v37) (V c main_arg7) (((cfg1.win 5).blk t).view.emb j)
  refine block_eq _ _ _ _ _ _ _ _ _ _ j _ (fun k => ?_) (fun k => ?_) ?_ ?_ ?_ ?_
  · show V c main_v24 (((cfg1.win 0).blk t).view.emb (ix2 ⟨(j 0).val, (j 0).isLt⟩ k)) = V c main_v24 (ix2 (rowIx (((cfg1.win 5).blk t).view.emb j)) k)
    refine congrArg (V c main_v24) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  · show V c main_v36 (((cfg1.win 1).blk t).view.emb (ix2 ⟨(j 0).val, (j 0).isLt⟩ k)) = V c main_v36 (ix2 (rowIx (((cfg1.win 5).blk t).view.emb j)) k)
    refine congrArg (V c main_v36) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 64 + 1 * (y 0).val = (y 0).val; omega
    | ⟨1, _⟩ => show win1_2.index t (1 : Fin 2) * 128 + 1 * (y 1).val = (y 1).val; omega
  · funext y
    show V c main_v37 (((cfg1.win 3).blk t).view.emb y) = V c main_v37 y
    refine congrArg (V c main_v37) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_arg7 (((cfg1.win 4).blk t).view.emb y) = V c main_arg7 y
    refine congrArg (V c main_arg7) (funext fun a => Fin.ext ?_)
    match a with
    | ⟨0, _⟩ => show win1_4.index t (0 : Fin 2) * 64 + 1 * (y 0).val = (y 0).val; omega
    | ⟨1, _⟩ => show win1_4.index t (1 : Fin 2) * 128 + 1 * (y 1).val = (y 1).val; omega
  · show (j 1).val = win1_5.index t (1 : Fin 2) * 128 + 1 * (j 1).val; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Every row is in the block of the point `row / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- THE OUTPUT ARRAY after the region. -/
theorem final (c : Dev nD) :
    (dat1 V c).arrAt 5 cfg1.N = G1 (V c main_v24) (V c main_v36) (V c main_arg5) (V c main_v37) (V c main_arg7) :=
  (dat1 V c).arrAt_eq_of_cover 5 _ (fun t _ => flushed_eq V c t) (cover)

end Cert.KernelIdeal.Reg1

end
-- ==== Proof.Region2.lean ====
/-
  The third region's output array after the region.

  Point `t` of the 20-point grid stages rows `5000·t … 5000·t + 4999` of the second layer's features and of their
  aggregates, and the whole weights and biases of the third convolution and of the three dense layers, and writes
  its block of log-probabilities back to the same rows. The output array ends holding, at `(r, q)`, the
  log-softmax (grouped as the kernel groups it) of node `r`'s three logits: one whole-array function `G2`, whose
  block at every point is what the point flushes; the twenty blocks cover it.
-/
import proofs.«138146_j65412351918223_1_alg».proof.Proof.Gen.KernelIdeal.Frame
import proofs.«138146_j65412351918223_1_alg».proof.Proof.KernelRows

set_option maxRecDepth 16384

noncomputable section

namespace Cert.KernelIdeal.Reg2

open Cert.KernelIdeal Cert.KernelIdeal.Gen Cert.KernelIdeal.Rows Idealize.ShloMosaic Idealize.ShloMosaic.TcCoe Idealize.ShloMosaic.ValueIdx Idealize.SL.Sem
open Idealize.ShloMosaic.Pipeline (Dat)

/-- The row of an index into an array of 100000 rows. -/
abbrev rowIx {n : ℕ} (i : (⟨2, ![100000, n]⟩ : Shape).Idx) : Fin 100000 := ⟨(i 0).val, (i 0).isLt⟩
/-- Its column. -/
abbrev colIx {n : ℕ} (i : (⟨2, ![100000, n]⟩ : Shape).Idx) : Fin n := ⟨(i 1).val, (i 1).isLt⟩

/-- Node `r`'s three logits from rows `r` of the features `H` and of their aggregates `A`: the third convolution, two dense layers
    clipped at zero, the last dense layer. -/
def logits (H A : S100000x128.Idx → EReal) (W3l : S128x128.Idx → EReal) (B3 : S1x128.Idx → EReal) (W3r Wl1 : S128x128.Idx → EReal) (Bl1 : S1x128.Idx → EReal)
    (Wl2 : S128x64.Idx → EReal) (Bl2 : S1x64.Idx → EReal) (Wl3 : S64x3.Idx → EReal) (Bl3 : S1x3.Idx → EReal) (r : Fin 100000) : Fin 3 → EReal :=
  fun j => Cert.Spec.lin (fun k2 : Fin 64 => Cert.Spec.relu (Cert.Spec.lin (fun k1 : Fin 128 => Cert.Spec.relu (Cert.Spec.lin
      (fun k0 : Fin 128 => Cert.Spec.sage (fun k : Fin 128 => A (ix2 r k)) (fun k : Fin 128 => H (ix2 r k)) (mat W3l) (mat W3r) (vec B3) k0) (mat Wl1) (vec Bl1) k1))
      (mat Wl2) (vec Bl2) k2)) (mat Wl3) (vec Bl3) j

/-- The network's last stage on whole arrays: entry `(r, q)` is the log-softmax, as the kernel groups it, of node `r`'s logits. -/
def G2 (H A : S100000x128.Idx → EReal) (W3l : S128x128.Idx → EReal) (B3 : S1x128.Idx → EReal) (W3r Wl1 : S128x128.Idx → EReal) (Bl1 : S1x128.Idx → EReal)
    (Wl2 : S128x64.Idx → EReal) (Bl2 : S1x64.Idx → EReal) (Wl3 : S64x3.Idx → EReal) (Bl3 : S1x3.Idx → EReal) : S100000x3.Idx → EReal :=
  fun i => Cert.Spec.lsmK (logits H A W3l B3 W3r Wl1 Bl1 Wl2 Bl2 Wl3 Bl3 (rowIx i)) (colIx i)

theorem hz : (![0, 0] : Fin 2 → Nat) = fun _ => 0 := funext fun a => by fin_cases a <;> rfl

/-- The body's store at an index `j` of the block is `G2` at an index `i` of the array, when the row blocks hold the
    rows of the arrays that `i`'s row names, the other blocks the whole arrays, and `i` has `j`'s column. -/
theorem block_eq (x0 x1 : Vec Ideal S5000x128 .f32) (x2 : Vec Ideal S128x128 .f32) (x3 : Vec Ideal S1x128 .f32) (x4 x5 : Vec Ideal S128x128 .f32) (x6 : Vec Ideal S1x128 .f32)
    (x7 : Vec Ideal S128x64 .f32) (x8 : Vec Ideal S1x64 .f32) (x9 : Vec Ideal S64x3 .f32) (x10 : Vec Ideal S1x3 .f32)
    (H A : S100000x128.Idx → EReal) (W3l : S128x128.Idx → EReal) (B3 : S1x128.Idx → EReal) (W3r Wl1 : S128x128.Idx → EReal) (Bl1 : S1x128.Idx → EReal)
    (Wl2 : S128x64.Idx → EReal) (Bl2 : S1x64.Idx → EReal) (Wl3 : S64x3.Idx → EReal) (Bl3 : S1x3.Idx → EReal)
    (j : S5000x3.Idx) (i : S100000x3.Idx)
    (hx : ∀ k : Fin 128, x0 (ix2 ⟨(j 0).val, (j 0).isLt⟩ k) = H (ix2 (rowIx i) k))
    (ha : ∀ k : Fin 128, x1 (ix2 ⟨(j 0).val, (j 0).isLt⟩ k) = A (ix2 (rowIx i) k))
    (h2 : x2 = W3l) (h3 : x3 = B3) (h4 : x4 = W3r) (h5 : x5 = Wl1) (h6 : x6 = Bl1) (h7 : x7 = Wl2) (h8 : x8 = Bl2) (h9 : x9 = Wl3) (h10 : x10 = Bl3)
    (hc : (j 1).val = (i 1).val) :
    k2_pay1 (k2_pay2 x1 x0 x2 x3 x4 x5 x6 x7 x8) (Scalar.ofBits .f32 0x00000000#32) x9 x10 j = G2 H A W3l B3 W3r Wl1 Bl1 Wl2 Bl2 Wl3 Bl3 i := by
  obtain ⟨p, q, rfl⟩ : ∃ (p : Fin 5000) (q : Fin 3), j = ix2 p q := ⟨j 0, j 1, eq_ix2 j⟩
  subst h2 h3 h4 h5 h6 h7 h8 h9 h10
  rw [pay3b_row]
  unfold G2
  have hq : colIx i = q := Fin.ext hc.symm
  rw [hq]
  refine congrArg (fun f => Cert.Spec.lsmK f q) (funext fun jj => ?_)
  unfold logitsOf logits
  have e1 : row x1 p = fun k : Fin 128 => A (ix2 (rowIx i) k) := funext fun k => ha k
  have e0 : row x0 p = fun k : Fin 128 => H (ix2 (rowIx i) k) := funext fun k => hx k
  simp only [pay3a_row, e1, e0]

variable (V : (c : Dev nD) → (b : Ref sig .tc) → Buf (Elt Ideal) ((c : Thread nD τ).loc b))

/-- The printed index maps over the grid: the row windows' block index is the point, the others' is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = t.val ∧ win2_11.index t (1 : Fin 2) = 0 :=
  (by decide +kernel : ∀ t : Fin grid2.N, _)

set_option maxHeartbeats 4000000 in
/-- WHAT POINT `t` WRITES BACK is block `t` of the whole-array function of the arrays as the region finds them. -/
theorem flushed_eq (c : Dev nD) (t : Fin cfg2.N) :
    (dat2 V c).flushed 11 t = ((cfg2.win 11).blk t).view.read (Elt Ideal)
      (G2 (V c main_v38) (V c main_v50) (V c main_arg8) (V c main_v51) (V c main_arg10) (V c main_arg11) (V c main_v52) (V c main_arg13) (V c main_v53) (V c main_arg15) (V c main_v54)) := by
  show (cfg2.win 11).cut (grid2.coords t) ((dat2 V c).after 11 t) = _
  rw [after2_11]
  unfold out2_11
  rw [View.canon_unit_zero hz]
  simp only [View.ld_unit_zero (S := S5000x128) hz, View.ld_unit_zero (S := S128x128) hz, View.ld_unit_zero (S := S1x128) hz, View.ld_unit_zero (S := S128x64) hz, View.ld_unit_zero (S := S1x64) hz, View.ld_unit_zero (S := S64x3) hz, View.ld_unit_zero (S := S1x3) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext j
  have hj0 : (j 0).val < 5000 := (j 0).isLt
  have hj1 : (j 1).val < 3 := (j 1).isLt
  show k2_pay1 (k2_pay2 (iblk2 V c 1 t) (iblk2 V c 0 t) (iblk2 V c 2 t) (iblk2 V c 3 t) (iblk2 V c 4 t) (iblk2 V c 5 t) (iblk2 V c 6 t) (iblk2 V c 7 t) (iblk2 V c 8 t)) (Scalar.ofBits .f32 0x00000000#32) (iblk2 V c 9 t) (iblk2 V c 10 t) j
      = G2 (V c main_v38) (V c main_v50) (V c main_arg8) (V c main_v51) (V c main_arg10) (V c main_arg11) (V c main_v52) (V c main_arg13) (V c main_v53) (V c main_arg15) (V c main_v54) (((cfg2.win 11).blk t).view.emb j)
  refine block_eq _ _ _ _ _ _ _ _ _ _ _ _ _ _ _ _ _ _ _ _ _ _ j _ (fun k => ?_) (fun k => ?_) ?_ ?_ ?_ ?_ ?_ ?_ ?_ ?_ ?_ ?_
  · show V c main_v38 (((cfg2.win 0).blk t).view.emb (ix2 ⟨(j 0).val, (j 0).isLt⟩ k)) = V c main_v38 (ix2 (rowIx (((cfg2.win 11).blk t).view.emb j)) k)
    refine congrArg (V c main_v38) (funext fun a => Fin.ext ?_)
    match a with
    | ⟨0, _⟩ => show win2_0.index t (0 : Fin 2) * 5000 + 1 * (j 0).val = win2_11.index t (0 : Fin 2) * 5000 + 1 * (j 0).val; omega
    | ⟨1, _⟩ => show win2_0.index t (1 : Fin 2) * 128 + 1 * k.val = k.val; omega
  · show V c main_v50 (((cfg2.win 1).blk t).view.emb (ix2 ⟨(j 0).val, (j 0).isLt⟩ k)) = V c main_v50 (ix2 (rowIx (((cfg2.win 11).blk t).view.emb j)) k)
    refine congrArg (V c main_v50) (funext fun a => Fin.ext ?_)
    match a with
    | ⟨0, _⟩ => show win2_1.index t (0 : Fin 2) * 5000 + 1 * (j 0).val = win2_11.index t (0 : Fin 2) * 5000 + 1 * (j 0).val; omega
    | ⟨1, _⟩ => show win2_1.index t (1 : Fin 2) * 128 + 1 * k.val = k.val; omega
  · funext y
    show V c main_arg8 (((cfg2.win 2).blk t).view.emb y) = V c main_arg8 y
    refine congrArg (V c main_arg8) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v51 (((cfg2.win 3).blk t).view.emb y) = V c main_v51 y
    refine congrArg (V c main_v51) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  · funext y
    show V c main_arg10 (((cfg2.win 4).blk t).view.emb y) = V c main_arg10 y
    refine congrArg (V c main_arg10) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  · funext y
    show V c main_arg11 (((cfg2.win 5).blk t).view.emb y) = V c main_arg11 y
    refine congrArg (V c main_arg11) (funext fun a => Fin.ext ?_)
    match a with
    | ⟨0, _⟩ => show win2_5.index t (0 : Fin 2) * 128 + 1 * (y 0).val = (y 0).val; omega
    | ⟨1, _⟩ => show win2_5.index t (1 : Fin 2) * 128 + 1 * (y 1).val = (y 1).val; omega
  · funext y
    show V c main_v52 (((cfg2.win 6).blk t).view.emb y) = V c main_v52 y
    refine congrArg (V c main_v52) (funext fun a => Fin.ext ?_)
    match a with
    | ⟨0, _⟩ => show win2_6.index t (0 : Fin 2) * 1 + 1 * (y 0).val = (y 0).val; omega
    | ⟨1, _⟩ => show win2_6.index t (1 : Fin 2) * 128 + 1 * (y 1).val = (y 1).val; omega
  · funext y
    show V c main_arg13 (((cfg2.win 7).blk t).view.emb y) = V c main_arg13 y
    refine congrArg (V c main_arg13) (funext fun a => Fin.ext ?_)
    match a with
    | ⟨0, _⟩ => show win2_7.index t (0 : Fin 2) * 128 + 1 * (y 0).val = (y 0).val; omega
    | ⟨1, _⟩ => show win2_7.index t (1 : Fin 2) * 64 + 1 * (y 1).val = (y 1).val; omega
  · funext y
    show V c main_v53 (((cfg2.win 8).blk t).view.emb y) = V c main_v53 y
    refine congrArg (V c main_v53) (funext fun a => Fin.ext ?_)
    match a with
    | ⟨0, _⟩ => show win2_8.index t (0 : Fin 2) * 1 + 1 * (y 0).val = (y 0).val; omega
    | ⟨1, _⟩ => show win2_8.index t (1 : Fin 2) * 64 + 1 * (y 1).val = (y 1).val; omega
  · funext y
    show V c main_arg15 (((cfg2.win 9).blk t).view.emb y) = V c main_arg15 y
    refine congrArg (V c main_arg15) (funext fun a => Fin.ext ?_)
    match a with
    | ⟨0, _⟩ => show win2_9.index t (0 : Fin 2) * 64 + 1 * (y 0).val = (y 0).val; omega
    | ⟨1, _⟩ => show win2_9.index t (1 : Fin 2) * 3 + 1 * (y 1).val = (y 1).val; omega
  · funext y
    show V c main_v54 (((cfg2.win 10).blk t).view.emb y) = V c main_v54 y
    refine congrArg (V c main_v54) (funext fun a => Fin.ext ?_)
    match a with
    | ⟨0, _⟩ => show win2_10.index t (0 : Fin 2) * 1 + 1 * (y 0).val = (y 0).val; omega
    | ⟨1, _⟩ => show win2_10.index t (1 : Fin 2) * 3 + 1 * (y 1).val = (y 1).val; omega
  · show (j 1).val = win2_11.index t (1 : Fin 2) * 3 + 1 * (j 1).val; omega

/-- An index of the output array is in point `t`'s block iff each coordinate is in the block's range on its axis. -/
theorem mem_blk (t : Fin cfg2.N) (i : S100000x3.Idx) :
    i ∈ ((cfg2.win 11).blk t).view.set ↔ ∀ a : Fin 2, win2_11.index t a * S5000x3.size a ≤ (i a).val ∧ (i a).val < win2_11.index t a * S5000x3.size a + S5000x3.size a := by
  show i ∈ ((View.whole main_v55).slice (win2_11.rect t)).set ↔ _
  rw [View.set_slice_whole, Rect.mem_set_unit]
  exact Iff.rfl

/-- Every row is in the block of the point `row / 5000`. -/
theorem cover (i : S100000x3.Idx) : ∃ t : Fin cfg2.N, (cfg2.win 11).flush t = true ∧ i ∈ ((cfg2.win 11).blk t).view.set := by
  have hi0 : (i 0).val < 100000 := (i 0).isLt
  have hi1 : (i 1).val < 3 := (i 1).isLt
  have hN : cfg2.N = 20 := N_2
  refine ⟨⟨(i 0).val / 5000, by rw [hN]; omega⟩, flush2_11 _, ?_⟩
  rw [mem_blk]
  obtain ⟨-, -, -, -, -, -, -, -, -, -, -, -, -, -, -, -, -, -, -, -, -, -, e0, e1⟩ := idx_facts ⟨(i 0).val / 5000, by rw [hN]; omega⟩
  intro a
  match a with
  | ⟨0, _⟩ =>
    show win2_11.index _ (0 : Fin 2) * 5000 ≤ (i 0).val ∧ (i 0).val < win2_11.index _ (0 : Fin 2) * 5000 + 5000
    rw [e0]; show (i 0).val / 5000 * 5000 ≤ (i 0).val ∧ (i 0).val < (i 0).val / 5000 * 5000 + 5000; omega
  | ⟨1, _⟩ =>
    show win2_11.index _ (1 : Fin 2) * 3 ≤ (i 1).val ∧ (i 1).val < win2_11.index _ (1 : Fin 2) * 3 + 3
    rw [e1]; omega

/-- THE OUTPUT ARRAY after the region. -/
theorem final (c : Dev nD) :
    (dat2 V c).arrAt 11 cfg2.N = G2 (V c main_v38) (V c main_v50) (V c main_arg8) (V c main_v51) (V c main_arg10) (V c main_arg11) (V c main_v52) (V c main_arg13) (V c main_v53) (V c main_arg15) (V c main_v54) :=
  (dat2 V c).arrAt_eq_of_cover 11 _ (fun t _ => flushed_eq V c t) (cover)

end Cert.KernelIdeal.Reg2

end
-- ==== Proof.HostGlue.lean ====
/-
  The host operations between the kernel's regions, read as values.

  The kernel's program is three regions among three stretches of host operations. Each stretch computes, for the
  region that follows, the neighbour aggregation of the previous layer's features: gather the rows at the source
  indices, scatter-add them at the destination indices, divide each row by the node's clamped in-degree. The
  reference computes the same aggregation with the same operations, so each aggregate the kernel's host computes IS
  the reference's stage, as one term, once the stretch's inputs are the reference's. A stretch also leaves most
  buffers alone (the weights a region reads are the launch arguments), and reshapes each bias vector [n] into a
  row [1, n].
-/
import proofs.«138146_j65412351918223_1_alg».proof.Proof.Gen.KernelIdeal.Frame
import proofs.«138146_j65412351918223_1_alg».proof.Proof.RefReadP
import Idealize.ShloMosaic.Lib.StableHlo.Run
import Idealize.ShloMosaic.Lib.ValueIdx
import Idealize.ShloMosaic.Lib.ValueLayout

set_option maxRecDepth 16384

noncomputable section

namespace Cert.HostGlue

open Cert.KernelIdeal Cert.KernelIdeal.Gen Idealize.ShloMosaic Idealize.ShloMosaic.ValueIdx Idealize.SL.Sem

variable (m : (ℓ : Loc nD τ sig) → Buf (Elt Ideal) ℓ) (ρ : Dev nD → PrngReg) (c : Dev nD)

/-- No operation of a stretch writes the buffer: each operation writes one buffer, a different one. -/
local macro "not_written" : tactic => `(tactic| (
  refine List.forall_iff_forall_mem.mp ?_
  simp only [hostOps0, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## Buffers a stretch leaves alone -/

theorem V1_arg0 : V1 m ρ c main_arg0 = (m ((c.tc : Thread nD τ).loc main_arg0)) :=
  calc V1 m ρ c main_arg0
    _ = W0 m ρ c (Proc.devRef .tc main_arg0) := StableHlo.after_of_forall_not_mem (b := Proc.devRef .tc main_arg0) _ _ (by not_written)
    _ = (m ((c.tc : Thread nD τ).loc main_arg0)) := rfl

theorem V1_arg2 : V1 m ρ c main_arg2 = (m ((c.tc : Thread nD τ).loc main_arg2)) :=
  calc V1 m ρ c main_arg2
    _ = W0 m ρ c (Proc.devRef .tc main_arg2) := StableHlo.after_of_forall_not_mem (b := Proc.devRef .tc main_arg2) _ _ (by not_written)
    _ = (m ((c.tc : Thread nD τ).loc main_arg2)) := rfl

theorem V1_arg4 : V1 m ρ c main_arg4 = (m ((c.tc : Thread nD τ).loc main_arg4)) :=
  calc V1 m ρ c main_arg4
    _ = W0 m ρ c (Proc.devRef .tc main_arg4) := StableHlo.after_of_forall_not_mem (b := Proc.devRef .tc main_arg4) _ _ (by not_written)
    _ = (m ((c.tc : Thread nD τ).loc main_arg4)) := rfl

theorem V3_v24 : V3 m ρ c main_v24 = W2 m ρ c (Proc.devRef .tc main_v24) :=
  StableHlo.after_of_forall_not_mem (b := Proc.devRef .tc main_v24) _ _ (by not_written)

theorem V3_arg5 : V3 m ρ c main_arg5 = (m ((c.tc : Thread nD τ).loc main_arg5)) :=
  calc V3 m ρ c main_arg5
    _ = W2 m ρ c (Proc.devRef .tc main_arg5) := StableHlo.after_of_forall_not_mem (b := Proc.devRef .tc main_arg5) _ _ (by not_written)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by not_written)
    _ = (m ((c.tc : Thread nD τ).loc main_arg5)) := rfl

theorem V3_arg7 : V3 m ρ c main_arg7 = (m ((c.tc : Thread nD τ).loc main_arg7)) :=
  calc V3 m ρ c main_arg7
    _ = W2 m ρ c (Proc.devRef .tc main_arg7) := StableHlo.after_of_forall_not_mem (b := Proc.devRef .tc main_arg7) _ _ (by not_written)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (by not_written)
    _ = (m ((c.tc : Thread nD τ).loc main_arg7)) := rfl

theorem V5_v38 : V5 m ρ c main_v38 = W4 m ρ c (Proc.devRef .tc main_v38) :=
  StableHlo.after_of_forall_not_mem (b := Proc.devRef .tc main_v38) _ _ (by not_written)

theorem V5_arg8 : V5 m ρ c main_arg8 = (m ((c.tc : Thread nD τ).loc main_arg8)) :=
  calc V5 m ρ c main_arg8
    _ = W4 m ρ c (Proc.devRef .tc main_arg8) := StableHlo.after_of_forall_not_mem (b := Proc.devRef .tc main_arg8) _ _ (by not_written)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (by not_written)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (by not_written)
    _ = (m ((c.tc : Thread nD τ).loc main_arg8)) := rfl

theorem V5_arg10 : V5 m ρ c main_arg10 = (m ((c.tc : Thread nD τ).loc main_arg10)) :=
  calc V5 m ρ c main_arg10
    _ = W4 m ρ c (Proc.devRef .tc main_arg10) := StableHlo.after_of_forall_not_mem (b := Proc.devRef .tc main_arg10) _ _ (by not_written)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (by not_written)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (by not_written)
    _ = (m ((c.tc : Thread nD τ).loc main_arg10)) := rfl

theorem V5_arg11 : V5 m ρ c main_arg11 = (m ((c.tc : Thread nD τ).loc main_arg11)) :=
  calc V5 m ρ c main_arg11
    _ = W4 m ρ c (Proc.devRef .tc main_arg11) := StableHlo.after_of_forall_not_mem (b := Proc.devRef .tc main_arg11) _ _ (by not_written)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (by not_written)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (by not_written)
    _ = (m ((c.tc : Thread nD τ).loc main_arg11)) := rfl

theorem V5_arg13 : V5 m ρ c main_arg13 = (m ((c.tc : Thread nD τ).loc main_arg13)) :=
  calc V5 m ρ c main_arg13
    _ = W4 m ρ c (Proc.devRef .tc main_arg13) := StableHlo.after_of_forall_not_mem (b := Proc.devRef .tc main_arg13) _ _ (by not_written)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (by not_written)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (by not_written)
    _ = (m ((c.tc : Thread nD τ).loc main_arg13)) := rfl

theorem V5_arg15 : V5 m ρ c main_arg15 = (m ((c.tc : Thread nD τ).loc main_arg15)) :=
  calc V5 m ρ c main_arg15
    _ = W4 m ρ c (Proc.devRef .tc main_arg15) := StableHlo.after_of_forall_not_mem (b := Proc.devRef .tc main_arg15) _ _ (by not_written)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (by not_written)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (by not_written)
    _ = (m ((c.tc : Thread nD τ).loc main_arg15)) := rfl

theorem W2_arg6 : W2 m ρ c (Proc.devRef .tc main_arg6) = (m ((c.tc : Thread nD τ).loc main_arg6)) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by not_written)
    _ = (m ((c.tc : Thread nD τ).loc main_arg6)) := rfl

theorem W4_arg9 : W4 m ρ c (Proc.devRef .tc main_arg9) = (m ((c.tc : Thread nD τ).loc main_arg9)) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (by not_written)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (by not_written)
    _ = (m ((c.tc : Thread nD τ).loc main_arg9)) := rfl

theorem W4_arg12 : W4 m ρ c (Proc.devRef .tc main_arg12) = (m ((c.tc : Thread nD τ).loc main_arg12)) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (by not_written)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (by not_written)
    _ = (m ((c.tc : Thread nD τ).loc main_arg12)) := rfl

theorem W4_arg14 : W4 m ρ c (Proc.devRef .tc main_arg14) = (m ((c.tc : Thread nD τ).loc main_arg14)) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (by not_written)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (by not_written)
    _ = (m ((c.tc : Thread nD τ).loc main_arg14)) := rfl

theorem W4_arg16 : W4 m ρ c (Proc.devRef .tc main_arg16) = (m ((c.tc : Thread nD τ).loc main_arg16)) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (by not_written)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (by not_written)
    _ = (m ((c.tc : Thread nD τ).loc main_arg16)) := rfl

/-! ## The bias rows: a vector [n] reshaped to one row [1, n], read at (0, q) -/

theorem V1_v23_apply (q : Fin 64) :
    (V1 m ρ c main_v23 : S1x64.Idx → EReal) (ix2 (0 : Fin 1) q) = ((m ((c.tc : Thread nD τ).loc main_arg3)) : S64.Idx → EReal) (ix1 q) := by
  have e : (V1 m ρ c main_v23 : S1x64.Idx → EReal)
      = shapeCast S1x64 ((m ((c.tc : Thread nD τ).loc main_arg3)) : S64.Idx → EReal) shapeCasts_S64_S1x64 := by
    show StableHlo.after hostOps0 (W0 m ρ c) (Proc.devRef .tc main_v23) = _
    after_results_simp <;> rfl
  rw [e]
  exact shapeCast_a_1a_apply _ _ _ _

theorem V3_v37_apply (q : Fin 128) :
    (V3 m ρ c main_v37 : S1x128.Idx → EReal) (ix2 (0 : Fin 1) q) = ((m ((c.tc : Thread nD τ).loc main_arg6)) : S128.Idx → EReal) (ix1 q) := by
  have e : (V3 m ρ c main_v37 : S1x128.Idx → EReal)
      = shapeCast S1x128 (W2 m ρ c (Proc.devRef .tc main_arg6) : S128.Idx → EReal) shapeCasts_S128_S1x128 := by
    show StableHlo.after hostOps1 (W2 m ρ c) (Proc.devRef .tc main_v37) = _
    after_results_simp <;> rfl
  rw [e, W2_arg6]
  exact shapeCast_a_1a_apply _ _ _ _

theorem V5_v51_apply (q : Fin 128) :
    (V5 m ρ c main_v51 : S1x128.Idx → EReal) (ix2 (0 : Fin 1) q) = ((m ((c.tc : Thread nD τ).loc main_arg9)) : S128.Idx → EReal) (ix1 q) := by
  have e : (V5 m ρ c main_v51 : S1x128.Idx → EReal)
      = shapeCast S1x128 (W4 m ρ c (Proc.devRef .tc main_arg9) : S128.Idx → EReal) shapeCasts_S128_S1x128 := by
    show StableHlo.after hostOps2 (W4 m ρ c) (Proc.devRef .tc main_v51) = _
    after_results_simp <;> rfl
  rw [e, W4_arg9]
  exact shapeCast_a_1a_apply _ _ _ _

theorem V5_v52_apply (q : Fin 128) :
    (V5 m ρ c main_v52 : S1x128.Idx → EReal) (ix2 (0 : Fin 1) q) = ((m ((c.tc : Thread nD τ).loc main_arg12)) : S128.Idx → EReal) (ix1 q) := by
  have e : (V5 m ρ c main_v52 : S1x128.Idx → EReal)
      = shapeCast S1x128 (W4 m ρ c (Proc.devRef .tc main_arg12) : S128.Idx → EReal) shapeCasts_S128_S1x128 := by
    show StableHlo.after hostOps2 (W4 m ρ c) (Proc.devRef .tc main_v52) = _
    after_results_simp <;> rfl
  rw [e, W4_arg12]
  exact shapeCast_a_1a_apply _ _ _ _

theorem V5_v53_apply (q : Fin 64) :
    (V5 m ρ c main_v53 : S1x64.Idx → EReal) (ix2 (0 : Fin 1) q) = ((m ((c.tc : Thread nD τ).loc main_arg14)) : S64.Idx → EReal) (ix1 q) := by
  have e : (V5 m ρ c main_v53 : S1x64.Idx → EReal)
      = shapeCast S1x64 (W4 m ρ c (Proc.devRef .tc main_arg14) : S64.Idx → EReal) shapeCasts_S64_S1x64 := by
    show StableHlo.after hostOps2 (W4 m ρ c) (Proc.devRef .tc main_v53) = _
    after_results_simp <;> rfl
  rw [e, W4_arg14]
  exact shapeCast_a_1a_apply _ _ _ _

theorem V5_v54_apply (q : Fin 3) :
    (V5 m ρ c main_v54 : S1x3.Idx → EReal) (ix2 (0 : Fin 1) q) = ((m ((c.tc : Thread nD τ).loc main_arg16)) : S3.Idx → EReal) (ix1 q) := by
  have e : (V5 m ρ c main_v54 : S1x3.Idx → EReal)
      = shapeCast S1x3 (W4 m ρ c (Proc.devRef .tc main_arg16) : S3.Idx → EReal) shapeCasts_S3_S1x3 := by
    show StableHlo.after hostOps2 (W4 m ρ c) (Proc.devRef .tc main_v54) = _
    after_results_simp <;> rfl
  rw [e, W4_arg16]
  exact shapeCast_a_1a_apply _ _ _ _

/-! ## What the first stretch leaves in the index and degree buffers

The source indices (row 0 of the edge list), the destination indices (row 1) and the clamped in-degree column are
computed once, before the first region, and read by all three aggregations. -/

theorem W1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results_simp <;> rfl

theorem W1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp <;> rfl

theorem W1_v10 : W1 m ρ c (Proc.devRef .tc main_v10) = Cert.ReferenceIdeal.Read.val_main_v20 (F := Ideal) (m ((c.tc : Thread nD τ).loc main_arg1)) := by
  show StableHlo.after hostOps0 (W0 m ρ c) (Proc.devRef .tc main_v10) = _
  after_results_simp <;> rfl

/-! ## The three aggregations -/

/-- The first aggregate (of the input features) is the reference's. -/
theorem agg1_eq : (V1 m ρ c main_v22 : S100000x9.Idx → EReal) = Cert.ReferenceIdeal.Read.val_main_v22 (F := Ideal) (m ((c.tc : Thread nD τ).loc main_arg0)) (m ((c.tc : Thread nD τ).loc main_arg1)) := by
  show StableHlo.after hostOps0 (W0 m ρ c) (Proc.devRef .tc main_v22) = _
  after_results_simp <;> rfl

/-- The second aggregate (of the first layer's output, which region 0 left in its output buffer) is the reference's,
    given that the first layer's output is. -/
theorem agg2_eq
    (h : (W2 m ρ c (Proc.devRef .tc main_v24) : S100000x64.Idx → EReal)
      = Cert.ReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    (V3 m ρ c main_v36 : S100000x64.Idx → EReal) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e1 : W2 m ρ c (Proc.devRef .tc main_v1) = Cert.ReferenceIdeal.Read.val_main_v1 (F := Ideal) (m ((c.tc : Thread nD τ).loc main_arg1)) :=
    (W2_of_ne m ρ c main_v1 (by decide)).trans (W1_v1 m ρ c)
  have e3 : W2 m ρ c (Proc.devRef .tc main_v3) = Cert.ReferenceIdeal.Read.val_main_v3 (F := Ideal) (m ((c.tc : Thread nD τ).loc main_arg1)) :=
    (W2_of_ne m ρ c main_v3 (by decide)).trans (W1_v3 m ρ c)
  have e10 : W2 m ρ c (Proc.devRef .tc main_v10) = Cert.ReferenceIdeal.Read.val_main_v20 (F := Ideal) (m ((c.tc : Thread nD τ).loc main_arg1)) :=
    (W2_of_ne m ρ c main_v10 (by decide)).trans (W1_v10 m ρ c)
  show StableHlo.after hostOps1 (W2 m ρ c) (Proc.devRef .tc main_v36) = _
  after_results_simp
  rw [h, e1, e3, e10]
  rfl

/-- What the first two stretches and regions leave in the index and degree buffers at the third stretch. -/
theorem W4_v1 : W4 m ρ c (Proc.devRef .tc main_v1) = Cert.ReferenceIdeal.Read.val_main_v1 (F := Ideal) (m ((c.tc : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (by not_written)
    _ = W1 m ρ c (Proc.devRef .tc main_v1) := W2_of_ne m ρ c main_v1 (by decide)
    _ = _ := W1_v1 m ρ c

theorem W4_v3 : W4 m ρ c (Proc.devRef .tc main_v3) = Cert.ReferenceIdeal.Read.val_main_v3 (F := Ideal) (m ((c.tc : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (by not_written)
    _ = W1 m ρ c (Proc.devRef .tc main_v3) := W2_of_ne m ρ c main_v3 (by decide)
    _ = _ := W1_v3 m ρ c

theorem W4_v10 : W4 m ρ c (Proc.devRef .tc main_v10) = Cert.ReferenceIdeal.Read.val_main_v20 (F := Ideal) (m ((c.tc : Thread nD τ).loc main_arg1)) :=
  calc W4 m ρ c (Proc.devRef .tc main_v10)
    _ = W3 m ρ c (Proc.devRef .tc main_v10) := W4_of_ne m ρ c main_v10 (by decide)
    _ = W2 m ρ c (Proc.devRef .tc main_v10) := StableHlo.after_of_forall_not_mem (b := Proc.devRef .tc main_v10) _ _ (by not_written)
    _ = W1 m ρ c (Proc.devRef .tc main_v10) := W2_of_ne m ρ c main_v10 (by decide)
    _ = _ := W1_v10 m ρ c

/-- The third aggregate (of the second layer's output) is the reference's, given that the second layer's output is. -/
theorem agg3_eq
    (h : (W4 m ρ c (Proc.devRef .tc main_v38) : S100000x128.Idx → EReal)
      = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    (V5 m ρ c main_v50 : S100000x128.Idx → EReal) = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps2 (W4 m ρ c) (Proc.devRef .tc main_v50) = _
  after_results_simp
  rw [h, W4_v1, W4_v3, W4_v10]
  rfl

end Cert.HostGlue

end
-- ==== Proof.RefRows.lean ====
/-
  The reference network read one node (one row) at a time.

  Each of the reference's four milestone arrays, read at row r and column q, is a function of row r of the
  arrays it is computed from: a SAGE convolution followed by an L2 normalisation and relu, a SAGE convolution
  followed by relu, a SAGE convolution followed by three dense layers, and a log-softmax of the three logits.
  The proofs read each stage at an index, identify the composed index maps with the coordinates (r, k), (k, q),
  and recognise the per-row functions of the specification.
-/
import proofs.«138146_j65412351918223_1_alg».proof.Proof.RefReadP
import proofs.«138146_j65412351918223_1_alg».proof.Proof.Spec
import Idealize.ShloMosaic.Lib.ValueIdx
import Idealize.ShloMosaic.PureOps.Ideal.Laws

noncomputable section

namespace Cert.RefRows

open Cert.ReferenceIdeal Cert.ReferenceIdeal.Read Idealize.ShloMosaic Idealize.ShloMosaic.ValueIdx

/-! ## Layer 1: rows of 9 features to rows of 64 -/

/-- The contraction of the aggregated row reads row `r` of the left operand … -/
theorem lidx23 (r : Fin 100000) (q : Fin 64) (k : Fin 9) : lidx_main_v23 (ix2 r q) k = ix2 r k :=
  funext fun a => Fin.ext (by match a with | ⟨0, _⟩ => rfl | ⟨1, _⟩ => rfl)
/-- … and column `q` of the weights. -/
theorem ridx23 (r : Fin 100000) (q : Fin 64) (k : Fin 9) : ridx_main_v23 (ix2 r q) k = ix2 k q :=
  funext fun a => Fin.ext (by match a with | ⟨0, _⟩ => rfl | ⟨1, _⟩ => rfl)
/-- The bias, broadcast along the rows, is read at column `q`. -/
theorem idx24 (r : Fin 100000) (q : Fin 64) : idx_main_v24 (idx_main_v25 (ix2 r q)) = ix1 q :=
  funext fun a => Fin.ext (by match a with | ⟨0, _⟩ => rfl)
theorem lidx27 (r : Fin 100000) (q : Fin 64) (k : Fin 9) : lidx_main_v27 (ix2 r q) k = ix2 r k :=
  funext fun a => Fin.ext (by match a with | ⟨0, _⟩ => rfl | ⟨1, _⟩ => rfl)
theorem ridx27 (r : Fin 100000) (q : Fin 64) (k : Fin 9) : ridx_main_v27 (ix2 r q) k = ix2 k q :=
  funext fun a => Fin.ext (by match a with | ⟨0, _⟩ => rfl | ⟨1, _⟩ => rfl)

/-- The first convolution at (r, q) is the SAGE function of row `r`. -/
theorem ref_pre1 (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (r : Fin 100000) (q : Fin 64) :
    val_main_v28 (F := Ideal) x0 x1 x2 x3 x4 (ix2 r q)
      = Cert.Spec.sage (fun k : Fin 9 => val_main_v22 (F := Ideal) x0 x1 (ix2 r k)) (fun k : Fin 9 => x0 (ix2 r k))
          (fun k j => x2 (ix2 k j)) (fun k j => x4 (ix2 k j)) (fun j : Fin 64 => x3 (ix1 j)) q := by
  rw [val_main_v28_apply, val_main_v26_apply, val_main_v23_apply, val_main_v25_apply, val_main_v24_apply, val_main_v27_apply]
  simp only [lidx23, ridx23, idx24, lidx27, ridx27, Ideal.addf_def]
  unfold Cert.Spec.sage Cert.Spec.dotRow
  rfl

/-- The literal zero a sum starts from adds nothing. -/
theorem zeroLit_add (s : EReal) : FloatOps.ofBits (F := Ideal) .f32 0x00000000#32 + s = s := by
  rw [Ideal.ofBits_def, Ideal.ofBits_zero_f32, zero_add]

/-- The normalisation and relu, as the reference spells them, of an abstract row. -/
theorem l2n_spelt {N : ℕ} (h : Fin N → EReal) (q : Fin N) :
    FloatOps.maximumf (F := Ideal) (φ := .f32)
        (FloatOps.hostDivf (F := Ideal) (φ := .f32) (h q)
          (FloatOps.maximumf (F := Ideal) (φ := .f32) (FloatOps.hostUnary (F := Ideal) (φ := .f32) .sqrt (∑ j : Fin N, h j * h j))
            (FloatOps.ofBits .f32 0x2B8CBCCC#32)))
        (FloatOps.ofBits .f32 0x00000000#32)
      = Cert.Spec.l2n h q := rfl

/-- The row norm's index maps: the broadcast of the floored norm is read at row `r`, and the squared entries of row `r` are summed. -/
theorem idx32 (r : Fin 100000) (q : Fin 64) (k : Fin 64) :
    idx_main_call0_v1 (idx_main_call0_v2 (idx_main_v32 (ix2 r q))) k = ix2 r k :=
  funext fun a => Fin.ext (by match a with | ⟨0, _⟩ => rfl | ⟨1, _⟩ => rfl)

/-- A squared entry of the convolution's row `r`, as the row norm of (r, q) reads it. -/
theorem ref_sq (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (r : Fin 100000) (q k : Fin 64) :
    val_main_call0_v0 (F := Ideal) x0 x1 x2 x3 x4 (idx_main_call0_v1 (idx_main_call0_v2 (idx_main_v32 (ix2 r q))) k)
      = Cert.Spec.sage (fun k : Fin 9 => val_main_v22 (F := Ideal) x0 x1 (ix2 r k)) (fun k : Fin 9 => x0 (ix2 r k))
          (fun k j => x2 (ix2 k j)) (fun k j => x4 (ix2 k j)) (fun j : Fin 64 => x3 (ix1 j)) k
        * Cert.Spec.sage (fun k : Fin 9 => val_main_v22 (F := Ideal) x0 x1 (ix2 r k)) (fun k : Fin 9 => x0 (ix2 r k))
          (fun k j => x2 (ix2 k j)) (fun k j => x4 (ix2 k j)) (fun j : Fin 64 => x3 (ix1 j)) k := by
  rw [idx32, val_main_call0_v0_apply, ref_pre1, Ideal.mulf_def]

/-- The first hidden layer at (r, q): the convolution of row `r`, divided by its floored Euclidean norm, then relu. -/
theorem ref_h1 (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (r : Fin 100000) (q : Fin 64) :
    val_main_v34 (F := Ideal) x0 x1 x2 x3 x4 (ix2 r q)
      = Cert.Spec.l2n (Cert.Spec.sage (fun k : Fin 9 => val_main_v22 (F := Ideal) x0 x1 (ix2 r k)) (fun k : Fin 9 => x0 (ix2 r k))
          (fun k j => x2 (ix2 k j)) (fun k j => x4 (ix2 k j)) (fun j : Fin 64 => x3 (ix1 j))) q := by
  rw [val_main_v34_apply, val_main_v33_apply, val_main_v32_apply, val_main_v31_apply, val_main_v29_apply, val_main_call0_v2_apply,
    val_main_call0_v1_apply, val_main_v30_apply, val_main_cst_4_apply, val_main_call0_cst_apply, val_main_call1_v0_apply, val_main_call1_cst_apply]
  simp only [ref_sq]
  rw [ref_pre1, zeroLit_add]
  exact l2n_spelt _ q

/-! ## Layer 2: rows of 64 features to rows of 128 -/

theorem lidx54 (r : Fin 100000) (q : Fin 128) (k : Fin 64) : lidx_main_v54 (ix2 r q) k = ix2 r k :=
  funext fun a => Fin.ext (by match a with | ⟨0, _⟩ => rfl | ⟨1, _⟩ => rfl)
theorem ridx54 (r : Fin 100000) (q : Fin 128) (k : Fin 64) : ridx_main_v54 (ix2 r q) k = ix2 k q :=
  funext fun a => Fin.ext (by match a with | ⟨0, _⟩ => rfl | ⟨1, _⟩ => rfl)
theorem idx55 (r : Fin 100000) (q : Fin 128) : idx_main_v55 (idx_main_v56 (ix2 r q)) = ix1 q :=
  funext fun a => Fin.ext (by match a with | ⟨0, _⟩ => rfl)
theorem lidx58 (r : Fin 100000) (q : Fin 128) (k : Fin 64) : lidx_main_v58 (ix2 r q) k = ix2 r k :=
  funext fun a => Fin.ext (by match a with | ⟨0, _⟩ => rfl | ⟨1, _⟩ => rfl)
theorem ridx58 (r : Fin 100000) (q : Fin 128) (k : Fin 64) : ridx_main_v58 (ix2 r q) k = ix2 k q :=
  funext fun a => Fin.ext (by match a with | ⟨0, _⟩ => rfl | ⟨1, _⟩ => rfl)

/-- The second hidden layer at (r, q): the SAGE function of row `r` of the aggregated and of the own features, then relu. -/
theorem ref_h2 (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (r : Fin 100000) (q : Fin 128) :
    val_main_v60 (F := Ideal) x0 x1 x2 x3 x4 x5 x6 x7 (ix2 r q)
      = Cert.Spec.relu (Cert.Spec.sage (fun k : Fin 64 => val_main_v53 (F := Ideal) x0 x1 x2 x3 x4 (ix2 r k)) (fun k : Fin 64 => val_main_v34 (F := Ideal) x0 x1 x2 x3 x4 (ix2 r k))
          (fun k j => x5 (ix2 k j)) (fun k j => x7 (ix2 k j)) (fun j : Fin 128 => x6 (ix1 j)) q) := by
  rw [val_main_v60_apply, val_main_v59_apply, val_main_v57_apply, val_main_v54_apply, val_main_v56_apply, val_main_v55_apply, val_main_v58_apply,
    val_main_call2_v0_apply, val_main_call2_cst_apply]
  simp only [lidx54, ridx54, idx55, lidx58, ridx58, Ideal.addf_def, Ideal.maximumf_def]
  unfold Cert.Spec.relu Cert.Spec.sage Cert.Spec.dotRow
  rfl

/-! ## Layer 3 and the three dense layers: rows of 128 to rows of 128, 128, 64, 3 -/

theorem lidx80 (r : Fin 100000) (q : Fin 128) (k : Fin 128) : lidx_main_v80 (ix2 r q) k = ix2 r k :=
  funext fun a => Fin.ext (by match a with | ⟨0, _⟩ => rfl | ⟨1, _⟩ => rfl)
theorem ridx80 (r : Fin 100000) (q : Fin 128) (k : Fin 128) : ridx_main_v80 (ix2 r q) k = ix2 k q :=
  funext fun a => Fin.ext (by match a with | ⟨0, _⟩ => rfl | ⟨1, _⟩ => rfl)
theorem idx81 (r : Fin 100000) (q : Fin 128) : idx_main_v81 (idx_main_v82 (ix2 r q)) = ix1 q :=
  funext fun a => Fin.ext (by match a with | ⟨0, _⟩ => rfl)
theorem lidx84 (r : Fin 100000) (q : Fin 128) (k : Fin 128) : lidx_main_v84 (ix2 r q) k = ix2 r k :=
  funext fun a => Fin.ext (by match a with | ⟨0, _⟩ => rfl | ⟨1, _⟩ => rfl)
theorem ridx84 (r : Fin 100000) (q : Fin 128) (k : Fin 128) : ridx_main_v84 (ix2 r q) k = ix2 k q :=
  funext fun a => Fin.ext (by match a with | ⟨0, _⟩ => rfl | ⟨1, _⟩ => rfl)

/-- The third convolution at (r, q) is the SAGE function of row `r`. -/
theorem ref_pre3 (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (r : Fin 100000) (q : Fin 128) :
    val_main_v85 (F := Ideal) x0 x1 x2 x3 x4 x5 x6 x7 x8 x9 x10 (ix2 r q)
      = Cert.Spec.sage (fun i : Fin 128 => val_main_v79 (F := Ideal) x0 x1 x2 x3 x4 x5 x6 x7 (ix2 r i)) (fun i : Fin 128 => val_main_v60 (F := Ideal) x0 x1 x2 x3 x4 x5 x6 x7 (ix2 r i))
                  (fun k j => x8 (ix2 k j)) (fun k j => x10 (ix2 k j)) (fun j : Fin 128 => x9 (ix1 j)) q := by
  rw [val_main_v85_apply, val_main_v83_apply, val_main_v80_apply, val_main_v82_apply, val_main_v81_apply, val_main_v84_apply]
  simp only [lidx80, ridx80, idx81, lidx84, ridx84, Ideal.addf_def]
  unfold Cert.Spec.sage Cert.Spec.dotRow
  rfl

theorem lidx86 (r : Fin 100000) (q : Fin 128) (k : Fin 128) : lidx_main_v86 (ix2 r q) k = ix2 r k :=
  funext fun a => Fin.ext (by match a with | ⟨0, _⟩ => rfl | ⟨1, _⟩ => rfl)
theorem ridx86 (r : Fin 100000) (q : Fin 128) (k : Fin 128) : ridx_main_v86 (ix2 r q) k = ix2 k q :=
  funext fun a => Fin.ext (by match a with | ⟨0, _⟩ => rfl | ⟨1, _⟩ => rfl)
theorem idx87 (r : Fin 100000) (q : Fin 128) : idx_main_v87 (idx_main_v88 (ix2 r q)) = ix1 q :=
  funext fun a => Fin.ext (by match a with | ⟨0, _⟩ => rfl)

/-- The first dense layer, with its relu, at (r, q), from row `r` of the third convolution. -/
theorem ref_mlp1 (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (r : Fin 100000) (q : Fin 128) :
    val_main_v90 (F := Ideal) x0 x1 x2 x3 x4 x5 x6 x7 x8 x9 x10 x11 x12 (ix2 r q)
      = Cert.Spec.relu (Cert.Spec.lin (fun k : Fin 128 => val_main_v85 (F := Ideal) x0 x1 x2 x3 x4 x5 x6 x7 x8 x9 x10 (ix2 r k))
          (fun k j => x11 (ix2 k j)) (fun j : Fin 128 => x12 (ix1 j)) q) := by
  rw [val_main_v90_apply, val_main_v89_apply, val_main_v86_apply, val_main_v88_apply, val_main_v87_apply, val_main_call3_v0_apply, val_main_call3_cst_apply]
  simp only [lidx86, ridx86, idx87, Ideal.addf_def, Ideal.maximumf_def]
  unfold Cert.Spec.relu Cert.Spec.lin Cert.Spec.dotRow
  rfl

theorem lidx91 (r : Fin 100000) (q : Fin 64) (k : Fin 128) : lidx_main_v91 (ix2 r q) k = ix2 r k :=
  funext fun a => Fin.ext (by match a with | ⟨0, _⟩ => rfl | ⟨1, _⟩ => rfl)
theorem ridx91 (r : Fin 100000) (q : Fin 64) (k : Fin 128) : ridx_main_v91 (ix2 r q) k = ix2 k q :=
  funext fun a => Fin.ext (by match a with | ⟨0, _⟩ => rfl | ⟨1, _⟩ => rfl)
theorem idx92 (r : Fin 100000) (q : Fin 64) : idx_main_v92 (idx_main_v93 (ix2 r q)) = ix1 q :=
  funext fun a => Fin.ext (by match a with | ⟨0, _⟩ => rfl)

/-- The second dense layer, with its relu, at (r, q), from row `r` of the first. -/
theorem ref_mlp2 (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (r : Fin 100000) (q : Fin 64) :
    val_main_v95 (F := Ideal) x0 x1 x2 x3 x4 x5 x6 x7 x8 x9 x10 x11 x12 x13 x14 (ix2 r q)
      = Cert.Spec.relu (Cert.Spec.lin (fun k : Fin 128 => val_main_v90 (F := Ideal) x0 x1 x2 x3 x4 x5 x6 x7 x8 x9 x10 x11 x12 (ix2 r k))
          (fun k j => x13 (ix2 k j)) (fun j : Fin 64 => x14 (ix1 j)) q) := by
  rw [val_main_v95_apply, val_main_v94_apply, val_main_v91_apply, val_main_v93_apply, val_main_v92_apply, val_main_call4_v0_apply, val_main_call4_cst_apply]
  simp only [lidx91, ridx91, idx92, Ideal.addf_def, Ideal.maximumf_def]
  unfold Cert.Spec.relu Cert.Spec.lin Cert.Spec.dotRow
  rfl

theorem lidx96 (r : Fin 100000) (q : Fin 3) (k : Fin 64) : lidx_main_v96 (ix2 r q) k = ix2 r k :=
  funext fun a => Fin.ext (by match a with | ⟨0, _⟩ => rfl | ⟨1, _⟩ => rfl)
theorem ridx96 (r : Fin 100000) (q : Fin 3) (k : Fin 64) : ridx_main_v96 (ix2 r q) k = ix2 k q :=
  funext fun a => Fin.ext (by match a with | ⟨0, _⟩ => rfl | ⟨1, _⟩ => rfl)
theorem idx97 (r : Fin 100000) (q : Fin 3) : idx_main_v97 (idx_main_v98 (ix2 r q)) = ix1 q :=
  funext fun a => Fin.ext (by match a with | ⟨0, _⟩ => rfl)

/-- The last dense layer at (r, q), from row `r` of the second. -/
theorem ref_mlp3 (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) (r : Fin 100000) (q : Fin 3) :
    val_main_v99 (F := Ideal) x0 x1 x2 x3 x4 x5 x6 x7 x8 x9 x10 x11 x12 x13 x14 x15 x16 (ix2 r q)
      = Cert.Spec.lin (fun k : Fin 64 => val_main_v95 (F := Ideal) x0 x1 x2 x3 x4 x5 x6 x7 x8 x9 x10 x11 x12 x13 x14 (ix2 r k))
          (fun k j => x15 (ix2 k j)) (fun j : Fin 3 => x16 (ix1 j)) q := by
  rw [val_main_v99_apply, val_main_v96_apply, val_main_v98_apply, val_main_v97_apply]
  simp only [lidx96, ridx96, idx97, Ideal.addf_def]
  unfold Cert.Spec.lin Cert.Spec.dotRow
  rfl

/-- The three logits of row `r`: the third convolution of the row through the three dense layers. -/
theorem ref_logits (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) (r : Fin 100000) (q : Fin 3) :
    val_main_v99 (F := Ideal) x0 x1 x2 x3 x4 x5 x6 x7 x8 x9 x10 x11 x12 x13 x14 x15 x16 (ix2 r q)
      = Cert.Spec.lin (fun k2 : Fin 64 => Cert.Spec.relu (Cert.Spec.lin (fun k1 : Fin 128 => Cert.Spec.relu (Cert.Spec.lin
            (fun k0 : Fin 128 => Cert.Spec.sage (fun i : Fin 128 => val_main_v79 (F := Ideal) x0 x1 x2 x3 x4 x5 x6 x7 (ix2 r i)) (fun i : Fin 128 => val_main_v60 (F := Ideal) x0 x1 x2 x3 x4 x5 x6 x7 (ix2 r i))
                  (fun k j => x8 (ix2 k j)) (fun k j => x10 (ix2 k j)) (fun j : Fin 128 => x9 (ix1 j)) k0)
            (fun k j => x11 (ix2 k j)) (fun j : Fin 128 => x12 (ix1 j)) k1))
          (fun k j => x13 (ix2 k j)) (fun j : Fin 64 => x14 (ix1 j)) k2))
        (fun k j => x15 (ix2 k j)) (fun j : Fin 3 => x16 (ix1 j)) q := by
  rw [ref_mlp3]
  simp only [ref_mlp2, ref_mlp1, ref_pre3]

/-! ## The log-softmax of a row of three logits -/

/-- The row maximum's index maps: the broadcast of the maximum is read at row `r`. -/
theorem idxMax (r : Fin 100000) (q : Fin 3) : idx_main_call5_v3 (idx_main_call5_v4 (ix2 r q)) = ix1 r :=
  funext fun a => Fin.ext (by match a with | ⟨0, _⟩ => rfl)
/-- The sum of exponentials runs over row `r`. -/
theorem idxSum (r : Fin 100000) (q : Fin 3) (k : Fin 3) :
    idx_main_call5_v7 (idx_main_call5_v8 (idx_main_call5_v10 (ix2 r q))) k = ix2 r k :=
  funext fun a => Fin.ext (by match a with | ⟨0, _⟩ => rfl | ⟨1, _⟩ => rfl)

/-- A maximum with the fold's own starting value changes nothing: a fold of `max` is at least its start. -/
theorem max_start_rowMax (l : Fin 3 → EReal) : max Cert.Spec.negInfLit (Cert.Spec.rowMax l) = Cert.Spec.rowMax l :=
  max_eq_right ((Finset.le_fold_max _).mpr (Or.inl le_rfl))

/-- The reduction over a row of an array of 100000 rows of three, from `−∞`, is the row's maximum. -/
theorem reduce_rowMax (y : S100000x3.Idx → Ideal .f32) (r : Fin 100000) :
    Host.reduce (FloatOps.maximumf (F := Ideal) (φ := .f32)) y (val_main_call5_cst (F := Ideal)) Gen.reducesTo_S100000x3_S100000_d1 Gen.h_S_ (ix1 r)
      = Cert.Spec.rowMax (fun j : Fin 3 => y (ix2 r j)) := by
  have h : S100000x3.Reduces [1] S100000 := by decide
  refine (Host.reduce_eq_fold_single (FloatOps.maximumf (F := Ideal) (φ := .f32)) y (val_main_call5_cst (F := Ideal)) Gen.reducesTo_S100000x3_S100000_d1 h Gen.h_S_ (ix1 r)).trans ?_
  have hf : (y ∘ h.lift (ix1 r)) = fun k : Fin 3 => y (ix2 r k) :=
    funext fun k => congrArg y (funext fun a => Fin.ext (by match a with | ⟨0, _⟩ => rfl | ⟨1, _⟩ => rfl))
  exact congrArg (fun f => Finset.fold max (Ideal.ofBits .f32 0xFF800000#32) f (Finset.univ : Finset (Fin 3))) hf

/-- The broadcast row maximum at (r, q) is the maximum of the three logits of row `r`. -/
theorem ref_max (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) (r : Fin 100000) (q : Fin 3) :
    val_main_call5_v4 (F := Ideal) x0 x1 x2 x3 x4 x5 x6 x7 x8 x9 x10 x11 x12 x13 x14 x15 x16 (ix2 r q)
      = Cert.Spec.rowMax (fun j : Fin 3 => val_main_v99 (F := Ideal) x0 x1 x2 x3 x4 x5 x6 x7 x8 x9 x10 x11 x12 x13 x14 x15 x16 (ix2 r j)) := by
  rw [val_main_call5_v4_apply, val_main_call5_v3_apply, val_main_call5_v2_apply, val_main_call5_v1_apply, val_main_call5_cst_0_apply, idxMax]
  unfold val_main_call5_v0
  generalize val_main_v99 (F := Ideal) x0 x1 x2 x3 x4 x5 x6 x7 x8 x9 x10 x11 x12 x13 x14 x15 x16 = y
  rw [reduce_rowMax]
  exact max_start_rowMax _

/-- A logit shifted by its row's maximum. -/
theorem ref_shift (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) (r : Fin 100000) (q : Fin 3) :
    val_main_call5_v5 (F := Ideal) x0 x1 x2 x3 x4 x5 x6 x7 x8 x9 x10 x11 x12 x13 x14 x15 x16 (ix2 r q)
      = val_main_v99 (F := Ideal) x0 x1 x2 x3 x4 x5 x6 x7 x8 x9 x10 x11 x12 x13 x14 x15 x16 (ix2 r q) - Cert.Spec.rowMax (fun j : Fin 3 => val_main_v99 (F := Ideal) x0 x1 x2 x3 x4 x5 x6 x7 x8 x9 x10 x11 x12 x13 x14 x15 x16 (ix2 r j)) := by
  rw [val_main_call5_v5_apply, ref_max, Ideal.subf_def]

/-- The exponential of a shifted logit of row `r`, as the row sum of (r, q) reads it. -/
theorem ref_exp (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) (r : Fin 100000) (q k : Fin 3) :
    val_main_call5_v6 (F := Ideal) x0 x1 x2 x3 x4 x5 x6 x7 x8 x9 x10 x11 x12 x13 x14 x15 x16 (idx_main_call5_v7 (idx_main_call5_v8 (idx_main_call5_v10 (ix2 r q))) k)
      = Ideal.exp ((fun j : Fin 3 => val_main_v99 (F := Ideal) x0 x1 x2 x3 x4 x5 x6 x7 x8 x9 x10 x11 x12 x13 x14 x15 x16 (ix2 r j)) k - Cert.Spec.rowMax (fun j : Fin 3 => val_main_v99 (F := Ideal) x0 x1 x2 x3 x4 x5 x6 x7 x8 x9 x10 x11 x12 x13 x14 x15 x16 (ix2 r j))) := by
  rw [idxSum, val_main_call5_v6_apply, ref_shift, Ideal.hostUnary_exp_def]

/-- The log-softmax, as the reference spells it, of an abstract row. -/
theorem lsmR_spelt (l : Fin 3 → EReal) (q : Fin 3) :
    FloatOps.subf (F := Ideal) (φ := .f32) (l q - Cert.Spec.rowMax l)
        (FloatOps.hostUnary (F := Ideal) (φ := .f32) .log (∑ j : Fin 3, Ideal.exp (l j - Cert.Spec.rowMax l)))
      = Cert.Spec.lsmR l q := rfl

/-- The output at (r, q): the logit minus the row maximum, minus the log of the row's sum of shifted exponentials. -/
theorem ref_out (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) (r : Fin 100000) (q : Fin 3) :
    val_main_v100 (F := Ideal) x0 x1 x2 x3 x4 x5 x6 x7 x8 x9 x10 x11 x12 x13 x14 x15 x16 (ix2 r q)
      = Cert.Spec.lsmR (fun j : Fin 3 => val_main_v99 (F := Ideal) x0 x1 x2 x3 x4 x5 x6 x7 x8 x9 x10 x11 x12 x13 x14 x15 x16 (ix2 r j)) q := by
  rw [val_main_v100_apply, val_main_call5_v10_apply, val_main_call5_v9_apply, val_main_call5_v8_apply, val_main_call5_v7_apply,
    val_main_call5_cst_1_apply, zeroLit_add]
  simp only [ref_exp]
  rw [ref_shift]
  exact lsmR_spelt (fun j : Fin 3 => val_main_v99 (F := Ideal) x0 x1 x2 x3 x4 x5 x6 x7 x8 x9 x10 x11 x12 x13 x14 x15 x16 (ix2 r j)) q

end Cert.RefRows

end
-- ==== Proof.RealArr.lean ====
/-
  An array of extended reals is REAL when every entry is a real number (neither infinity).
  Sums, products, maxima of real entries are real; a quotient by a nonzero real is real. These are the
  facts that carry "every input is finite" through a network of exact operations.
-/
import Idealize.ShloMosaic.PureOps.Ideal

noncomputable section

namespace Cert.Bridge

/-- Every entry of the array is a real number. -/
def IsReal {ι : Type} (v : ι → EReal) : Prop := ∀ i, ∃ r : ℝ, v i = (r : EReal)

end Cert.Bridge

end
-- ==== Proof.RealOps.lean ====
/-
  The real numbers inside the extended reals are closed under the exact operations.

  An extended real is REAL when it is the image of a real number. A sum, a product, a maximum of two reals
  is real; a finite sum of reals is real; a quotient (with the conventions of division by zero and by an
  infinity left aside) by a real that is not zero is the product with the reciprocal, hence real. The
  maximum of a real with the number one is a real that is not zero.
-/
import Idealize.ShloMosaic.PureOps.Ideal
import Idealize.ShloMosaic.PureOps.Ideal.Laws
import Idealize.ShloMosaic.Lib.IdealHost

noncomputable section

namespace Cert.RealOps

open Idealize.ShloMosaic

/-- A sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A maximum of two reals is real: it is one of the two. -/
theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- A finite sum of reals is real. -/
theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (hf a (Finset.mem_insert_self a s)) (ih fun i hi => hf i (Finset.mem_insert_of_mem hi))

/-- A real divided by a real that is not zero is real. -/
theorem real_div {x y : EReal} (hx : ∃ r : ℝ, x = (r : EReal)) (hy : ∃ d : ℝ, d ≠ 0 ∧ y = (d : EReal)) :
    ∃ r : ℝ, Ideal.div x y = (r : EReal) := by
  obtain ⟨d, hd, rfl⟩ := hy
  rw [Ideal.div_coe hd]
  exact real_mul hx ⟨_, rfl⟩

/-- The word of `0.0` is the real zero. -/
theorem zero_f32_real : ∃ r : ℝ, Ideal.ofBits .f32 0x00000000#32 = (r : EReal) :=
  ⟨0, by rw [Ideal.ofBits_zero_f32, EReal.coe_zero]⟩

/-- The word of `1.0` is the real one. -/
theorem one_f32_real : ∃ r : ℝ, Ideal.ofBits .f32 0x3F800000#32 = (r : EReal) :=
  ⟨1, by rw [Ideal.ofBits_one_f32, EReal.coe_one]⟩

/-- The maximum of a real with the word of `1.0` is a real that is at least one, hence not zero. -/
theorem max_one_ne_zero {c : EReal} (hc : ∃ r : ℝ, c = (r : EReal)) :
    ∃ d : ℝ, d ≠ 0 ∧ max c (Ideal.ofBits .f32 0x3F800000#32) = (d : EReal) := by
  obtain ⟨r, rfl⟩ := hc
  rw [Ideal.ofBits_one_f32, ← EReal.coe_one]
  rcases le_total r 1 with h | h
  · exact ⟨1, one_ne_zero, max_eq_right (EReal.coe_le_coe_iff.2 h)⟩
  · exact ⟨r, (lt_of_lt_of_le one_pos h).ne', max_eq_left (EReal.coe_le_coe_iff.2 h)⟩

end Cert.RealOps

end
-- ==== Proof.SpecReal.lean ====
/-
  Every function of the row-wise specification maps real numbers to real numbers.

  Sums, products and maxima of reals are real; the square root of a real is a real or −∞, and in either case its maximum with the positive
  floor ε is a real number that is at least ε, hence not zero; a quotient by a nonzero real is a product
  with a real; and a maximum folded from −∞ over three reals is the largest of the three.
-/
import proofs.«138146_j65412351918223_1_alg».proof.Proof.Spec
import proofs.«138146_j65412351918223_1_alg».proof.Proof.RealArr
import proofs.«138146_j65412351918223_1_alg».proof.Proof.RealOps

noncomputable section

namespace Cert.SpecReal

open Idealize.ShloMosaic Cert.RealOps

/-! ### The three literals -/

/-- The word of `0.0` is the real zero. -/
theorem zeroLit_real : ∃ r : ℝ, Cert.Spec.zeroLit = (r : EReal) :=
  ⟨0, by rw [Cert.Spec.zeroLit, Ideal.ofBits_zero_f32, EReal.coe_zero]⟩

/-- The word `0x2B8CBCCC` (sign 0, exponent 87, fraction 834764) is a positive real. -/
theorem epsLit_pos : ∃ r : ℝ, 0 < r ∧ Cert.Spec.epsLit = (r : EReal) := by
  refine ⟨((2 ^ 23 + 834764 : ℕ) : ℝ) * (2 : ℝ) ^ ((87 : ℤ) - 127 - 23), by positivity, ?_⟩
  simp [Cert.Spec.epsLit, Ideal.ofBits, Ideal.ieee, -EReal.coe_mul]

/-- The word `0xFF800000` (sign 1, exponent all ones, fraction 0) is −∞. -/
theorem negInfLit_bot : Cert.Spec.negInfLit = ⊥ := by
  simp [Cert.Spec.negInfLit, Ideal.ofBits, Ideal.ieee]

/-! ### The layers -/

variable {K N : ℕ}

theorem dotRow_real (a : Fin K → EReal) (W : Fin K → Fin N → EReal) (q : Fin N)
    (ha : ∀ k, ∃ r : ℝ, a k = (r : EReal)) (hW : ∀ k j, ∃ r : ℝ, W k j = (r : EReal)) :
    ∃ r : ℝ, Cert.Spec.dotRow a W q = (r : EReal) :=
  real_sum _ _ fun k _ => real_mul (ha k) (hW k q)

theorem sage_real (a x : Fin K → EReal) (Wl Wr : Fin K → Fin N → EReal) (b : Fin N → EReal) (q : Fin N)
    (ha : ∀ k, ∃ r : ℝ, a k = (r : EReal)) (hx : ∀ k, ∃ r : ℝ, x k = (r : EReal))
    (hWl : ∀ k j, ∃ r : ℝ, Wl k j = (r : EReal)) (hWr : ∀ k j, ∃ r : ℝ, Wr k j = (r : EReal))
    (hb : ∀ j, ∃ r : ℝ, b j = (r : EReal)) :
    ∃ r : ℝ, Cert.Spec.sage a x Wl Wr b q = (r : EReal) :=
  real_add (real_add (dotRow_real a Wl q ha hWl) (hb q)) (dotRow_real x Wr q hx hWr)

theorem lin_real (x : Fin K → EReal) (W : Fin K → Fin N → EReal) (b : Fin N → EReal) (q : Fin N)
    (hx : ∀ k, ∃ r : ℝ, x k = (r : EReal)) (hW : ∀ k j, ∃ r : ℝ, W k j = (r : EReal))
    (hb : ∀ j, ∃ r : ℝ, b j = (r : EReal)) :
    ∃ r : ℝ, Cert.Spec.lin x W b q = (r : EReal) :=
  real_add (dotRow_real x W q hx hW) (hb q)

theorem relu_real (v : EReal) (hv : ∃ r : ℝ, v = (r : EReal)) : ∃ r : ℝ, Cert.Spec.relu v = (r : EReal) :=
  real_max hv zeroLit_real

/-- The square root of a real is a real or −∞. -/
theorem sqrt_real_or_bot (s : ℝ) : (∃ r : ℝ, Ideal.sqrt (s : EReal) = (r : EReal)) ∨ Ideal.sqrt (s : EReal) = ⊥ := by
  rw [Ideal.sqrt_coe]
  split_ifs
  · exact Or.inr rfl
  · exact Or.inl ⟨_, rfl⟩

/-- The maximum of the square root of a real with ε is a real that is not zero. -/
theorem floor_real (s : ℝ) :
    ∃ d : ℝ, d ≠ 0 ∧ max (Ideal.sqrt (s : EReal)) Cert.Spec.epsLit = (d : EReal) := by
  obtain ⟨e, he, hε⟩ := epsLit_pos
  rw [hε]
  rcases sqrt_real_or_bot s with ⟨r, hr⟩ | hb
  · rw [hr]
    rcases le_total r e with h | h
    · exact ⟨e, he.ne', max_eq_right (EReal.coe_le_coe_iff.2 h)⟩
    · exact ⟨r, (lt_of_lt_of_le he h).ne', max_eq_left (EReal.coe_le_coe_iff.2 h)⟩
  · rw [hb]
    exact ⟨e, he.ne', max_eq_right bot_le⟩

theorem l2n_real (h : Fin N → EReal) (q : Fin N) (hh : ∀ j, ∃ r : ℝ, h j = (r : EReal)) :
    ∃ r : ℝ, Cert.Spec.l2n h q = (r : EReal) := by
  unfold Cert.Spec.l2n
  apply relu_real
  obtain ⟨s, hs⟩ := real_sum Finset.univ (fun j => h j * h j) fun j _ => real_mul (hh j) (hh j)
  rw [hs]
  exact real_div (hh q) (floor_real s)

theorem rowMax_real (l : Fin 3 → EReal) (hl : ∀ j, ∃ r : ℝ, l j = (r : EReal)) :
    ∃ M : ℝ, Cert.Spec.rowMax l = (M : EReal) := by
  unfold Cert.Spec.rowMax
  rw [negInfLit_bot, show (Finset.univ : Finset (Fin 3)) = {0, 1, 2} from rfl,
    Finset.fold_insert (by decide), Finset.fold_insert (by decide), Finset.fold_singleton, max_bot_right]
  exact real_max (hl 0) (real_max (hl 1) (hl 2))

end Cert.SpecReal

end
-- ==== Proof.AggReal.lean ====
/-
  The reference's three neighbour aggregations map real features to real features.

  An aggregation is  scatter_add(zeros, dst, gather(features, src)) / broadcast(max(scatter_add(zeros, dst, ones), 1)).
  A gather reads its operand at a computed index, so it is real when the operand is. An accumulating
  scatter is, at each element, the operand's element plus a finite sum of update elements, so it is real
  when operand and updates are. The count is therefore a real number, its maximum with one is a real that
  is at least one, hence not zero, and a real divided by a real that is not zero is real.
-/
import proofs.«138146_j65412351918223_1_alg».proof.Proof.RefReadP
import proofs.«138146_j65412351918223_1_alg».proof.Proof.RealArr
import proofs.«138146_j65412351918223_1_alg».proof.Proof.RealOps

noncomputable section

namespace Cert.AggReal

open Cert.ReferenceIdeal Cert.ReferenceIdeal.Read Cert.Bridge Cert.RealOps
open Idealize.ShloMosaic

/-! ### Two general facts -/

/-- A gather of a real array is real: each element is an element of the operand. -/
theorem gather_real {s si t : Shape} {w : Nat} (d : GatherDims s si t) (x : s.Idx → EReal) (idx : IVec si w)
    (hx : IsReal x) : IsReal (Host.gather d x idx) :=
  fun j => hx (d.operandIdx j idx)

/-- An accumulating scatter of real updates into a real operand is real: each element is the operand's
    plus a finite sum of updates. -/
theorem scatterAdd_real {s si u : Shape} {w : Nat} {φ : FTy} (d : ScatterDims s si u) (x : s.Idx → EReal)
    (idx : IVec si w) (upd : u.Idx → EReal) (hx : IsReal x) (hu : IsReal upd) :
    IsReal (Host.scatterAdd (F := Ideal) (φ := φ) d x idx upd : s.Idx → EReal) := by
  intro i
  show ∃ r : ℝ, Ideal.hostScatterAdd d x idx upd i = (r : EReal)
  unfold Ideal.hostScatterAdd
  exact real_add (hx i) (real_sum _ _ fun j _ => hu j)

/-! ### The first aggregation: the input features -/

/-- The accumulator the features are added into is the zero array. -/
theorem v11_real : IsReal (val_main_v11 (F := Ideal) : S100000x9.Idx → EReal) := by
  intro i
  rw [val_main_v11_apply, val_main_cst_apply, Ideal.ofBits_def]
  exact zero_f32_real

/-- The updates of the count are the array of ones. -/
theorem v14_real : IsReal (val_main_v14 (F := Ideal) : S600000.Idx → EReal) := by
  intro i
  rw [val_main_v14_apply, val_main_cst_1_apply, Ideal.ofBits_def]
  exact one_f32_real

/-- The accumulator of the count is the zero array. -/
theorem v15_real : IsReal (val_main_v15 (F := Ideal) : S100000.Idx → EReal) := by
  intro i
  rw [val_main_v15_apply, val_main_cst_2_apply, Ideal.ofBits_def]
  exact zero_f32_real

/-- The count of incoming edges of each node is a real number. -/
theorem v17_real (x1 : (⟨S2x600000, .i32⟩ : BufTy).Contents (Elt Ideal)) : IsReal (val_main_v17 (F := Ideal) x1 : S100000.Idx → EReal) := by
  unfold val_main_v17
  exact scatterAdd_real _ _ _ _ v15_real v14_real

/-- The divisor, the maximum of the count with one, is a real that is not zero. -/
theorem v19_ne_zero (x1 : (⟨S2x600000, .i32⟩ : BufTy).Contents (Elt Ideal)) (i : S100000.Idx) :
    ∃ d : ℝ, d ≠ 0 ∧ val_main_v19 (F := Ideal) x1 i = (d : EReal) := by
  rw [val_main_v19_apply, val_main_v18_apply, val_main_cst_3_apply, Ideal.maximumf_def, Ideal.ofBits_def]
  exact max_one_ne_zero (v17_real x1 i)

/-- So is the divisor broadcast along the feature axis. -/
theorem v21_ne_zero (x1 : (⟨S2x600000, .i32⟩ : BufTy).Contents (Elt Ideal)) (i : S100000x9.Idx) :
    ∃ d : ℝ, d ≠ 0 ∧ val_main_v21 (F := Ideal) x1 i = (d : EReal) := by
  rw [val_main_v21_apply, val_main_v20_apply]
  exact v19_ne_zero x1 _

/-- The sum of the neighbours' feature rows is real when the features are. -/
theorem v13_real (x0 : (⟨S100000x9, .f32⟩ : BufTy).Contents (Elt Ideal)) (x1 : (⟨S2x600000, .i32⟩ : BufTy).Contents (Elt Ideal))
    (h : IsReal (x0 : S100000x9.Idx → EReal)) :
    IsReal (val_main_v13 (F := Ideal) x0 x1 : S100000x9.Idx → EReal) := by
  unfold val_main_v13 val_main_v10
  exact scatterAdd_real _ _ _ _ v11_real (gather_real _ _ _ h)

/-- The mean of the neighbours' input features is real when the input features are. -/
theorem agg1_real (x0 : (⟨S100000x9, .f32⟩ : BufTy).Contents (Elt Ideal)) (x1 : (⟨S2x600000, .i32⟩ : BufTy).Contents (Elt Ideal))
    (h : IsReal (x0 : S100000x9.Idx → EReal)) :
    IsReal (val_main_v22 (F := Ideal) x0 x1 : S100000x9.Idx → EReal) := by
  intro i
  rw [val_main_v22_apply, Ideal.hostDivf_def]
  exact real_div (v13_real x0 x1 h i) (v21_ne_zero x1 i)

/-! ### The second aggregation: the first layer's features -/

/-- The accumulator the features are added into is the zero array. -/
theorem v42_real : IsReal (val_main_v42 (F := Ideal) : S100000x64.Idx → EReal) := by
  intro i
  rw [val_main_v42_apply, val_main_cst_7_apply, Ideal.ofBits_def]
  exact zero_f32_real

/-- The updates of the count are the array of ones. -/
theorem v45_real : IsReal (val_main_v45 (F := Ideal) : S600000.Idx → EReal) := by
  intro i
  rw [val_main_v45_apply, val_main_cst_8_apply, Ideal.ofBits_def]
  exact one_f32_real

/-- The accumulator of the count is the zero array. -/
theorem v46_real : IsReal (val_main_v46 (F := Ideal) : S100000.Idx → EReal) := by
  intro i
  rw [val_main_v46_apply, val_main_cst_9_apply, Ideal.ofBits_def]
  exact zero_f32_real

/-- The count of incoming edges of each node is a real number. -/
theorem v48_real (x1 : (⟨S2x600000, .i32⟩ : BufTy).Contents (Elt Ideal)) : IsReal (val_main_v48 (F := Ideal) x1 : S100000.Idx → EReal) := by
  unfold val_main_v48
  exact scatterAdd_real _ _ _ _ v46_real v45_real

/-- The divisor, the maximum of the count with one, is a real that is not zero. -/
theorem v50_ne_zero (x1 : (⟨S2x600000, .i32⟩ : BufTy).Contents (Elt Ideal)) (i : S100000.Idx) :
    ∃ d : ℝ, d ≠ 0 ∧ val_main_v50 (F := Ideal) x1 i = (d : EReal) := by
  rw [val_main_v50_apply, val_main_v49_apply, val_main_cst_10_apply, Ideal.maximumf_def, Ideal.ofBits_def]
  exact max_one_ne_zero (v48_real x1 i)

/-- So is the divisor broadcast along the feature axis. -/
theorem v52_ne_zero (x1 : (⟨S2x600000, .i32⟩ : BufTy).Contents (Elt Ideal)) (i : S100000x64.Idx) :
    ∃ d : ℝ, d ≠ 0 ∧ val_main_v52 (F := Ideal) x1 i = (d : EReal) := by
  rw [val_main_v52_apply, val_main_v51_apply]
  exact v50_ne_zero x1 _

/-- The sum of the neighbours' feature rows is real when the features are. -/
theorem v44_real (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal))
    (h : IsReal (val_main_v34 (F := Ideal) x0 x1 x2 x3 x4 : S100000x64.Idx → EReal)) :
    IsReal (val_main_v44 (F := Ideal) x0 x1 x2 x3 x4 : S100000x64.Idx → EReal) := by
  unfold val_main_v44 val_main_v41
  exact scatterAdd_real _ _ _ _ v42_real (gather_real _ _ _ h)

/-- The mean of the neighbours' first-layer features is real when those features are. -/
theorem agg2_real (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal))
    (h : IsReal (val_main_v34 (F := Ideal) x0 x1 x2 x3 x4 : S100000x64.Idx → EReal)) :
    IsReal (val_main_v53 (F := Ideal) x0 x1 x2 x3 x4 : S100000x64.Idx → EReal) := by
  intro i
  rw [val_main_v53_apply, Ideal.hostDivf_def]
  exact real_div (v44_real x0 x1 x2 x3 x4 h i) (v52_ne_zero x1 i)

/-! ### The third aggregation: the second layer's features -/

/-- The accumulator the features are added into is the zero array. -/
theorem v68_real : IsReal (val_main_v68 (F := Ideal) : S100000x128.Idx → EReal) := by
  intro i
  rw [val_main_v68_apply, val_main_cst_13_apply, Ideal.ofBits_def]
  exact zero_f32_real

/-- The updates of the count are the array of ones. -/
theorem v71_real : IsReal (val_main_v71 (F := Ideal) : S600000.Idx → EReal) := by
  intro i
  rw [val_main_v71_apply, val_main_cst_14_apply, Ideal.ofBits_def]
  exact one_f32_real

/-- The accumulator of the count is the zero array. -/
theorem v72_real : IsReal (val_main_v72 (F := Ideal) : S100000.Idx → EReal) := by
  intro i
  rw [val_main_v72_apply, val_main_cst_15_apply, Ideal.ofBits_def]
  exact zero_f32_real

/-- The count of incoming edges of each node is a real number. -/
theorem v74_real (x1 : (⟨S2x600000, .i32⟩ : BufTy).Contents (Elt Ideal)) : IsReal (val_main_v74 (F := Ideal) x1 : S100000.Idx → EReal) := by
  unfold val_main_v74
  exact scatterAdd_real _ _ _ _ v72_real v71_real

/-- The divisor, the maximum of the count with one, is a real that is not zero. -/
theorem v76_ne_zero (x1 : (⟨S2x600000, .i32⟩ : BufTy).Contents (Elt Ideal)) (i : S100000.Idx) :
    ∃ d : ℝ, d ≠ 0 ∧ val_main_v76 (F := Ideal) x1 i = (d : EReal) := by
  rw [val_main_v76_apply, val_main_v75_apply, val_main_cst_16_apply, Ideal.maximumf_def, Ideal.ofBits_def]
  exact max_one_ne_zero (v74_real x1 i)

/-- So is the divisor broadcast along the feature axis. -/
theorem v78_ne_zero (x1 : (⟨S2x600000, .i32⟩ : BufTy).Contents (Elt Ideal)) (i : S100000x128.Idx) :
    ∃ d : ℝ, d ≠ 0 ∧ val_main_v78 (F := Ideal) x1 i = (d : EReal) := by
  rw [val_main_v78_apply, val_main_v77_apply]
  exact v76_ne_zero x1 _

/-- The sum of the neighbours' feature rows is real when the features are. -/
theorem v70_real (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal))
    (h : IsReal (val_main_v60 (F := Ideal) x0 x1 x2 x3 x4 x5 x6 x7 : S100000x128.Idx → EReal)) :
    IsReal (val_main_v70 (F := Ideal) x0 x1 x2 x3 x4 x5 x6 x7 : S100000x128.Idx → EReal) := by
  unfold val_main_v70 val_main_v67
  exact scatterAdd_real _ _ _ _ v68_real (gather_real _ _ _ h)

/-- The mean of the neighbours' second-layer features is real when those features are. -/
theorem agg3_real (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal))
    (h : IsReal (val_main_v60 (F := Ideal) x0 x1 x2 x3 x4 x5 x6 x7 : S100000x128.Idx → EReal)) :
    IsReal (val_main_v79 (F := Ideal) x0 x1 x2 x3 x4 x5 x6 x7 : S100000x128.Idx → EReal) := by
  intro i
  rw [val_main_v79_apply, Ideal.hostDivf_def]
  exact real_div (v70_real x0 x1 x2 x3 x4 x5 x6 x7 h i) (v78_ne_zero x1 i)

end Cert.AggReal

end
-- ==== Proof.LogitsReal.lean ====
/-
  The reference's hidden layers and its three logits are real when every float argument is.

  Each milestone array, read at row r, is a composition of the row-wise functions of the specification
  applied to row r of the earlier arrays and of the node's aggregated neighbours; each of those functions
  maps reals to reals, and so does each aggregation. Hence, layer after layer, every entry is a real number,
  and the maximum of the three logits of a row is a real number.
-/
import proofs.«138146_j65412351918223_1_alg».proof.Proof.RefRows
import proofs.«138146_j65412351918223_1_alg».proof.Proof.SpecReal
import proofs.«138146_j65412351918223_1_alg».proof.Proof.AggReal

noncomputable section

namespace Cert.LogitsReal

open Cert.ReferenceIdeal Cert.ReferenceIdeal.Read Cert.Bridge Cert.RealOps Cert.SpecReal Cert.AggReal Cert.RefRows
open Idealize.ShloMosaic Idealize.ShloMosaic.ValueIdx

/-- The first hidden layer: a convolution of real rows, normalised, then relu. -/
theorem h1_real (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal))
    (h0 : IsReal (x0 : S100000x9.Idx → EReal)) (h2 : IsReal (x2 : S9x64.Idx → EReal)) (h3 : IsReal (x3 : S64.Idx → EReal)) (h4 : IsReal (x4 : S9x64.Idx → EReal)) :
    IsReal (val_main_v34 (F := Ideal) x0 x1 x2 x3 x4 : S100000x64.Idx → EReal) := by
  intro i
  obtain ⟨r, q, rfl⟩ : ∃ (r : Fin 100000) (q : Fin 64), i = ix2 r q := ⟨i 0, i 1, eq_ix2 i⟩
  rw [ref_h1]
  exact l2n_real _ q fun j => sage_real _ _ _ _ _ j (fun k => agg1_real x0 x1 h0 _) (fun k => h0 _)
    (fun k j => h2 _) (fun k j => h4 _) (fun j => h3 _)

/-- The second hidden layer: a convolution of real rows, then relu. -/
theorem h2_real (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal))
    (h0 : IsReal (x0 : S100000x9.Idx → EReal)) (h2 : IsReal (x2 : S9x64.Idx → EReal)) (h3 : IsReal (x3 : S64.Idx → EReal)) (h4 : IsReal (x4 : S9x64.Idx → EReal)) (h5 : IsReal (x5 : S64x128.Idx → EReal)) (h6 : IsReal (x6 : S128.Idx → EReal)) (h7 : IsReal (x7 : S64x128.Idx → EReal)) :
    IsReal (val_main_v60 (F := Ideal) x0 x1 x2 x3 x4 x5 x6 x7 : S100000x128.Idx → EReal) := by
  have g1 := h1_real x0 x1 x2 x3 x4 h0 h2 h3 h4
  intro i
  obtain ⟨r, q, rfl⟩ : ∃ (r : Fin 100000) (q : Fin 128), i = ix2 r q := ⟨i 0, i 1, eq_ix2 i⟩
  rw [ref_h2]
  exact relu_real _ (sage_real _ _ _ _ _ q (fun k => agg2_real x0 x1 x2 x3 x4 g1 _) (fun k => g1 _)
    (fun k j => h5 _) (fun k j => h7 _) (fun j => h6 _))

/-- The three logits: a convolution of real rows through three dense layers. -/
theorem logits_real (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal))
    (h0 : IsReal (x0 : S100000x9.Idx → EReal)) (h2 : IsReal (x2 : S9x64.Idx → EReal)) (h3 : IsReal (x3 : S64.Idx → EReal)) (h4 : IsReal (x4 : S9x64.Idx → EReal)) (h5 : IsReal (x5 : S64x128.Idx → EReal)) (h6 : IsReal (x6 : S128.Idx → EReal)) (h7 : IsReal (x7 : S64x128.Idx → EReal)) (h8 : IsReal (x8 : S128x128.Idx → EReal)) (h9 : IsReal (x9 : S128.Idx → EReal)) (h10 : IsReal (x10 : S128x128.Idx → EReal)) (h11 : IsReal (x11 : S128x128.Idx → EReal)) (h12 : IsReal (x12 : S128.Idx → EReal)) (h13 : IsReal (x13 : S128x64.Idx → EReal)) (h14 : IsReal (x14 : S64.Idx → EReal)) (h15 : IsReal (x15 : S64x3.Idx → EReal)) (h16 : IsReal (x16 : S3.Idx → EReal)) :
    IsReal (val_main_v99 (F := Ideal) x0 x1 x2 x3 x4 x5 x6 x7 x8 x9 x10 x11 x12 x13 x14 x15 x16 : S100000x3.Idx → EReal) := by
  have g2 := h2_real x0 x1 x2 x3 x4 x5 x6 x7 h0 h2 h3 h4 h5 h6 h7
  intro i
  obtain ⟨r, q, rfl⟩ : ∃ (r : Fin 100000) (q : Fin 3), i = ix2 r q := ⟨i 0, i 1, eq_ix2 i⟩
  rw [ref_logits]
  refine lin_real _ _ _ q (fun k2 => relu_real _ (lin_real _ _ _ k2 (fun k1 => relu_real _ (lin_real _ _ _ k1 (fun k0 => ?_)
    (fun k j => h11 _) (fun j => h12 _))) (fun k j => h13 _) (fun j => h14 _))) (fun k j => h15 _) (fun j => h16 _)
  exact sage_real _ _ _ _ _ k0 (fun k => agg3_real x0 x1 x2 x3 x4 x5 x6 x7 g2 _) (fun k => g2 _)
    (fun k j => h8 _) (fun k j => h10 _) (fun j => h9 _)

/-- The maximum of the three logits of a row is a real number. -/
theorem rowmax_real (x0 : (⟨S100000x9, .f32⟩ : BufTy).Contents (Elt Ideal)) (x1 : (⟨S2x600000, .i32⟩ : BufTy).Contents (Elt Ideal)) (x2 : (⟨S9x64, .f32⟩ : BufTy).Contents (Elt Ideal)) (x3 : (⟨S64, .f32⟩ : BufTy).Contents (Elt Ideal)) (x4 : (⟨S9x64, .f32⟩ : BufTy).Contents (Elt Ideal)) (x5 : (⟨S64x128, .f32⟩ : BufTy).Contents (Elt Ideal)) (x6 : (⟨S128, .f32⟩ : BufTy).Contents (Elt Ideal)) (x7 : (⟨S64x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal))
    (h0 : IsReal (x0 : S100000x9.Idx → EReal)) (h2 : IsReal (x2 : S9x64.Idx → EReal)) (h3 : IsReal (x3 : S64.Idx → EReal)) (h4 : IsReal (x4 : S9x64.Idx → EReal)) (h5 : IsReal (x5 : S64x128.Idx → EReal)) (h6 : IsReal (x6 : S128.Idx → EReal)) (h7 : IsReal (x7 : S64x128.Idx → EReal)) (h8 : IsReal (x8 : S128x128.Idx → EReal)) (h9 : IsReal (x9 : S128.Idx → EReal)) (h10 : IsReal (x10 : S128x128.Idx → EReal)) (h11 : IsReal (x11 : S128x128.Idx → EReal)) (h12 : IsReal (x12 : S128.Idx → EReal)) (h13 : IsReal (x13 : S128x64.Idx → EReal)) (h14 : IsReal (x14 : S64.Idx → EReal)) (h15 : IsReal (x15 : S64x3.Idx → EReal)) (h16 : IsReal (x16 : S3.Idx → EReal)) (r : Fin 100000) :
    ∃ M : ℝ, Cert.Spec.rowMax (fun j : Fin 3 => val_main_v99 (F := Ideal) x0 x1 x2 x3 x4 x5 x6 x7 x8 x9 x10 x11 x12 x13 x14 x15 x16 (ix2 r j)) = (M : EReal) :=
  rowMax_real _ fun j => logits_real x0 x1 x2 x3 x4 x5 x6 x7 x8 x9 x10 x11 x12 x13 x14 x15 x16 h0 h2 h3 h4 h5 h6 h7 h8 h9 h10 h11 h12 h13 h14 h15 h16 (ix2 r j)

end Cert.LogitsReal

end
-- ==== Proof.PreReal.lean ====
/-
  From the certificate's precondition to real-valued arguments.

  The precondition says, for each of the sixteen float argument arrays x, that jnp.all(|x| < +inf) is true, and the
  sixteen truth values and-ed together are true. Read back: a conjunction of one-bit words is 1 exactly when each word
  is; an and-reduction over all axes that came out 1 met a 1 at every index; at one index the word is the decision
  of max x (-x) < +inf on the extended reals, where the pattern 0x7F800000 denotes +inf; and an extended real whose
  absolute value is below +inf is neither infinity, hence a real number.
-/
import proofs.«138146_j65412351918223_1_alg».proof.Defs
import proofs.«138146_j65412351918223_1_alg».proof.Proof.Gen.Pre_finite_inputs
import proofs.«138146_j65412351918223_1_alg».proof.Proof.RealArr
import Idealize.ShloMosaic.Lib.ReduceAll
import Idealize.ShloMosaic.Lib.ValueIdx

noncomputable section

namespace Cert.PreReal

open Cert.KernelIdeal Cert.Bridge Idealize.ShloMosaic Idealize.SL.Sem

/-- The scalar shape has exactly one index. -/
instance scalarIdx_subsingleton : Subsingleton (⟨0, ![]⟩ : Shape).Idx := ⟨fun a b => funext fun d => d.elim0⟩

/-- An extended real whose absolute value max x (-x) lies below +inf is a real number: at +inf the maximum is +inf,
    at -inf its negation is. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The single-precision pattern 0x7F800000 (sign 0, exponent all ones, fraction 0) denotes +inf. -/
theorem inf_word : Ideal.ofBits .f32 0x7F800000#32 = (⊤ : EReal) := by
  simp [Ideal.ofBits, Ideal.ieee]

/-- A one-bit word built from a decision is 1 exactly when the decision is true. -/
theorem ofBool_eq_one (b : Bool) : BitVec.ofBool b = 1#1 ↔ b = true := by cases b <;> decide

/-- ONE ARRAY. If the and-reduction over all axes of the array of words |x i| < +inf is 1, every entry of x is real. -/
theorem isReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1)
    (e : Host.reduce IntOp.andi
          (cmpf .olt (Host.absf x) (broadcastInDim s ![] hb (constant (F := Ideal) (⟨0, ![]⟩ : Shape) .f32 0x7F800000#32)))
          init hr hu ValueIdx.ix0 = 1#1) :
    IsReal (x : s.Idx → EReal) := by
  intro i
  have h1 := Host.reduce_andi_all _ init hr hu ValueIdx.ix0 e i
  have h2 : BitVec.ofBool (decide (max (x i) (-(x i)) < Ideal.ofBits .f32 0x7F800000#32)) = 1#1 := h1
  rw [ofBool_eq_one, decide_eq_true_eq, inf_word] at h2
  exact real_of_abs_lt_top (x i) h2

/-- EVERY FLOAT ARGUMENT IS REAL. The precondition's one word is the conjunction, in argument order, of the sixteen
    all-reductions; each conjunct is the hypothesis of `isReal_of_all` for its array. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
      IsReal (m ((c.tc : Thread nD τ).loc main_arg0) : S100000x9.Idx → EReal)
    ∧ IsReal (m ((c.tc : Thread nD τ).loc main_arg2) : S9x64.Idx → EReal)
    ∧ IsReal (m ((c.tc : Thread nD τ).loc main_arg3) : S64.Idx → EReal)
    ∧ IsReal (m ((c.tc : Thread nD τ).loc main_arg4) : S9x64.Idx → EReal)
    ∧ IsReal (m ((c.tc : Thread nD τ).loc main_arg5) : S64x128.Idx → EReal)
    ∧ IsReal (m ((c.tc : Thread nD τ).loc main_arg6) : S128.Idx → EReal)
    ∧ IsReal (m ((c.tc : Thread nD τ).loc main_arg7) : S64x128.Idx → EReal)
    ∧ IsReal (m ((c.tc : Thread nD τ).loc main_arg8) : S128x128.Idx → EReal)
    ∧ IsReal (m ((c.tc : Thread nD τ).loc main_arg9) : S128.Idx → EReal)
    ∧ IsReal (m ((c.tc : Thread nD τ).loc main_arg10) : S128x128.Idx → EReal)
    ∧ IsReal (m ((c.tc : Thread nD τ).loc main_arg11) : S128x128.Idx → EReal)
    ∧ IsReal (m ((c.tc : Thread nD τ).loc main_arg12) : S128.Idx → EReal)
    ∧ IsReal (m ((c.tc : Thread nD τ).loc main_arg13) : S128x64.Idx → EReal)
    ∧ IsReal (m ((c.tc : Thread nD τ).loc main_arg14) : S64.Idx → EReal)
    ∧ IsReal (m ((c.tc : Thread nD τ).loc main_arg15) : S64x3.Idx → EReal)
    ∧ IsReal (m ((c.tc : Thread nD τ).loc main_arg16) : S3.Idx → EReal) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  simp only [andi, IntOp.andi_eq_one] at e
  obtain ⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩ := e
  exact ⟨isReal_of_all _ _ _ _ _ e0,
    isReal_of_all _ _ _ _ _ e2,
    isReal_of_all _ _ _ _ _ e3,
    isReal_of_all _ _ _ _ _ e4,
    isReal_of_all _ _ _ _ _ e5,
    isReal_of_all _ _ _ _ _ e6,
    isReal_of_all _ _ _ _ _ e7,
    isReal_of_all _ _ _ _ _ e8,
    isReal_of_all _ _ _ _ _ e9,
    isReal_of_all _ _ _ _ _ e10,
    isReal_of_all _ _ _ _ _ e11,
    isReal_of_all _ _ _ _ _ e12,
    isReal_of_all _ _ _ _ _ e13,
    isReal_of_all _ _ _ _ _ e14,
    isReal_of_all _ _ _ _ _ e15,
    isReal_of_all _ _ _ _ _ e16⟩

end Cert.PreReal

end
-- ==== Proof.KernelValue.lean ====
/-
  The idealized kernel's result array is the reference's last stage of the argument arrays.

  The kernel's @main alternates host stretches and regions. Before each region the host computes the neighbour
  aggregate of the current node features; the region then applies one layer row by row. Reading the contents at each
  boundary: after the first region the features are the reference's first-layer stage; hence the second aggregate is
  the reference's, and after the second region the features are the reference's second-layer stage; hence the third
  aggregate is the reference's, and the third region leaves, in row `r`, the log-softmax — grouped as
  `l − (M + log Σ exp (l − M))` — of the reference's logits of node `r`. The reference groups it
  `(l − M) − log Σ exp (l − M)`. Every argument array is real under the precondition, so the logits and their row
  maximum `M` are real, and for real `M` the two groupings are the same number.
-/
import proofs.«138146_j65412351918223_1_alg».proof.Proof.Region0
import proofs.«138146_j65412351918223_1_alg».proof.Proof.Region1
import proofs.«138146_j65412351918223_1_alg».proof.Proof.Region2
import proofs.«138146_j65412351918223_1_alg».proof.Proof.HostGlue
import proofs.«138146_j65412351918223_1_alg».proof.Proof.RefRows
import proofs.«138146_j65412351918223_1_alg».proof.Proof.LogitsReal
import proofs.«138146_j65412351918223_1_alg».proof.Proof.PreReal

set_option maxRecDepth 16384

noncomputable section

namespace Cert.KernelValue

open Cert.KernelIdeal Cert.KernelIdeal.Gen Cert.KernelIdeal.Rows Idealize.ShloMosaic Idealize.ShloMosaic.TcCoe Idealize.ShloMosaic.ValueIdx Idealize.SL.Sem
open Cert.ReferenceIdeal.Read (val_main_v22 val_main_v34 val_main_v53 val_main_v60 val_main_v79 val_main_v99 val_main_v100)

variable (m : (ℓ : Loc nD τ sig) → Buf (Elt Ideal) ℓ) (ρ : Dev nD → PrngReg) (c : Dev nD)

set_option quotPrecheck false

local notation "X0" => m ((c.tc : Thread nD τ).loc main_arg0)
local notation "X1" => m ((c.tc : Thread nD τ).loc main_arg1)
local notation "X2" => m ((c.tc : Thread nD τ).loc main_arg2)
local notation "X3" => m ((c.tc : Thread nD τ).loc main_arg3)
local notation "X4" => m ((c.tc : Thread nD τ).loc main_arg4)
local notation "X5" => m ((c.tc : Thread nD τ).loc main_arg5)
local notation "X6" => m ((c.tc : Thread nD τ).loc main_arg6)
local notation "X7" => m ((c.tc : Thread nD τ).loc main_arg7)
local notation "X8" => m ((c.tc : Thread nD τ).loc main_arg8)
local notation "X9" => m ((c.tc : Thread nD τ).loc main_arg9)
local notation "X10" => m ((c.tc : Thread nD τ).loc main_arg10)
local notation "X11" => m ((c.tc : Thread nD τ).loc main_arg11)
local notation "X12" => m ((c.tc : Thread nD τ).loc main_arg12)
local notation "X13" => m ((c.tc : Thread nD τ).loc main_arg13)
local notation "X14" => m ((c.tc : Thread nD τ).loc main_arg14)
local notation "X15" => m ((c.tc : Thread nD τ).loc main_arg15)
local notation "X16" => m ((c.tc : Thread nD τ).loc main_arg16)

/-- AFTER THE FIRST REGION the node features are the reference's first-layer stage. -/
theorem h1_eq : (W2 m ρ c (Proc.devRef .tc main_v24) : S100000x64.Idx → EReal) = val_main_v34 (F := Ideal) X0 X1 X2 X3 X4 := by
  have hw : (W2 m ρ c (Proc.devRef .tc main_v24) : S100000x64.Idx → EReal) = (dat0 (V1 m ρ) c).arrAt 5 cfg0.N := W2_arr m ρ c 5
  rw [hw, Cert.KernelIdeal.Reg0.final (V1 m ρ) c]
  funext i
  obtain ⟨r, q, rfl⟩ : ∃ (r : Fin 100000) (q : Fin 64), i = ix2 r q := ⟨i 0, i 1, eq_ix2 i⟩
  rw [Cert.RefRows.ref_h1]
  show Cert.Spec.l2n (Cert.Spec.sage (fun k : Fin 9 => V1 m ρ c main_v22 (ix2 r k)) (fun k : Fin 9 => V1 m ρ c main_arg0 (ix2 r k))
      (mat (V1 m ρ c main_arg2)) (mat (V1 m ρ c main_arg4)) (vec (V1 m ρ c main_v23))) q = _
  have hb : vec (V1 m ρ c main_v23) = fun j : Fin 64 => X3 (ix1 j) := funext fun j => Cert.HostGlue.V1_v23_apply m ρ c j
  rw [hb, Cert.HostGlue.agg1_eq m ρ c, Cert.HostGlue.V1_arg0 m ρ c, Cert.HostGlue.V1_arg2 m ρ c, Cert.HostGlue.V1_arg4 m ρ c]

/-- AFTER THE SECOND REGION the node features are the reference's second-layer stage. -/
theorem h2_eq : (W4 m ρ c (Proc.devRef .tc main_v38) : S100000x128.Idx → EReal) = val_main_v60 (F := Ideal) X0 X1 X2 X3 X4 X5 X6 X7 := by
  have hw : (W4 m ρ c (Proc.devRef .tc main_v38) : S100000x128.Idx → EReal) = (dat1 (V3 m ρ) c).arrAt 5 cfg1.N := W4_arr m ρ c 5
  rw [hw, Cert.KernelIdeal.Reg1.final (V3 m ρ) c]
  funext i
  obtain ⟨r, q, rfl⟩ : ∃ (r : Fin 100000) (q : Fin 128), i = ix2 r q := ⟨i 0, i 1, eq_ix2 i⟩
  rw [Cert.RefRows.ref_h2]
  show Cert.Spec.relu (Cert.Spec.sage (fun k : Fin 64 => V3 m ρ c main_v36 (ix2 r k)) (fun k : Fin 64 => V3 m ρ c main_v24 (ix2 r k))
      (mat (V3 m ρ c main_arg5)) (mat (V3 m ρ c main_arg7)) (vec (V3 m ρ c main_v37)) q) = _
  have hb : vec (V3 m ρ c main_v37) = fun j : Fin 128 => X6 (ix1 j) := funext fun j => Cert.HostGlue.V3_v37_apply m ρ c j
  rw [hb, Cert.HostGlue.agg2_eq m ρ c (h1_eq m ρ c), Cert.HostGlue.V3_v24 m ρ c, h1_eq m ρ c, Cert.HostGlue.V3_arg5 m ρ c, Cert.HostGlue.V3_arg7 m ρ c]

/-- Node `r`'s logits, as the third region computes them from the arrays it is entered with, are the reference's. -/
theorem logits_eq (r : Fin 100000) :
    Cert.KernelIdeal.Reg2.logits (V5 m ρ c main_v38) (V5 m ρ c main_v50) (V5 m ρ c main_arg8) (V5 m ρ c main_v51) (V5 m ρ c main_arg10) (V5 m ρ c main_arg11)
        (V5 m ρ c main_v52) (V5 m ρ c main_arg13) (V5 m ρ c main_v53) (V5 m ρ c main_arg15) (V5 m ρ c main_v54) r
      = fun j : Fin 3 => val_main_v99 (F := Ideal) X0 X1 X2 X3 X4 X5 X6 X7 X8 X9 X10 X11 X12 X13 X14 X15 X16 (ix2 r j) := by
  funext j
  rw [Cert.RefRows.ref_logits]
  unfold Cert.KernelIdeal.Reg2.logits
  have hb51 : vec (V5 m ρ c main_v51) = fun j : Fin 128 => X9 (ix1 j) := funext fun j => Cert.HostGlue.V5_v51_apply m ρ c j
  have hb52 : vec (V5 m ρ c main_v52) = fun j : Fin 128 => X12 (ix1 j) := funext fun j => Cert.HostGlue.V5_v52_apply m ρ c j
  have hb53 : vec (V5 m ρ c main_v53) = fun j : Fin 64 => X14 (ix1 j) := funext fun j => Cert.HostGlue.V5_v53_apply m ρ c j
  have hb54 : vec (V5 m ρ c main_v54) = fun j : Fin 3 => X16 (ix1 j) := funext fun j => Cert.HostGlue.V5_v54_apply m ρ c j
  rw [hb51, hb52, hb53, hb54, Cert.HostGlue.agg3_eq m ρ c (h2_eq m ρ c), Cert.HostGlue.V5_v38 m ρ c, h2_eq m ρ c,
    Cert.HostGlue.V5_arg8 m ρ c, Cert.HostGlue.V5_arg10 m ρ c, Cert.HostGlue.V5_arg11 m ρ c, Cert.HostGlue.V5_arg13 m ρ c, Cert.HostGlue.V5_arg15 m ρ c]

/-- THE RESULT: under the precondition the kernel's result array is the reference's last stage of the arguments. -/
theorem out_eq (hpre : Cert.Pre_KernelIdeal (hPre_finite_inputs := Cert.Pre_finite_inputs.Gen.facts) m) :
    (W6 m ρ c (Proc.devRef .tc main_v55) : S100000x3.Idx → EReal) = val_main_v100 (F := Ideal) X0 X1 X2 X3 X4 X5 X6 X7 X8 X9 X10 X11 X12 X13 X14 X15 X16 := by
  have hw : (W6 m ρ c (Proc.devRef .tc main_v55) : S100000x3.Idx → EReal) = (dat2 (V5 m ρ) c).arrAt 11 cfg2.N := W6_arr m ρ c 11
  rw [hw, Cert.KernelIdeal.Reg2.final (V5 m ρ) c]
  funext i
  obtain ⟨r, q, rfl⟩ : ∃ (r : Fin 100000) (q : Fin 3), i = ix2 r q := ⟨i 0, i 1, eq_ix2 i⟩
  rw [Cert.RefRows.ref_out]
  show Cert.Spec.lsmK (Cert.KernelIdeal.Reg2.logits (V5 m ρ c main_v38) (V5 m ρ c main_v50) (V5 m ρ c main_arg8) (V5 m ρ c main_v51) (V5 m ρ c main_arg10) (V5 m ρ c main_arg11)
      (V5 m ρ c main_v52) (V5 m ρ c main_arg13) (V5 m ρ c main_v53) (V5 m ρ c main_arg15) (V5 m ρ c main_v54) r) q = _
  rw [logits_eq m ρ c r]
  obtain ⟨h0, h2, h3, h4, h5, h6, h7, h8, h9, h10, h11, h12, h13, h14, h15, h16⟩ := Cert.PreReal.args_real m hpre c
  exact Cert.Spec.lsm_eq _ q (Cert.LogitsReal.rowmax_real X0 X1 X2 X3 X4 X5 X6 X7 X8 X9 X10 X11 X12 X13 X14 X15 X16 h0 h2 h3 h4 h5 h6 h7 h8 h9 h10 h11 h12 h13 h14 h15 h16 r)

end Cert.KernelValue

end
-- ==== Proof.lean ====
/-
  A three-layer GraphSAGE network with a dense head and a log-softmax, as a Pallas kernel, against its jnp reference,
  over the extended reals.

  The frames of the two kernel programs are the generated ones; the reference is a straight line of host operations,
  and its frame is its run with the result dropped. The idealization rewrote nothing, so `preserves` is `True`.
  For the value claim both programs run from memories that agree on the arguments: the kernel's result buffer ends at
  the last boundary's contents, the reference's at the fold of its operations, which is its last stage of the
  arguments; and under the precondition (every float input finite) the kernel's result array is that same stage
  (`KernelValue.out_eq`): the two programs compute every layer by the same exact operations row by row, and differ
  only in how the final log-softmax groups `l − M − log Σ exp (l − M)`, which is immaterial once the row maximum
  `M` is a real number.
-/
import proofs.«138146_j65412351918223_1_alg».proof.Defs
import proofs.«138146_j65412351918223_1_alg».proof.Proof.Gen.Kernel
import proofs.«138146_j65412351918223_1_alg».proof.Proof.Gen.Kernel.Skeleton
import proofs.«138146_j65412351918223_1_alg».proof.Proof.Gen.Kernel.Launch
import proofs.«138146_j65412351918223_1_alg».proof.Proof.Gen.Kernel.Points
import proofs.«138146_j65412351918223_1_alg».proof.Proof.Gen.Kernel.Frame
import proofs.«138146_j65412351918223_1_alg».proof.Proof.Gen.KernelIdeal
import proofs.«138146_j65412351918223_1_alg».proof.Proof.Gen.KernelIdeal.Skeleton
import proofs.«138146_j65412351918223_1_alg».proof.Proof.Gen.KernelIdeal.Launch
import proofs.«138146_j65412351918223_1_alg».proof.Proof.Gen.KernelIdeal.Points
import proofs.«138146_j65412351918223_1_alg».proof.Proof.Gen.KernelIdeal.Frame
import proofs.«138146_j65412351918223_1_alg».proof.Proof.Gen.ReferenceIdeal
import proofs.«138146_j65412351918223_1_alg».proof.Proof.Gen.Pre_finite_inputs
import proofs.«138146_j65412351918223_1_alg».proof.Proof.RefRunP
import proofs.«138146_j65412351918223_1_alg».proof.Proof.RefRunRead
import proofs.«138146_j65412351918223_1_alg».proof.Proof.NamedRun
import proofs.«138146_j65412351918223_1_alg».proof.Proof.KernelValue
import Idealize.ShloMosaic.Adequacy
import Idealize.ShloMosaic.Init

noncomputable section

namespace Cert.Proof

open Idealize.ShloMosaic Idealize.SL.Sem

/-- The word-level kernel terminates without fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both idealized programs end with the same result array. -/
theorem algebraic : Cert.algebraic_KernelIdeal_ReferenceIdeal := by
  intro m ρ m' ρ' hpre hagree
  refine ⟨fun c => Cert.KernelIdeal.Gen.W6 m ρ c (Proc.devRef .tc Cert.KernelIdeal.main_v55), Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RunRead.readback m' c]
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  exact (Cert.KernelValue.out_eq m ρ c hpre).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
